-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x625000 32) (main_arg2 : FVec F S128x128 .f32) (main_arg3 : FVec F S128 .f32) (main_arg4 : FVec F S128x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg4
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg5 main_v13 main_v16
-- ==== Kernel.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S100000 : Shape := ⟨1, ![100000]⟩
abbrev S1x625000 : Shape := ⟨2, ![1, 625000]⟩
abbrev S625000 : Shape := ⟨1, ![625000]⟩
abbrev S725000 : Shape := ⟨1, ![725000]⟩
abbrev S_ : Shape := ⟨0, ![]⟩
abbrev S725000x1 : Shape := ⟨2, ![725000, 1]⟩
abbrev S10000x128 : Shape := ⟨2, ![10000, 128]⟩
abbrev S725000x128 : Shape := ⟨2, ![725000, 128]⟩
abbrev S1x128 : Shape := ⟨2, ![1, 128]⟩
abbrev S100000x32 : Shape := ⟨2, ![100000, 32]⟩
abbrev S10000x32 : Shape := ⟨2, ![10000, 32]⟩
abbrev S725000x32 : Shape := ⟨2, ![725000, 32]⟩
abbrev S1x32 : Shape := ⟨2, ![1, 32]⟩
abbrev S10000 : Shape := ⟨1, ![10000]⟩
abbrev S10000x1 : Shape := ⟨2, ![10000, 1]⟩

abbrev nBuf : Space → Nat
  | .hbm => 77
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S100000, .i32⟩
  | .hbm, ⟨7, _⟩ => ⟨S1x625000, .i32⟩
  | .hbm, ⟨8, _⟩ => ⟨S625000, .i32⟩
  | .hbm, ⟨9, _⟩ => ⟨S725000, .i32⟩
  | .hbm, ⟨10, _⟩ => ⟨S1x625000, .i32⟩
  | .hbm, ⟨11, _⟩ => ⟨S625000, .i32⟩
  | .hbm, ⟨12, _⟩ => ⟨S725000, .i32⟩
  | .hbm, ⟨13, _⟩ => ⟨S_, .f32⟩
  | .hbm, ⟨14, _⟩ => ⟨S725000, .f32⟩
  | .hbm, ⟨15, _⟩ => ⟨S_, .f32⟩
  | .hbm, ⟨16, _⟩ => ⟨S100000, .f32⟩
  | .hbm, ⟨17, _⟩ => ⟨S725000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S725000, .i32⟩
  | .hbm, ⟨22, _⟩ => ⟨S725000, .i1⟩
  | .hbm, ⟨23, _⟩ => ⟨S_, .i32⟩
  | .hbm, ⟨24, _⟩ => ⟨S725000, .i32⟩
  | .hbm, ⟨25, _⟩ => ⟨S725000, .i32⟩
  | .hbm, ⟨26, _⟩ => ⟨S725000, .i32⟩
  | .hbm, ⟨27, _⟩ => ⟨S725000x1, .i32⟩
  | .hbm, ⟨28, _⟩ => ⟨S725000, .f32⟩
  | .hbm, ⟨29, _⟩ => ⟨S_, .i32⟩
  | .hbm, ⟨30, _⟩ => ⟨S725000, .i32⟩
  | .hbm, ⟨31, _⟩ => ⟨S725000, .i1⟩
  | .hbm, ⟨32, _⟩ => ⟨S_, .i32⟩
  | .hbm, ⟨33, _⟩ => ⟨S725000, .i32⟩
  | .hbm, ⟨34, _⟩ => ⟨S725000, .i32⟩
  | .hbm, ⟨35, _⟩ => ⟨S725000, .i32⟩
  | .hbm, ⟨36, _⟩ => ⟨S725000x1, .i32⟩
  | .hbm, ⟨37, _⟩ => ⟨S725000, .f32⟩
  | .hbm, ⟨38, _⟩ => ⟨S725000, .f32⟩
  | .hbm, ⟨39, _⟩ => ⟨S100000x128, .f32⟩
  | .hbm, ⟨40, _⟩ => ⟨S_, .i32⟩
  | .hbm, ⟨41, _⟩ => ⟨S725000, .i32⟩
  | .hbm, ⟨42, _⟩ => ⟨S725000, .i1⟩
  | .hbm, ⟨43, _⟩ => ⟨S_, .i32⟩
  | .hbm, ⟨44, _⟩ => ⟨S725000, .i32⟩
  | .hbm, ⟨45, _⟩ => ⟨S725000, .i32⟩
  | .hbm, ⟨46, _⟩ => ⟨S725000, .i32⟩
  | .hbm, ⟨47, _⟩ => ⟨S725000x1, .i32⟩
  | .hbm, ⟨48, _⟩ => ⟨S725000x128, .f32⟩
  | .hbm, ⟨49, _⟩ => ⟨S725000x1, .f32⟩
  | .hbm, ⟨50, _⟩ => ⟨S725000x128, .f32⟩
  | .hbm, ⟨51, _⟩ => ⟨S725000x128, .f32⟩
  | .hbm, ⟨52, _⟩ => ⟨S_, .f32⟩
  | .hbm, ⟨53, _⟩ => ⟨S100000x128, .f32⟩
  | .hbm, ⟨54, _⟩ => ⟨S725000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x32, .f32⟩
  | .hbm, ⟨59, _⟩ => ⟨S_, .i32⟩
  | .hbm, ⟨60, _⟩ => ⟨S725000, .i32⟩
  | .hbm, ⟨61, _⟩ => ⟨S725000, .i1⟩
  | .hbm, ⟨62, _⟩ => ⟨S_, .i32⟩
  | .hbm, ⟨63, _⟩ => ⟨S725000, .i32⟩
  | .hbm, ⟨64, _⟩ => ⟨S725000, .i32⟩
  | .hbm, ⟨65, _⟩ => ⟨S725000, .i32⟩
  | .hbm, ⟨66, _⟩ => ⟨S725000x1, .i32⟩
  | .hbm, ⟨67, _⟩ => ⟨S725000x32, .f32⟩
  | .hbm, ⟨68, _⟩ => ⟨S725000x1, .f32⟩
  | .hbm, ⟨69, _⟩ => ⟨S725000x32, .f32⟩
  | .hbm, ⟨70, _⟩ => ⟨S725000x32, .f32⟩
  | .hbm, ⟨71, _⟩ => ⟨S_, .f32⟩
  | .hbm, ⟨72, _⟩ => ⟨S100000x32, .f32⟩
  | .hbm, ⟨73, _⟩ => ⟨S725000x1, .i32⟩
  | .hbm, ⟨74, _⟩ => ⟨S100000x32, .f32⟩
  | .hbm, ⟨75, _⟩ => ⟨S1x32, .f32⟩
  | .hbm, ⟨76, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x625000_S1x625000_0_0 : S2x625000.Slices ![0, 0] S1x625000
  shapeCasts_S1x625000_S625000 : S1x625000.ShapeCasts S625000
  concatenates_S625000_S100000_S725000_d0 : Shape.Concatenates [S625000, S100000] S725000 0
  slices_S2x625000_S1x625000_1_0 : S2x625000.Slices ![1, 0] S1x625000
  bcast_S_S725000 : S_.BroadcastsInDim S725000 (![] : Fin 0 → Fin S725000.rank)
  bcast_S_S100000 : S_.BroadcastsInDim S100000 (![] : Fin 0 → Fin S100000.rank)
  bcast_S725000_S725000x1_0 : S725000.BroadcastsInDim S725000x1 (![0] : Fin 1 → Fin S725000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S725000x1_S725000x128_0_1 : S725000x1.BroadcastsInDim S725000x128 (![0, 1] : Fin 2 → Fin S725000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S725000x1_S725000x32_0_1 : S725000x1.BroadcastsInDim S725000x32 (![0, 1] : Fin 2 → Fin S725000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  reduces_S10000x32_S10000 : S10000x32.Reduces [1] S10000
  shapeCasts_S10000_S10000x1 : S10000.ShapeCasts S10000x1
  broadcasts_S10000x1_S10000x32 : S10000x1.Broadcasts S10000x32
  scatter_S100000_S725000x1_S725000_n_0_0_1_wf : ScatterDims.WF S100000 S725000x1 S725000 [] [0] [0] 1
  gather_S100000_S725000x1_S725000_n_0_n_n_0_1_1_wf : GatherDims.WF S100000 S725000x1 S725000 [] [0] [] [0] [] 1 ![1]
  dot_S10000x128_S128x128_S10000x128_1_0_0_1_n_n_wf : DotDims.WF S10000x128 S128x128 S10000x128 [1] [0] [0] [1] [] []
  gather_S100000x128_S725000x1_S725000x128_1_0_n_n_0_1_1128_wf : GatherDims.WF S100000x128 S725000x1 S725000x128 [1] [0] [] [0] [] 1 ![1, 128]
  scatter_S100000x128_S725000x1_S725000x128_1_0_0_1_wf : ScatterDims.WF S100000x128 S725000x1 S725000x128 [1] [0] [0] 1
  dot_S10000x128_S128x32_S10000x32_1_0_0_1_n_n_wf : DotDims.WF S10000x128 S128x32 S10000x32 [1] [0] [0] [1] [] []
  gather_S100000x32_S725000x1_S725000x32_1_0_n_n_0_1_132_wf : GatherDims.WF S100000x32 S725000x1 S725000x32 [1] [0] [] [0] [] 1 ![1, 32]
  scatter_S100000x32_S725000x1_S725000x32_1_0_0_1_wf : ScatterDims.WF S100000x32 S725000x1 S725000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x32.size a ≤ S128x32.size a
  hwx2_1 : ∀ i : grid2.Coords, EltTy.bits .f32 = 32 ∨ (Rect.block (s := S128x32) S128x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)

variable [Facts₀]

def scatter_S100000_S725000x1_S725000_n_0_0_1 : ScatterDims S100000 S725000x1 S725000 where
  updateWindowDims := []
  insertedWindowDims := [0]
  scatterDimsToOperandDims := [0]
  indexVectorDim := 1
  wf := scatter_S100000_S725000x1_S725000_n_0_0_1_wf
def gather_S100000_S725000x1_S725000_n_0_n_n_0_1_1 : GatherDims S100000 S725000x1 S725000 where
  offsetDims := []
  collapsedSliceDims := [0]
  operandBatchingDims := []
  startIndicesBatchingDims := []
  startIndexMap := [0]
  indexVectorDim := 1
  sliceSizes := ![1]
  wf := gather_S100000_S725000x1_S725000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S725000x1_S725000x128_1_0_n_n_0_1_1128 : GatherDims S100000x128 S725000x1 S725000x128 where
  offsetDims := [1]
  collapsedSliceDims := [0]
  operandBatchingDims := []
  startIndicesBatchingDims := []
  startIndexMap := [0]
  indexVectorDim := 1
  sliceSizes := ![1, 128]
  wf := gather_S100000x128_S725000x1_S725000x128_1_0_n_n_0_1_1128_wf
def scatter_S100000x128_S725000x1_S725000x128_1_0_0_1 : ScatterDims S100000x128 S725000x1 S725000x128 where
  updateWindowDims := [1]
  insertedWindowDims := [0]
  scatterDimsToOperandDims := [0]
  indexVectorDim := 1
  wf := scatter_S100000x128_S725000x1_S725000x128_1_0_0_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S725000x1_S725000x32_1_0_n_n_0_1_132 : GatherDims S100000x32 S725000x1 S725000x32 where
  offsetDims := [1]
  collapsedSliceDims := [0]
  operandBatchingDims := []
  startIndicesBatchingDims := []
  startIndexMap := [0]
  indexVectorDim := 1
  sliceSizes := ![1, 32]
  wf := gather_S100000x32_S725000x1_S725000x32_1_0_n_n_0_1_132_wf
def scatter_S100000x32_S725000x1_S725000x32_1_0_0_1 : ScatterDims S100000x32 S725000x1 S725000x32 where
  updateWindowDims := [1]
  insertedWindowDims := [0]
  scatterDimsToOperandDims := [0]
  indexVectorDim := 1
  wf := scatter_S100000x32_S725000x1_S725000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S100000 : Shape := ⟨1, ![100000]⟩
abbrev S1x625000 : Shape := ⟨2, ![1, 625000]⟩
abbrev S625000 : Shape := ⟨1, ![625000]⟩
abbrev S725000 : Shape := ⟨1, ![725000]⟩
abbrev S_ : Shape := ⟨0, ![]⟩
abbrev S725000x1 : Shape := ⟨2, ![725000, 1]⟩
abbrev S725000x128 : Shape := ⟨2, ![725000, 128]⟩
abbrev S1x128 : Shape := ⟨2, ![1, 128]⟩
abbrev S100000x32 : Shape := ⟨2, ![100000, 32]⟩
abbrev S725000x32 : Shape := ⟨2, ![725000, 32]⟩
abbrev S1x32 : Shape := ⟨2, ![1, 32]⟩
abbrev S100000x1 : Shape := ⟨2, ![100000, 1]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S100000, .i32⟩
  | .hbm, ⟨7, _⟩ => ⟨S1x625000, .i32⟩
  | .hbm, ⟨8, _⟩ => ⟨S625000, .i32⟩
  | .hbm, ⟨9, _⟩ => ⟨S725000, .i32⟩
  | .hbm, ⟨10, _⟩ => ⟨S1x625000, .i32⟩
  | .hbm, ⟨11, _⟩ => ⟨S625000, .i32⟩
  | .hbm, ⟨12, _⟩ => ⟨S725000, .i32⟩
  | .hbm, ⟨13, _⟩ => ⟨S_, .f32⟩
  | .hbm, ⟨14, _⟩ => ⟨S725000, .f32⟩
  | .hbm, ⟨15, _⟩ => ⟨S_, .f32⟩
  | .hbm, ⟨16, _⟩ => ⟨S100000, .f32⟩
  | .hbm, ⟨17, _⟩ => ⟨S725000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S725000, .i32⟩
  | .hbm, ⟨22, _⟩ => ⟨S725000, .i1⟩
  | .hbm, ⟨23, _⟩ => ⟨S_, .i32⟩
  | .hbm, ⟨24, _⟩ => ⟨S725000, .i32⟩
  | .hbm, ⟨25, _⟩ => ⟨S725000, .i32⟩
  | .hbm, ⟨26, _⟩ => ⟨S725000, .i32⟩
  | .hbm, ⟨27, _⟩ => ⟨S725000x1, .i32⟩
  | .hbm, ⟨28, _⟩ => ⟨S725000, .f32⟩
  | .hbm, ⟨29, _⟩ => ⟨S_, .i32⟩
  | .hbm, ⟨30, _⟩ => ⟨S725000, .i32⟩
  | .hbm, ⟨31, _⟩ => ⟨S725000, .i1⟩
  | .hbm, ⟨32, _⟩ => ⟨S_, .i32⟩
  | .hbm, ⟨33, _⟩ => ⟨S725000, .i32⟩
  | .hbm, ⟨34, _⟩ => ⟨S725000, .i32⟩
  | .hbm, ⟨35, _⟩ => ⟨S725000, .i32⟩
  | .hbm, ⟨36, _⟩ => ⟨S725000x1, .i32⟩
  | .hbm, ⟨37, _⟩ => ⟨S725000, .f32⟩
  | .hbm, ⟨38, _⟩ => ⟨S725000, .f32⟩
  | .hbm, ⟨39, _⟩ => ⟨S100000x128, .f32⟩
  | .hbm, ⟨40, _⟩ => ⟨S_, .i32⟩
  | .hbm, ⟨41, _⟩ => ⟨S725000, .i32⟩
  | .hbm, ⟨42, _⟩ => ⟨S725000, .i1⟩
  | .hbm, ⟨43, _⟩ => ⟨S_, .i32⟩
  | .hbm, ⟨44, _⟩ => ⟨S725000, .i32⟩
  | .hbm, ⟨45, _⟩ => ⟨S725000, .i32⟩
  | .hbm, ⟨46, _⟩ => ⟨S725000, .i32⟩
  | .hbm, ⟨47, _⟩ => ⟨S725000x1, .i32⟩
  | .hbm, ⟨48, _⟩ => ⟨S725000x128, .f32⟩
  | .hbm, ⟨49, _⟩ => ⟨S725000x1, .f32⟩
  | .hbm, ⟨50, _⟩ => ⟨S725000x128, .f32⟩
  | .hbm, ⟨51, _⟩ => ⟨S725000x128, .f32⟩
  | .hbm, ⟨52, _⟩ => ⟨S_, .f32⟩
  | .hbm, ⟨53, _⟩ => ⟨S100000x128, .f32⟩
  | .hbm, ⟨54, _⟩ => ⟨S725000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x32, .f32⟩
  | .hbm, ⟨63, _⟩ => ⟨S_, .i32⟩
  | .hbm, ⟨64, _⟩ => ⟨S725000, .i32⟩
  | .hbm, ⟨65, _⟩ => ⟨S725000, .i1⟩
  | .hbm, ⟨66, _⟩ => ⟨S_, .i32⟩
  | .hbm, ⟨67, _⟩ => ⟨S725000, .i32⟩
  | .hbm, ⟨68, _⟩ => ⟨S725000, .i32⟩
  | .hbm, ⟨69, _⟩ => ⟨S725000, .i32⟩
  | .hbm, ⟨70, _⟩ => ⟨S725000x1, .i32⟩
  | .hbm, ⟨71, _⟩ => ⟨S725000x32, .f32⟩
  | .hbm, ⟨72, _⟩ => ⟨S725000x1, .f32⟩
  | .hbm, ⟨73, _⟩ => ⟨S725000x32, .f32⟩
  | .hbm, ⟨74, _⟩ => ⟨S725000x32, .f32⟩
  | .hbm, ⟨75, _⟩ => ⟨S_, .f32⟩
  | .hbm, ⟨76, _⟩ => ⟨S100000x32, .f32⟩
  | .hbm, ⟨77, _⟩ => ⟨S725000x1, .i32⟩
  | .hbm, ⟨78, _⟩ => ⟨S100000x32, .f32⟩
  | .hbm, ⟨79, _⟩ => ⟨S1x32, .f32⟩
  | .hbm, ⟨80, _⟩ => ⟨S100000x32, .f32⟩
  | .hbm, ⟨81, _⟩ => ⟨S100000x32, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S100000x1, .f32⟩
  | .hbm, ⟨88, _⟩ => ⟨S100000x32, .f32⟩
  | .hbm, ⟨89, _⟩ => ⟨S100000x32, .f32⟩
  | .hbm, ⟨90, _⟩ => ⟨S100000x32, .f32⟩
  | .hbm, ⟨91, _⟩ => ⟨S_, .f32⟩
  | .hbm, ⟨92, _⟩ => ⟨S100000, .f32⟩
  | .hbm, ⟨93, _⟩ => ⟨S100000x1, .f32⟩
  | .hbm, ⟨94, _⟩ => ⟨S100000x1, .f32⟩
  | .hbm, ⟨95, _⟩ => ⟨S100000x32, .f32⟩
  | .hbm, ⟨96, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call1_cst : Ref sig .tc := ⟨.hbm, 82, rfl⟩
abbrev main_call1_v0 : Ref sig .tc := ⟨.hbm, 83, rfl⟩
abbrev main_call1_cst_0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_cst_1 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_v62 : Ref sig .tc := ⟨.hbm, 96, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  concatenates_S625000_S100000_S725000_d0 : Shape.Concatenates [S625000, S100000] S725000 0
  slices_S2x625000_S1x625000_1_0 : S2x625000.Slices ![1, 0] S1x625000
  bcast_S_S725000 : S_.BroadcastsInDim S725000 (![] : Fin 0 → Fin S725000.rank)
  bcast_S_S100000 : S_.BroadcastsInDim S100000 (![] : Fin 0 → Fin S100000.rank)
  bcast_S725000_S725000x1_0 : S725000.BroadcastsInDim S725000x1 (![0] : Fin 1 → Fin S725000x1.rank)
  bcast_S725000x1_S725000x128_0_1 : S725000x1.BroadcastsInDim S725000x128 (![0, 1] : Fin 2 → Fin S725000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S725000x1_S725000x32_0_1 : S725000x1.BroadcastsInDim S725000x32 (![0, 1] : Fin 2 → Fin S725000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  scatter_S100000_S725000x1_S725000_n_0_0_1_wf : ScatterDims.WF S100000 S725000x1 S725000 [] [0] [0] 1
  gather_S100000_S725000x1_S725000_n_0_n_n_0_1_1_wf : GatherDims.WF S100000 S725000x1 S725000 [] [0] [] [0] [] 1 ![1]
  dot_S100000x128_S128x128_S100000x128_1_0_0_1_n_n_wf : DotDims.WF S100000x128 S128x128 S100000x128 [1] [0] [0] [1] [] []
  gather_S100000x128_S725000x1_S725000x128_1_0_n_n_0_1_1128_wf : GatherDims.WF S100000x128 S725000x1 S725000x128 [1] [0] [] [0] [] 1 ![1, 128]
  scatter_S100000x128_S725000x1_S725000x128_1_0_0_1_wf : ScatterDims.WF S100000x128 S725000x1 S725000x128 [1] [0] [0] 1
  dot_S100000x128_S128x32_S100000x32_1_0_0_1_n_n_wf : DotDims.WF S100000x128 S128x32 S100000x32 [1] [0] [0] [1] [] []
  gather_S100000x32_S725000x1_S725000x32_1_0_n_n_0_1_132_wf : GatherDims.WF S100000x32 S725000x1 S725000x32 [1] [0] [] [0] [] 1 ![1, 32]
  scatter_S100000x32_S725000x1_S725000x32_1_0_0_1_wf : ScatterDims.WF S100000x32 S725000x1 S725000x32 [1] [0] [0] 1

variable [Facts₀]

def scatter_S100000_S725000x1_S725000_n_0_0_1 : ScatterDims S100000 S725000x1 S725000 where
  updateWindowDims := []
  insertedWindowDims := [0]
  scatterDimsToOperandDims := [0]
  indexVectorDim := 1
  wf := scatter_S100000_S725000x1_S725000_n_0_0_1_wf
def gather_S100000_S725000x1_S725000_n_0_n_n_0_1_1 : GatherDims S100000 S725000x1 S725000 where
  offsetDims := []
  collapsedSliceDims := [0]
  operandBatchingDims := []
  startIndicesBatchingDims := []
  startIndexMap := [0]
  indexVectorDim := 1
  sliceSizes := ![1]
  wf := gather_S100000_S725000x1_S725000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S725000x1_S725000x128_1_0_n_n_0_1_1128 : GatherDims S100000x128 S725000x1 S725000x128 where
  offsetDims := [1]
  collapsedSliceDims := [0]
  operandBatchingDims := []
  startIndicesBatchingDims := []
  startIndexMap := [0]
  indexVectorDim := 1
  sliceSizes := ![1, 128]
  wf := gather_S100000x128_S725000x1_S725000x128_1_0_n_n_0_1_1128_wf
def scatter_S100000x128_S725000x1_S725000x128_1_0_0_1 : ScatterDims S100000x128 S725000x1 S725000x128 where
  updateWindowDims := [1]
  insertedWindowDims := [0]
  scatterDimsToOperandDims := [0]
  indexVectorDim := 1
  wf := scatter_S100000x128_S725000x1_S725000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S725000x1_S725000x32_1_0_n_n_0_1_132 : GatherDims S100000x32 S725000x1 S725000x32 where
  offsetDims := [1]
  collapsedSliceDims := [0]
  operandBatchingDims := []
  startIndicesBatchingDims := []
  startIndexMap := [0]
  indexVectorDim := 1
  sliceSizes := ![1, 32]
  wf := gather_S100000x32_S725000x1_S725000x32_1_0_n_n_0_1_132_wf
def scatter_S100000x32_S725000x1_S725000x32_1_0_0_1 : ScatterDims S100000x32 S725000x1 S725000x32 where
  updateWindowDims := [1]
  insertedWindowDims := [0]
  scatterDimsToOperandDims := [0]
  indexVectorDim := 1
  wf := scatter_S100000x32_S725000x1_S725000x32_1_0_0_1_wf

class Facts : Prop extends Facts₀ where

variable [Facts]
-- ==== Proof.KernelRun.lean ====
/-
  The idealized kernel's run with its result array named.

  The program is four grid regions among stretches of host operations. Its buffer contents at each boundary are a
  fold from the launch memory: a stretch of host operations rewrites the buffers it writes, a region leaves each
  of its output arrays at what its grid points write back and every other buffer as it found it. The last
  boundary's contents are `Gen.W7`. Every weakly fair execution terminates, nothing faulting, with every
  buffer that outlives the regions at those contents; in particular the returned array `main_v58` ends at
  `Gen.W7 … main_v58` and the six arguments end as launched.
-/
import proofs.«105643_j20203526160738_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel terminates with the returned array at the last
    boundary's contents and the arguments as launched. -/
theorem run_named : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Named

end
-- ==== Proof.Spec.lean ====
/-
  What each of the four grid regions computes, as ONE function of its two operand arrays, index by index, on the
  extended reals. A graph-convolution layer is: a linear map of the node features (`lin128`, `lin32`: entry (r, c) is
  the sum over k of x(r, k) · w(k, c)), a gather / scale / scatter-add over the edge list done outside the regions,
  then a bias and a pointwise or row-wise finish: `biasRelu` is max(a + b, 0) entry by entry, `biasLogSoftmax`
  is, for the row z = a(r, ·) + b, the entry (z_c − max z) − log ∑ⱼ exp(z_j − max z). The row maximum is the
  fold of max from the −∞ word's value, as the reductions compute it.
-/
import Idealize.ShloMosaic.PureOps.Ideal
import Idealize.ShloMosaic.Lib.ValueIdx

noncomputable section

namespace Cert.Gcn

open Idealize.ShloMosaic Idealize.ShloMosaic.ValueIdx

/-- 100000 rows of 128 features times a [128, 128] weight: entry (r, c) is ∑ₖ x(r, k) · w(k, c). -/
def lin128 (x : (⟨2, ![100000, 128]⟩ : Shape).Idx → EReal) (w : (⟨2, ![128, 128]⟩ : Shape).Idx → EReal) :
    (⟨2, ![100000, 128]⟩ : Shape).Idx → EReal :=
  fun i => ∑ k : Fin 128, x (ix2 (i 0) k) * w (ix2 k (i 1))

/-- 100000 rows of 128 features times a [128, 32] weight: entry (r, c) is ∑ₖ x(r, k) · w(k, c). -/
def lin32 (x : (⟨2, ![100000, 128]⟩ : Shape).Idx → EReal) (w : (⟨2, ![128, 32]⟩ : Shape).Idx → EReal) :
    (⟨2, ![100000, 32]⟩ : Shape).Idx → EReal :=
  fun i => ∑ k : Fin 128, x (ix2 (i 0) k) * w (ix2 k (i 1))

/-- Bias then rectifier: entry (r, c) is max (a(r, c) + b(0, c)) 0, the zero being the zero word's value. -/
def biasRelu (a : (⟨2, ![100000, 128]⟩ : Shape).Idx → EReal) (b : (⟨2, ![1, 128]⟩ : Shape).Idx → EReal) :
    (⟨2, ![100000, 128]⟩ : Shape).Idx → EReal :=
  fun i => max (a i + b (ix2 (0 : Fin 1) (i 1))) (Ideal.ofBits .f32 0x00000000#32)

/-- Row r of the biased logits: j ↦ a(r, j) + b(0, j). -/
def logits (a : (⟨2, ![100000, 32]⟩ : Shape).Idx → EReal) (b : (⟨2, ![1, 32]⟩ : Shape).Idx → EReal) (r : Fin 100000) :
    Fin 32 → EReal :=
  fun j => a (ix2 r j) + b (ix2 (0 : Fin 1) j)

/-- A row's maximum: the fold of max over its 32 entries from the −∞ word's value. -/
def rowMax (z : Fin 32 → EReal) : EReal :=
  (Finset.univ : Finset (Fin 32)).fold max (Ideal.ofBits .f32 0xFF800000#32) z

/-- Bias then log-softmax along a row: entry (r, c) is (z_c − max z) − log ∑ⱼ exp (z_j − max z) for z = a(r, ·) + b. -/
def biasLogSoftmax (a : (⟨2, ![100000, 32]⟩ : Shape).Idx → EReal) (b : (⟨2, ![1, 32]⟩ : Shape).Idx → EReal) :
    (⟨2, ![100000, 32]⟩ : Shape).Idx → EReal :=
  fun i => (logits a b (i 0) (i 1) - rowMax (logits a b (i 0)))
    - Ideal.log (∑ j : Fin 32, Ideal.exp (logits a b (i 0) j - rowMax (logits a b (i 0))))

end Cert.Gcn

end
-- ==== Proof.KernelFold.lean ====
/-
  The idealized kernel's returned array as one function of its arguments.

  Outside the four grid regions the program is plain array operations on the edge list: `endpoints` lists, for
  each of the 625000 edges and then for each of the 100000 nodes (a self-loop), its source or its target;
  `edgeWeight` is the symmetric normalisation 1/sqrt(deg source) · 1/sqrt(deg target) of every list entry, the
  degree counting the entries that target a node; `aggregate128` / `aggregate32` gather the source rows of a node
  matrix, scale each by its entry's weight and add it into the target row. Each stretch of these operations is
  read once, at an arbitrary state of the buffers, as such a function of the buffers it reads; each region
  leaves its output array at its whole-array function (Spec) of its two operand arrays and every other
  buffer as it was. Walking the boundaries in order gives the result: two graph-convolution layers,
  log-softmax(Â·relu(Â·(x·W1) + b1)·W2 + b2) with Â the normalised adjacency, written with these functions.
-/
import proofs.«105643_j20203526160738_1_alg».proof.Proof.Gen.KernelIdeal.Frame
import proofs.«105643_j20203526160738_1_alg».proof.Proof.Spec
import Idealize.ShloMosaic.Lib.StableHlo.Run

set_option maxRecDepth 16384

noncomputable section

namespace Cert.KernelIdeal.Fold

open Cert.KernelIdeal
open Idealize.ShloMosaic Idealize.ShloMosaic.TcCoe Idealize.SL.Sem Idealize.ShloMosaic.StableHlo

variable {F : FTy → Type} [FloatOps F]

section Glue
open Cert.KernelIdeal.Facts₀ Cert.KernelIdeal.Facts

/-- The source (row 0) or target (row 1) node of every edge, followed by every node once (the self-loops). -/
def endpoints (row : Fin 2 → Nat) (hrow : S2x625000.Slices row S1x625000) (e : (⟨S2x625000, .i32⟩ : BufTy).Contents (Elt F)) :
    (⟨S725000, .i32⟩ : BufTy).Contents (Elt F) :=
  concatenate S725000 0 [⟨S625000, shapeCast S625000 (extractStridedSlice S1x625000 row e hrow) shapeCasts_S1x625000_S625000⟩,
    ⟨S100000, iotaInDim S100000 32 0⟩] concatenates_S625000_S100000_S725000_d0

/-- A node list as a gather's index column: a negative index is first moved up by the node count. -/
def indexColumn (s : (⟨S725000, .i32⟩ : BufTy).Contents (Elt F)) : (⟨S725000x1, .i32⟩ : BufTy).Contents (Elt F) :=
  broadcastInDim S725000x1 ![0] bcast_S725000_S725000x1_0
    (select (cmpi .slt s (broadcastInDim S725000 ![] bcast_S_S725000 (constantI S_ 32 0#32)))
      (addi s (broadcastInDim S725000 ![] bcast_S_S725000 (constantI S_ 32 100000#32))) s)

/-- 1 / sqrt(degree): the degree of a node is the number of list entries that target it. -/
def invSqrtDegree (d : (⟨S725000, .i32⟩ : BufTy).Contents (Elt F)) : (⟨S100000, .f32⟩ : BufTy).Contents (Elt F) :=
  Host.rsqrt (Host.scatterAdd scatter_S100000_S725000x1_S725000_n_0_0_1
    (broadcastInDim S100000 ![] bcast_S_S100000 (constant S_ .f32 0x00000000#32))
    (broadcastInDim S725000x1 ![0] bcast_S725000_S725000x1_0 d)
    (broadcastInDim S725000 ![] bcast_S_S725000 (constant S_ .f32 0x3F800000#32)))

/-- The symmetric normalisation of every list entry: 1 / sqrt(deg source) · 1 / sqrt(deg target). -/
def edgeWeight (s d : (⟨S725000, .i32⟩ : BufTy).Contents (Elt F)) : (⟨S725000, .f32⟩ : BufTy).Contents (Elt F) :=
  mulf (Host.gather gather_S100000_S725000x1_S725000_n_0_n_n_0_1_1 (invSqrtDegree d) (indexColumn s))
    (Host.gather gather_S100000_S725000x1_S725000_n_0_n_n_0_1_1 (invSqrtDegree d) (indexColumn d))

/-- One aggregation over 128 features: gather the source rows, scale each by its entry's weight, add into the target rows. -/
def aggregate128 (h : (⟨S100000x128, .f32⟩ : BufTy).Contents (Elt F)) (s d : (⟨S725000, .i32⟩ : BufTy).Contents (Elt F))
    (n : (⟨S725000, .f32⟩ : BufTy).Contents (Elt F)) : (⟨S100000x128, .f32⟩ : BufTy).Contents (Elt F) :=
  Host.scatterAdd scatter_S100000x128_S725000x1_S725000x128_1_0_0_1
    (broadcastInDim S100000x128 ![] bcast_S_S100000x128 (constant S_ .f32 0x00000000#32))
    (broadcastInDim S725000x1 ![0] bcast_S725000_S725000x1_0 d)
    (mulf (Host.gather gather_S100000x128_S725000x1_S725000x128_1_0_n_n_0_1_1128 h (indexColumn s))
      (broadcastInDim S725000x128 ![0, 1] bcast_S725000x1_S725000x128_0_1 (broadcastInDim S725000x1 ![0] bcast_S725000_S725000x1_0 n)))

/-- The same aggregation over 32 features. -/
def aggregate32 (h : (⟨S100000x32, .f32⟩ : BufTy).Contents (Elt F)) (s d : (⟨S725000, .i32⟩ : BufTy).Contents (Elt F))
    (n : (⟨S725000, .f32⟩ : BufTy).Contents (Elt F)) : (⟨S100000x32, .f32⟩ : BufTy).Contents (Elt F) :=
  Host.scatterAdd scatter_S100000x32_S725000x1_S725000x32_1_0_0_1
    (broadcastInDim S100000x32 ![] bcast_S_S100000x32 (constant S_ .f32 0x00000000#32))
    (broadcastInDim S725000x1 ![0] bcast_S725000_S725000x1_0 d)
    (mulf (Host.gather gather_S100000x32_S725000x1_S725000x32_1_0_n_n_0_1_132 h (indexColumn s))
      (broadcastInDim S725000x32 ![0, 1] bcast_S725000x1_S725000x32_0_1 (broadcastInDim S725000x1 ![0] bcast_S725000_S725000x1_0 n)))

end Glue

/-! ## The three stretches of host operations, each read at an arbitrary state `W` of the buffers -/

section Stretches
open Cert.KernelIdeal.Gen

/-! ### Before the first region: the edge list's endpoints and weights; the arguments are not written -/

set_option maxHeartbeats 4000000 in
theorem stretch0_keeps_arg0 (W : Valuation τ sig (Elt F)) : StableHlo.after hostOps0 W (Proc.devRef .tc main_arg0) = W (Proc.devRef .tc main_arg0) := by
  after_results <;> rfl
set_option maxHeartbeats 4000000 in
theorem stretch0_keeps_arg2 (W : Valuation τ sig (Elt F)) : StableHlo.after hostOps0 W (Proc.devRef .tc main_arg2) = W (Proc.devRef .tc main_arg2) := by
  after_results <;> rfl
set_option maxHeartbeats 4000000 in
theorem stretch0_keeps_arg3 (W : Valuation τ sig (Elt F)) : StableHlo.after hostOps0 W (Proc.devRef .tc main_arg3) = W (Proc.devRef .tc main_arg3) := by
  after_results <;> rfl
set_option maxHeartbeats 4000000 in
theorem stretch0_keeps_arg4 (W : Valuation τ sig (Elt F)) : StableHlo.after hostOps0 W (Proc.devRef .tc main_arg4) = W (Proc.devRef .tc main_arg4) := by
  after_results <;> rfl
set_option maxHeartbeats 4000000 in
theorem stretch0_keeps_arg5 (W : Valuation τ sig (Elt F)) : StableHlo.after hostOps0 W (Proc.devRef .tc main_arg5) = W (Proc.devRef .tc main_arg5) := by
  after_results <;> rfl

set_option maxHeartbeats 4000000 in
theorem stretch0_sources (W : Valuation τ sig (Elt F)) : StableHlo.after hostOps0 W (Proc.devRef .tc main_v3)
    = endpoints ![0, 0] slices_S2x625000_S1x625000_0_0 (W (Proc.devRef .tc main_arg1)) := by
  after_results <;> rfl

set_option maxHeartbeats 4000000 in
theorem stretch0_targets (W : Valuation τ sig (Elt F)) : StableHlo.after hostOps0 W (Proc.devRef .tc main_v6)
    = endpoints ![1, 0] slices_S2x625000_S1x625000_1_0 (W (Proc.devRef .tc main_arg1)) := by
  after_results <;> rfl

set_option maxHeartbeats 4000000 in
theorem stretch0_weights (W : Valuation τ sig (Elt F)) : StableHlo.after hostOps0 W (Proc.devRef .tc main_v26)
    = edgeWeight (endpoints ![0, 0] slices_S2x625000_S1x625000_0_0 (W (Proc.devRef .tc main_arg1)))
        (endpoints ![1, 0] slices_S2x625000_S1x625000_1_0 (W (Proc.devRef .tc main_arg1))) := by
  after_results <;> rfl

/-! ### Between the first and the second region: the first aggregation and the bias as a row -/

set_option maxHeartbeats 4000000 in
theorem stretch1_aggregate (W : Valuation τ sig (Elt F)) : StableHlo.after hostOps1 W (Proc.devRef .tc main_v40)
    = aggregate128 (W (Proc.devRef .tc main_v27)) (W (Proc.devRef .tc main_v3)) (W (Proc.devRef .tc main_v6)) (W (Proc.devRef .tc main_v26)) := by
  after_results <;> rfl

set_option maxHeartbeats 4000000 in
theorem stretch1_row (W : Valuation τ sig (Elt F)) : StableHlo.after hostOps1 W (Proc.devRef .tc main_v41)
    = shapeCast S1x128 (W (Proc.devRef .tc main_arg3)) shapeCasts_S128_S1x128 := by
  after_results <;> rfl

set_option maxHeartbeats 4000000 in
theorem stretch1_keeps_sources (W : Valuation τ sig (Elt F)) : StableHlo.after hostOps1 W (Proc.devRef .tc main_v3) = W (Proc.devRef .tc main_v3) := by
  after_results <;> rfl
set_option maxHeartbeats 4000000 in
theorem stretch1_keeps_targets (W : Valuation τ sig (Elt F)) : StableHlo.after hostOps1 W (Proc.devRef .tc main_v6) = W (Proc.devRef .tc main_v6) := by
  after_results <;> rfl
set_option maxHeartbeats 4000000 in
theorem stretch1_keeps_weights (W : Valuation τ sig (Elt F)) : StableHlo.after hostOps1 W (Proc.devRef .tc main_v26) = W (Proc.devRef .tc main_v26) := by
  after_results <;> rfl
set_option maxHeartbeats 4000000 in
theorem stretch1_keeps_arg4 (W : Valuation τ sig (Elt F)) : StableHlo.after hostOps1 W (Proc.devRef .tc main_arg4) = W (Proc.devRef .tc main_arg4) := by
  after_results <;> rfl
set_option maxHeartbeats 4000000 in
theorem stretch1_keeps_arg5 (W : Valuation τ sig (Elt F)) : StableHlo.after hostOps1 W (Proc.devRef .tc main_arg5) = W (Proc.devRef .tc main_arg5) := by
  after_results <;> rfl

/-! ### Between the third and the fourth region: the second aggregation and the bias as a row -/

set_option maxHeartbeats 4000000 in
theorem stretch3_aggregate (W : Valuation τ sig (Elt F)) : StableHlo.after hostOps3 W (Proc.devRef .tc main_v56)
    = aggregate32 (W (Proc.devRef .tc main_v43)) (W (Proc.devRef .tc main_v3)) (W (Proc.devRef .tc main_v6)) (W (Proc.devRef .tc main_v26)) := by
  after_results <;> rfl

set_option maxHeartbeats 4000000 in
theorem stretch3_row (W : Valuation τ sig (Elt F)) : StableHlo.after hostOps3 W (Proc.devRef .tc main_v57)
    = shapeCast S1x32 (W (Proc.devRef .tc main_arg5)) shapeCasts_S32_S1x32 := by
  after_results <;> rfl

end Stretches

end Cert.KernelIdeal.Fold

end
-- ==== Proof.KernelValue.lean ====
/-
  The idealized kernel's returned array, boundary by boundary.

  At each boundary between a stretch of host operations and a grid region, every buffer that is still read later
  holds a known function of the arguments: the edge list's sources, targets and weights from the first stretch on
  (nothing later writes them), the arguments themselves, and one by one the layers' arrays: x·W1, its
  aggregation, the rectified hidden features, their product with W2, its aggregation, and at the end the row
  log-softmax. A stretch is read by its lemma at the boundary's contents; a region leaves its output array at its
  whole-array function of its operands (the four facts taken here as `RegionFacts`) and keeps every other buffer.
-/
import proofs.«105643_j20203526160738_1_alg».proof.Proof.KernelFold

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-- After its ten grid points each region's output array is its whole-array function of its two operand arrays as
    the region found them. -/
structure RegionFacts : Prop where
  lin128 : ∀ (V : (c : Dev nD) → (b : Ref sig .tc) → Buf (Elt Ideal) ((c : Thread nD τ).loc b)) (c : Dev nD),
    (dat0 (F := Ideal) V c).arrAt 2 cfg0.N = Cert.Gcn.lin128 (V c (Pipeline.arrRef spec0 0)) (V c (Pipeline.arrRef spec0 1))
  biasRelu : ∀ (V : (c : Dev nD) → (b : Ref sig .tc) → Buf (Elt Ideal) ((c : Thread nD τ).loc b)) (c : Dev nD),
    (dat1 (F := Ideal) V c).arrAt 2 cfg1.N = Cert.Gcn.biasRelu (V c (Pipeline.arrRef spec1 0)) (V c (Pipeline.arrRef spec1 1))
  lin32 : ∀ (V : (c : Dev nD) → (b : Ref sig .tc) → Buf (Elt Ideal) ((c : Thread nD τ).loc b)) (c : Dev nD),
    (dat2 (F := Ideal) V c).arrAt 2 cfg2.N = Cert.Gcn.lin32 (V c (Pipeline.arrRef spec2 0)) (V c (Pipeline.arrRef spec2 1))
  logSoftmax : ∀ (V : (c : Dev nD) → (b : Ref sig .tc) → Buf (Elt Ideal) ((c : Thread nD τ).loc b)) (c : Dev nD),
    (dat3 (F := Ideal) V c).arrAt 2 cfg3.N = Cert.Gcn.biasLogSoftmax (V c (Pipeline.arrRef spec3 0)) (V c (Pipeline.arrRef spec3 1))

theorem aggregate128_congr {h h' : (⟨S100000x128, .f32⟩ : BufTy).Contents (Elt Ideal)} {s s' d d' : (⟨S725000, .i32⟩ : BufTy).Contents (Elt Ideal)}
    {n n' : (⟨S725000, .f32⟩ : BufTy).Contents (Elt Ideal)} (eh : h = h') (es : s = s') (ed : d = d') (en : n = n') :
    aggregate128 h s d n = aggregate128 h' s' d' n' := by subst eh es ed en; rfl

theorem aggregate32_congr {h h' : (⟨S100000x32, .f32⟩ : BufTy).Contents (Elt Ideal)} {s s' d d' : (⟨S725000, .i32⟩ : BufTy).Contents (Elt Ideal)}
    {n n' : (⟨S725000, .f32⟩ : BufTy).Contents (Elt Ideal)} (eh : h = h') (es : s = s') (ed : d = d') (en : n = n') :
    aggregate32 h s d n = aggregate32 h' s' d' n' := by subst eh es ed en; rfl

variable (m : (ℓ : Loc nD τ sig) → Buf (Elt Ideal) ℓ) (ρ : Dev nD → PrngReg) (c : Dev nD)

/-! ## Boundary 1: after the first stretch -/
theorem at1_arg0 : W1 m ρ c (Proc.devRef .tc main_arg0) = (m ((c : Thread nD τ).loc main_arg0)) := stretch0_keeps_arg0 (W0 m ρ c)
theorem at1_arg2 : W1 m ρ c (Proc.devRef .tc main_arg2) = (m ((c : Thread nD τ).loc main_arg2)) := stretch0_keeps_arg2 (W0 m ρ c)
theorem at1_arg3 : W1 m ρ c (Proc.devRef .tc main_arg3) = (m ((c : Thread nD τ).loc main_arg3)) := stretch0_keeps_arg3 (W0 m ρ c)
theorem at1_arg4 : W1 m ρ c (Proc.devRef .tc main_arg4) = (m ((c : Thread nD τ).loc main_arg4)) := stretch0_keeps_arg4 (W0 m ρ c)
theorem at1_arg5 : W1 m ρ c (Proc.devRef .tc main_arg5) = (m ((c : Thread nD τ).loc main_arg5)) := stretch0_keeps_arg5 (W0 m ρ c)
theorem at1_sources : W1 m ρ c (Proc.devRef .tc main_v3) = (endpoints ![0, 0] slices_S2x625000_S1x625000_0_0 (m ((c : Thread nD τ).loc main_arg1))) := stretch0_sources (W0 m ρ c)
theorem at1_targets : W1 m ρ c (Proc.devRef .tc main_v6) = (endpoints ![1, 0] slices_S2x625000_S1x625000_1_0 (m ((c : Thread nD τ).loc main_arg1))) := stretch0_targets (W0 m ρ c)
theorem at1_weights : W1 m ρ c (Proc.devRef .tc main_v26) = (edgeWeight (endpoints ![0, 0] slices_S2x625000_S1x625000_0_0 (m ((c : Thread nD τ).loc main_arg1))) (endpoints ![1, 0] slices_S2x625000_S1x625000_1_0 (m ((c : Thread nD τ).loc main_arg1)))) := stretch0_weights (W0 m ρ c)

/-! ## Boundary 2: after the first region (x·W1) -/
theorem at2_hidden (R : RegionFacts) : W2 m ρ c (Proc.devRef .tc main_v27) = (Cert.Gcn.lin128 (m ((c : Thread nD τ).loc main_arg0)) (m ((c : Thread nD τ).loc main_arg2))) :=
  (W2_arr m ρ c 2).trans ((R.lin128 (V1 m ρ) c).trans (congrArg₂ Cert.Gcn.lin128 (at1_arg0 m ρ c) (at1_arg2 m ρ c)))
theorem at2_sources : W2 m ρ c (Proc.devRef .tc main_v3) = (endpoints ![0, 0] slices_S2x625000_S1x625000_0_0 (m ((c : Thread nD τ).loc main_arg1))) := (W2_of_ne m ρ c main_v3 (by decide)).trans (at1_sources m ρ c)
theorem at2_targets : W2 m ρ c (Proc.devRef .tc main_v6) = (endpoints ![1, 0] slices_S2x625000_S1x625000_1_0 (m ((c : Thread nD τ).loc main_arg1))) := (W2_of_ne m ρ c main_v6 (by decide)).trans (at1_targets m ρ c)
theorem at2_weights : W2 m ρ c (Proc.devRef .tc main_v26) = (edgeWeight (endpoints ![0, 0] slices_S2x625000_S1x625000_0_0 (m ((c : Thread nD τ).loc main_arg1))) (endpoints ![1, 0] slices_S2x625000_S1x625000_1_0 (m ((c : Thread nD τ).loc main_arg1)))) := (W2_of_ne m ρ c main_v26 (by decide)).trans (at1_weights m ρ c)
theorem at2_arg3 : W2 m ρ c (Proc.devRef .tc main_arg3) = (m ((c : Thread nD τ).loc main_arg3)) := (W2_of_ne m ρ c main_arg3 (by decide)).trans (at1_arg3 m ρ c)
theorem at2_arg4 : W2 m ρ c (Proc.devRef .tc main_arg4) = (m ((c : Thread nD τ).loc main_arg4)) := (W2_of_ne m ρ c main_arg4 (by decide)).trans (at1_arg4 m ρ c)
theorem at2_arg5 : W2 m ρ c (Proc.devRef .tc main_arg5) = (m ((c : Thread nD τ).loc main_arg5)) := (W2_of_ne m ρ c main_arg5 (by decide)).trans (at1_arg5 m ρ c)

/-! ## Boundary 3: after the second stretch (the first aggregation, the bias row) -/
theorem at3_aggregated (R : RegionFacts) : W3 m ρ c (Proc.devRef .tc main_v40) = (aggregate128 (Cert.Gcn.lin128 (m ((c : Thread nD τ).loc main_arg0)) (m ((c : Thread nD τ).loc main_arg2))) (endpoints ![0, 0] slices_S2x625000_S1x625000_0_0 (m ((c : Thread nD τ).loc main_arg1))) (endpoints ![1, 0] slices_S2x625000_S1x625000_1_0 (m ((c : Thread nD τ).loc main_arg1))) (edgeWeight (endpoints ![0, 0] slices_S2x625000_S1x625000_0_0 (m ((c : Thread nD τ).loc main_arg1))) (endpoints ![1, 0] slices_S2x625000_S1x625000_1_0 (m ((c : Thread nD τ).loc main_arg1))))) :=
  (stretch1_aggregate (W2 m ρ c)).trans (aggregate128_congr (at2_hidden m ρ c R) (at2_sources m ρ c) (at2_targets m ρ c) (at2_weights m ρ c))
theorem at3_row : W3 m ρ c (Proc.devRef .tc main_v41) = (shapeCast S1x128 (m ((c : Thread nD τ).loc main_arg3)) shapeCasts_S128_S1x128) :=
  (stretch1_row (W2 m ρ c)).trans (congrArg (fun v => shapeCast S1x128 v shapeCasts_S128_S1x128) (at2_arg3 m ρ c))
theorem at3_sources : W3 m ρ c (Proc.devRef .tc main_v3) = (endpoints ![0, 0] slices_S2x625000_S1x625000_0_0 (m ((c : Thread nD τ).loc main_arg1))) := (stretch1_keeps_sources (W2 m ρ c)).trans (at2_sources m ρ c)
theorem at3_targets : W3 m ρ c (Proc.devRef .tc main_v6) = (endpoints ![1, 0] slices_S2x625000_S1x625000_1_0 (m ((c : Thread nD τ).loc main_arg1))) := (stretch1_keeps_targets (W2 m ρ c)).trans (at2_targets m ρ c)
theorem at3_weights : W3 m ρ c (Proc.devRef .tc main_v26) = (edgeWeight (endpoints ![0, 0] slices_S2x625000_S1x625000_0_0 (m ((c : Thread nD τ).loc main_arg1))) (endpoints ![1, 0] slices_S2x625000_S1x625000_1_0 (m ((c : Thread nD τ).loc main_arg1)))) := (stretch1_keeps_weights (W2 m ρ c)).trans (at2_weights m ρ c)
theorem at3_arg4 : W3 m ρ c (Proc.devRef .tc main_arg4) = (m ((c : Thread nD τ).loc main_arg4)) := (stretch1_keeps_arg4 (W2 m ρ c)).trans (at2_arg4 m ρ c)
theorem at3_arg5 : W3 m ρ c (Proc.devRef .tc main_arg5) = (m ((c : Thread nD τ).loc main_arg5)) := (stretch1_keeps_arg5 (W2 m ρ c)).trans (at2_arg5 m ρ c)

/-! ## Boundary 4: after the second region (bias, rectifier) -/
theorem at4_rectified (R : RegionFacts) : W4 m ρ c (Proc.devRef .tc main_v42) = (Cert.Gcn.biasRelu (aggregate128 (Cert.Gcn.lin128 (m ((c : Thread nD τ).loc main_arg0)) (m ((c : Thread nD τ).loc main_arg2))) (endpoints ![0, 0] slices_S2x625000_S1x625000_0_0 (m ((c : Thread nD τ).loc main_arg1))) (endpoints ![1, 0] slices_S2x625000_S1x625000_1_0 (m ((c : Thread nD τ).loc main_arg1))) (edgeWeight (endpoints ![0, 0] slices_S2x625000_S1x625000_0_0 (m ((c : Thread nD τ).loc main_arg1))) (endpoints ![1, 0] slices_S2x625000_S1x625000_1_0 (m ((c : Thread nD τ).loc main_arg1))))) (shapeCast S1x128 (m ((c : Thread nD τ).loc main_arg3)) shapeCasts_S128_S1x128)) :=
  (W4_arr m ρ c 2).trans ((R.biasRelu (V3 m ρ) c).trans (congrArg₂ Cert.Gcn.biasRelu (at3_aggregated m ρ c R) (at3_row m ρ c)))
theorem at4_sources : W4 m ρ c (Proc.devRef .tc main_v3) = (endpoints ![0, 0] slices_S2x625000_S1x625000_0_0 (m ((c : Thread nD τ).loc main_arg1))) := (W4_of_ne m ρ c main_v3 (by decide)).trans (at3_sources m ρ c)
theorem at4_targets : W4 m ρ c (Proc.devRef .tc main_v6) = (endpoints ![1, 0] slices_S2x625000_S1x625000_1_0 (m ((c : Thread nD τ).loc main_arg1))) := (W4_of_ne m ρ c main_v6 (by decide)).trans (at3_targets m ρ c)
theorem at4_weights : W4 m ρ c (Proc.devRef .tc main_v26) = (edgeWeight (endpoints ![0, 0] slices_S2x625000_S1x625000_0_0 (m ((c : Thread nD τ).loc main_arg1))) (endpoints ![1, 0] slices_S2x625000_S1x625000_1_0 (m ((c : Thread nD τ).loc main_arg1)))) := (W4_of_ne m ρ c main_v26 (by decide)).trans (at3_weights m ρ c)
theorem at4_arg4 : W4 m ρ c (Proc.devRef .tc main_arg4) = (m ((c : Thread nD τ).loc main_arg4)) := (W4_of_ne m ρ c main_arg4 (by decide)).trans (at3_arg4 m ρ c)
theorem at4_arg5 : W4 m ρ c (Proc.devRef .tc main_arg5) = (m ((c : Thread nD τ).loc main_arg5)) := (W4_of_ne m ρ c main_arg5 (by decide)).trans (at3_arg5 m ρ c)

/-! ## Boundary 5: after the third region (·W2) -/
theorem at5_hidden (R : RegionFacts) : W5 m ρ c (Proc.devRef .tc main_v43) = (Cert.Gcn.lin32 (Cert.Gcn.biasRelu (aggregate128 (Cert.Gcn.lin128 (m ((c : Thread nD τ).loc main_arg0)) (m ((c : Thread nD τ).loc main_arg2))) (endpoints ![0, 0] slices_S2x625000_S1x625000_0_0 (m ((c : Thread nD τ).loc main_arg1))) (endpoints ![1, 0] slices_S2x625000_S1x625000_1_0 (m ((c : Thread nD τ).loc main_arg1))) (edgeWeight (endpoints ![0, 0] slices_S2x625000_S1x625000_0_0 (m ((c : Thread nD τ).loc main_arg1))) (endpoints ![1, 0] slices_S2x625000_S1x625000_1_0 (m ((c : Thread nD τ).loc main_arg1))))) (shapeCast S1x128 (m ((c : Thread nD τ).loc main_arg3)) shapeCasts_S128_S1x128)) (m ((c : Thread nD τ).loc main_arg4))) :=
  (W5_arr m ρ c 2).trans ((R.lin32 (V4 m ρ) c).trans (congrArg₂ Cert.Gcn.lin32 (at4_rectified m ρ c R) (at4_arg4 m ρ c)))
theorem at5_sources : W5 m ρ c (Proc.devRef .tc main_v3) = (endpoints ![0, 0] slices_S2x625000_S1x625000_0_0 (m ((c : Thread nD τ).loc main_arg1))) := (W5_of_ne m ρ c main_v3 (by decide)).trans (at4_sources m ρ c)
theorem at5_targets : W5 m ρ c (Proc.devRef .tc main_v6) = (endpoints ![1, 0] slices_S2x625000_S1x625000_1_0 (m ((c : Thread nD τ).loc main_arg1))) := (W5_of_ne m ρ c main_v6 (by decide)).trans (at4_targets m ρ c)
theorem at5_weights : W5 m ρ c (Proc.devRef .tc main_v26) = (edgeWeight (endpoints ![0, 0] slices_S2x625000_S1x625000_0_0 (m ((c : Thread nD τ).loc main_arg1))) (endpoints ![1, 0] slices_S2x625000_S1x625000_1_0 (m ((c : Thread nD τ).loc main_arg1)))) := (W5_of_ne m ρ c main_v26 (by decide)).trans (at4_weights m ρ c)
theorem at5_arg5 : W5 m ρ c (Proc.devRef .tc main_arg5) = (m ((c : Thread nD τ).loc main_arg5)) := (W5_of_ne m ρ c main_arg5 (by decide)).trans (at4_arg5 m ρ c)

/-! ## Boundary 6: after the third stretch (the second aggregation, the bias row) -/
theorem at6_aggregated (R : RegionFacts) : W6 m ρ c (Proc.devRef .tc main_v56) = (aggregate32 (Cert.Gcn.lin32 (Cert.Gcn.biasRelu (aggregate128 (Cert.Gcn.lin128 (m ((c : Thread nD τ).loc main_arg0)) (m ((c : Thread nD τ).loc main_arg2))) (endpoints ![0, 0] slices_S2x625000_S1x625000_0_0 (m ((c : Thread nD τ).loc main_arg1))) (endpoints ![1, 0] slices_S2x625000_S1x625000_1_0 (m ((c : Thread nD τ).loc main_arg1))) (edgeWeight (endpoints ![0, 0] slices_S2x625000_S1x625000_0_0 (m ((c : Thread nD τ).loc main_arg1))) (endpoints ![1, 0] slices_S2x625000_S1x625000_1_0 (m ((c : Thread nD τ).loc main_arg1))))) (shapeCast S1x128 (m ((c : Thread nD τ).loc main_arg3)) shapeCasts_S128_S1x128)) (m ((c : Thread nD τ).loc main_arg4))) (endpoints ![0, 0] slices_S2x625000_S1x625000_0_0 (m ((c : Thread nD τ).loc main_arg1))) (endpoints ![1, 0] slices_S2x625000_S1x625000_1_0 (m ((c : Thread nD τ).loc main_arg1))) (edgeWeight (endpoints ![0, 0] slices_S2x625000_S1x625000_0_0 (m ((c : Thread nD τ).loc main_arg1))) (endpoints ![1, 0] slices_S2x625000_S1x625000_1_0 (m ((c : Thread nD τ).loc main_arg1))))) :=
  (stretch3_aggregate (W5 m ρ c)).trans (aggregate32_congr (at5_hidden m ρ c R) (at5_sources m ρ c) (at5_targets m ρ c) (at5_weights m ρ c))
theorem at6_row : W6 m ρ c (Proc.devRef .tc main_v57) = (shapeCast S1x32 (m ((c : Thread nD τ).loc main_arg5)) shapeCasts_S32_S1x32) :=
  (stretch3_row (W5 m ρ c)).trans (congrArg (fun v => shapeCast S1x32 v shapeCasts_S32_S1x32) (at5_arg5 m ρ c))

/-! ## The end: after the fourth region (bias, row log-softmax) -/
/-- The returned array: two graph-convolution layers and the row log-softmax, of the six arguments. -/
theorem result (R : RegionFacts) : W7 m ρ c (Proc.devRef .tc main_v58) = (Cert.Gcn.biasLogSoftmax (aggregate32 (Cert.Gcn.lin32 (Cert.Gcn.biasRelu (aggregate128 (Cert.Gcn.lin128 (m ((c : Thread nD τ).loc main_arg0)) (m ((c : Thread nD τ).loc main_arg2))) (endpoints ![0, 0] slices_S2x625000_S1x625000_0_0 (m ((c : Thread nD τ).loc main_arg1))) (endpoints ![1, 0] slices_S2x625000_S1x625000_1_0 (m ((c : Thread nD τ).loc main_arg1))) (edgeWeight (endpoints ![0, 0] slices_S2x625000_S1x625000_0_0 (m ((c : Thread nD τ).loc main_arg1))) (endpoints ![1, 0] slices_S2x625000_S1x625000_1_0 (m ((c : Thread nD τ).loc main_arg1))))) (shapeCast S1x128 (m ((c : Thread nD τ).loc main_arg3)) shapeCasts_S128_S1x128)) (m ((c : Thread nD τ).loc main_arg4))) (endpoints ![0, 0] slices_S2x625000_S1x625000_0_0 (m ((c : Thread nD τ).loc main_arg1))) (endpoints ![1, 0] slices_S2x625000_S1x625000_1_0 (m ((c : Thread nD τ).loc main_arg1))) (edgeWeight (endpoints ![0, 0] slices_S2x625000_S1x625000_0_0 (m ((c : Thread nD τ).loc main_arg1))) (endpoints ![1, 0] slices_S2x625000_S1x625000_1_0 (m ((c : Thread nD τ).loc main_arg1))))) (shapeCast S1x32 (m ((c : Thread nD τ).loc main_arg5)) shapeCasts_S32_S1x32)) :=
  (W7_arr m ρ c 2).trans ((R.logSoftmax (V6 m ρ) c).trans (congrArg₂ Cert.Gcn.biasLogSoftmax (at6_aggregated m ρ c R) (at6_row m ρ c)))

end Cert.KernelIdeal.Fold

end
-- ==== Proof.RegionLin128.lean ====
/-
  Region 0 of the kernel: the node features times the first layer's weight. The grid has ten points; point t
  multiplies row block t (10000 rows) of the feature array by the whole [128, 128] weight and writes row block t of the
  result. Here: one block's product entry by entry, the rows each point reads and writes, and, since the ten blocks
  cover the 100000 rows, the result array after the region as the whole product `Cert.Gcn.lin128` of the two operand
  arrays as the region found them.
-/
import proofs.«105643_j20203526160738_1_alg».proof.Proof.Gen.KernelIdeal.Frame
import proofs.«105643_j20203526160738_1_alg».proof.Proof.Spec
import Idealize.ShloMosaic.PureOps.Ideal.Laws
import Idealize.ShloMosaic.Lib.ValueIdx
import Idealize.ShloMosaic.Lib.Pipeline.Value

set_option maxRecDepth 16384
noncomputable section
namespace Cert.KernelIdeal.RegionLin128
open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## One block's product, entry by entry -/

/-- The contraction of the [10000,128] × [128,128] product has one axis of extent 128. -/
abbrev prodDims := dot_S10000x128_S128x128_S10000x128_1_0_0_1_n_n

/-- The left operand's index at output (r, c) and contraction index q is (r, q). -/
theorem lhs_row (j : S10000x128.Idx) (q : prodDims.contr.Idx) : (prodDims.lhsIdx j q 0).val = (j 0).val := by
  unfold DotDims.lhsIdx
  rw [dif_neg (show ¬(0 : Fin S10000x128.rank) ∈ prodDims.lhsBatch by decide), dif_pos (show (0 : Fin S10000x128.rank) ∈ prodDims.lhsNonContracting by decide)]
  rfl
theorem lhs_col (j : S10000x128.Idx) (q : prodDims.contr.Idx) : (prodDims.lhsIdx j q 1).val = (q ⟨0, by decide⟩).val :=
  prodDims.lhsIdx_val_of_single rfl j q
/-- The right operand's index at output (r, c) and contraction index q is (q, c). -/
theorem rhs_row (j : S10000x128.Idx) (q : prodDims.contr.Idx) : (prodDims.rhsIdx j q 0).val = (q ⟨0, by decide⟩).val :=
  prodDims.rhsIdx_val_of_single rfl j q
theorem rhs_col (j : S10000x128.Idx) (q : prodDims.contr.Idx) : (prodDims.rhsIdx j q 1).val = (j 1).val := by
  unfold DotDims.rhsIdx
  rw [dif_neg (show ¬(1 : Fin S128x128.rank) ∈ prodDims.rhsBatch by decide), dif_pos (show (1 : Fin S128x128.rank) ∈ prodDims.rhsNonContracting by decide)]
  rfl

/-- One block's product at an entry: entry (r, c) of the body's result is ∑ₖ x(r, k) · w(k, c). -/
theorem body_apply (x0 : Vec Ideal S10000x128 .f32) (x1 : Vec Ideal S128x128 .f32) (r : Fin 10000) (c : Fin 128) :
    k0_pay1 (F := Ideal) x0 x1 (ix2 r c) = ∑ k : Fin 128, x0 (ix2 r k) * x1 (ix2 k c) := by
  unfold k0_pay1
  refine (Ideal.matmul_constant_zero_apply prodDims none _ _ (ix2 r c)).trans ?_
  rw [← Equiv.sum_comp (contrEquiv1 prodDims 128 rfl rfl).symm]
  refine Finset.sum_congr rfl fun k _ => ?_
  have hk := contrEquiv1_symm_val prodDims 128 rfl rfl k
  have el : prodDims.lhsIdx (ix2 r c) ((contrEquiv1 prodDims 128 rfl rfl).symm k) = ix2 r k := funext fun a => Fin.ext (by
    match a with
    | ⟨0, _⟩ => exact lhs_row _ _
    | ⟨1, _⟩ => exact (lhs_col _ _).trans hk)
  have er : prodDims.rhsIdx (ix2 r c) ((contrEquiv1 prodDims 128 rfl rfl).symm k) = ix2 k c := funext fun a => Fin.ext (by
    match a with
    | ⟨0, _⟩ => exact (rhs_row _ _).trans hk
    | ⟨1, _⟩ => exact rhs_col _ _)
  rw [ValueIdx.truncf_apply, ValueIdx.truncf_apply, el, er]

/-! ## From the ten row blocks to the array -/

/-- The body's store and loads sit at offset zero of their buffers. -/
theorem zero_off : (![0, 0] : Fin 2 → Nat) = fun _ => 0 := funext fun a => by fin_cases a <;> rfl

/-- The windows' block indices, decided over the ten points: the row operand's and the result's block at point t is
    row block t (column block 0), and the weight's block is always the whole weight. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (r, c) of what point t computes is entry (10000 t + r, c) of the whole product. -/
theorem block_entry (V : (c : Dev nD) → (b : Ref sig .tc) → Buf (Elt Ideal) ((c : Thread nD τ).loc b)) (c : Dev nD)
    (t : Fin cfg0.N) (j : S10000x128.Idx) :
    k0_pay1 (F := Ideal) (iblk0 V c 0 t) (iblk0 V c 1 t) j
      = Cert.Gcn.lin128 (V c (Pipeline.arrRef spec0 0)) (V c (Pipeline.arrRef spec0 1)) (((cfg0.win 2).blk t).view.emb j) := by
  obtain ⟨r, q, rfl⟩ : ∃ (r : Fin 10000) (q : Fin 128), j = ix2 r q := ⟨j 0, j 1, eq_ix2 j⟩
  refine (body_apply (iblk0 V c 0 t) (iblk0 V c 1 t) r q).trans ?_
  obtain ⟨e00, e01, e10, e11, e20, e21⟩ := block_indices t
  unfold Cert.Gcn.lin128
  refine Finset.sum_congr rfl fun k _ => ?_
  have hl : iblk0 V c 0 t (ix2 r k)
      = V c (Pipeline.arrRef spec0 0) (ix2 ((((cfg0.win 2).blk t).view.emb (ix2 r q)) 0) k) := by
    unfold iblk0
    show V c (Pipeline.arrRef spec0 0) (((cfg0.win 0).blk t).view.emb (ix2 r k)) = _
    refine congrArg _ (funext fun a => Fin.ext ?_)
    match a with
    | ⟨0, _⟩ => show win0_0.index t (0 : Fin 2) * 10000 + 1 * r.val = win0_2.index t (0 : Fin 2) * 10000 + 1 * r.val; omega
    | ⟨1, _⟩ => show win0_0.index t (1 : Fin 2) * 128 + 1 * k.val = k.val; omega
  have hr : iblk0 V c 1 t (ix2 k q)
      = V c (Pipeline.arrRef spec0 1) (ix2 k ((((cfg0.win 2).blk t).view.emb (ix2 r q)) 1)) := by
    unfold iblk0
    show V c (Pipeline.arrRef spec0 1) (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hl, hr]

/-- What point t writes back is row block t of the whole product. -/
theorem block_written (V : (c : Dev nD) → (b : Ref sig .tc) → Buf (Elt Ideal) ((c : Thread nD τ).loc b)) (c : Dev nD)
    (t : Fin cfg0.N) :
    (dat0 (F := Ideal) V c).flushed 2 t = ((cfg0.win 2).blk t).view.read (Elt Ideal)
      (Cert.Gcn.lin128 (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zero_off]
  simp only [View.ld_unit_zero (S := S10000x128) zero_off, View.ld_unit_zero (S := S128x128) zero_off]
  funext j
  exact block_entry V c t j

/-- A row of the array lies in point t's block iff it lies in the block's range on each axis. -/
theorem mem_row_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v27).slice (win0_2.rect t)).set ↔ _
  rw [View.set_slice_whole, Rect.mem_set_unit]
  exact Iff.rfl

/-- Every entry of the array is written: row i is in the block of point ⌊i / 10000⌋. -/
theorem rows_covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_2 _, ?_⟩
  rw [mem_row_block]
  obtain ⟨-, -, -, -, e20, e21⟩ := block_indices ⟨(i 0).val / 10000, by rw [hN]; omega⟩
  intro a
  match a with
  | ⟨0, _⟩ => show win0_2.index _ (0 : Fin 2) * 10000 ≤ (i 0).val ∧ (i 0).val < win0_2.index _ (0 : Fin 2) * 10000 + 10000; rw [e20]; show (i 0).val / 10000 * 10000 ≤ (i 0).val ∧ (i 0).val < (i 0).val / 10000 * 10000 + 10000; omega
  | ⟨1, _⟩ => show win0_2.index _ (1 : Fin 2) * 128 ≤ (i 1).val ∧ (i 1).val < win0_2.index _ (1 : Fin 2) * 128 + 128; rw [e21]; omega

/-- After the region's ten points the result array is the whole product of the two operand arrays as the region found them. -/
theorem final (V : (c : Dev nD) → (b : Ref sig .tc) → Buf (Elt Ideal) ((c : Thread nD τ).loc b)) (c : Dev nD) :
    (dat0 (F := Ideal) V c).arrAt 2 cfg0.N = Cert.Gcn.lin128 (V c (Pipeline.arrRef spec0 0)) (V c (Pipeline.arrRef spec0 1)) :=
  (dat0 (F := Ideal) V c).arrAt_eq_of_cover 2 _ (fun t _ => block_written V c t) rows_covered

end Cert.KernelIdeal.RegionLin128

end
-- ==== Proof.RegionBiasRelu.lean ====
/-
  The bias-and-rectifier region as one function of its two operand arrays. The region walks ten row blocks of 10000
  rows; at each it adds the one bias row to every row of the block and takes the maximum with zero, entry by entry.
  Here: the value the body stores at an entry of a block (`payload_apply`), the block indices of the three windows at
  a grid point (`block_indices`), what a point writes back as the block of `Cert.Gcn.biasRelu` of the operand arrays
  (`flushed_eq`), every row lying in the block of the point (row / 10000) (`covered`), and so the whole output array
  after the ten points (`final`).
-/
import proofs.«105643_j20203526160738_1_alg».proof.Proof.Gen.KernelIdeal.Frame
import proofs.«105643_j20203526160738_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegionBiasRelu

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-- The zero offsets of a whole-block access, as a constant function. -/
theorem zero_offsets : (![0, 0] : Fin 2 → Nat) = fun _ => 0 := funext fun a => by fin_cases a <;> rfl

/-- The body's value at entry (r, q) of a block: the block's entry plus the bias row's entry q, then the maximum with
    the zero word's value. The two shape casts are identities and the broadcast repeats the one row down the rows. -/
theorem payload_apply (x0 : Vec Ideal S10000x128 .f32) (x1 : Vec Ideal S1x128 .f32) (r : Fin 10000) (q : Fin 128) :
    k1_pay1 x0 x1 (ix2 r q) = max (x0 (ix2 r q) + x1 (ix2 (0 : Fin 1) q)) (Ideal.ofBits .f32 0x00000000#32) := by
  unfold k1_pay1
  show max (shapeCast S10000x128 x0 _ (ix2 r q) + broadcastTo S10000x128 (shapeCast S1x128 x1 _) _ (ix2 r q)) _ = _
  rw [shapeCast_self, shapeCast_self, broadcastTo_1b_ab_apply]
  rfl

/-- The windows' block indices at grid point t: the two row-blocked windows are at row block t, column block 0; the
    bias row's window stays at block (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b)) (c : Dev nD)

/-- What point t writes back is block t of `biasRelu` of the two operand arrays: at entry (r, q) of the block the body
    reads the first operand at the same place of the array as the output block's entry (the two windows move together),
    and the bias at (0, q), q being that place's column. -/
theorem flushed_eq (t : Fin cfg1.N) :
    (dat1 (F := Ideal) V c).flushed 2 t = ((cfg1.win 2).blk t).view.read (Elt Ideal)
      (Cert.Gcn.biasRelu (V c (Pipeline.arrRef spec1 0)) (V c (Pipeline.arrRef spec1 1))) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S1x128) zero_offsets]
  funext j
  show k1_pay1 (iblk1 V c 0 t) (iblk1 V c 1 t) j
    = Cert.Gcn.biasRelu (V c (Pipeline.arrRef spec1 0)) (V c (Pipeline.arrRef spec1 1)) (((cfg1.win 2).blk t).view.emb j)
  obtain ⟨r, q, rfl⟩ : ∃ (r : Fin 10000) (q : Fin 128), j = ix2 r q := ⟨j 0, j 1, eq_ix2 j⟩
  refine (payload_apply _ _ r q).trans ?_
  have key : ∀ (A : S100000x128.Idx → EReal) (B : S1x128.Idx → EReal),
      max (A (((cfg1.win 0).blk t).view.emb (ix2 r q : S10000x128.Idx))
          + B (((cfg1.win 1).blk t).view.emb (ix2 (0 : Fin 1) q : S1x128.Idx))) (Ideal.ofBits .f32 0x00000000#32)
        = Cert.Gcn.biasRelu A B (((cfg1.win 2).blk t).view.emb (ix2 r q : S10000x128.Idx)) := by
    intro A B
    obtain ⟨e00, e01, e10, e11, e20, e21⟩ := block_indices t
    have h0 : ((cfg1.win 0).blk t).view.emb (ix2 r q : S10000x128.Idx)
        = ((cfg1.win 2).blk t).view.emb (ix2 r q : S10000x128.Idx) := by
      funext a; apply Fin.ext
      match a with
      | ⟨0, _⟩ => show win1_0.index t (0 : Fin 2) * 10000 + 1 * r.val = win1_2.index t (0 : Fin 2) * 10000 + 1 * r.val; omega
      | ⟨1, _⟩ => show win1_0.index t (1 : Fin 2) * 128 + 1 * q.val = win1_2.index t (1 : Fin 2) * 128 + 1 * q.val; omega
    have h1 : ((cfg1.win 1).blk t).view.emb (ix2 (0 : Fin 1) q : S1x128.Idx)
        = ix2 (0 : Fin 1) ((((cfg1.win 2).blk t).view.emb (ix2 r q : S10000x128.Idx)) 1) := by
      funext a; apply Fin.ext
      match a with
      | ⟨0, _⟩ => show win1_1.index t (0 : Fin 2) * 1 + 1 * 0 = 0; omega
      | ⟨1, _⟩ => show win1_1.index t (1 : Fin 2) * 128 + 1 * q.val = win1_2.index t (1 : Fin 2) * 128 + 1 * q.val; omega
    rw [h0, h1]
    rfl
  exact key _ _

end

/-- An index of the array is in point `t`'s block iff each coordinate is in the block's range on its axis. -/
theorem mem_block (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v42).slice (win1_2.rect t)).set ↔ _
  rw [View.set_slice_whole, Rect.mem_set_unit]
  exact Iff.rfl

/-- Every row is in some point's block: row `i 0` is in the block of point `(i 0) / 10000`. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, by show (i 0).val / 10000 < 10; omega⟩, rfl⟩
  obtain ⟨-, -, -, -, e20, e21⟩ := block_indices t
  refine ⟨t, flush1_2 t, ?_⟩
  rw [mem_block]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- THE ARRAY after the region's ten points: `biasRelu` of the two operand arrays as the region found them. -/
theorem final (V : (c : Dev nD) → (b : Ref sig .tc) → Buf (Elt Ideal) ((c : Thread nD τ).loc b)) (c : Dev nD) :
    (dat1 (F := Ideal) V c).arrAt 2 cfg1.N
      = Cert.Gcn.biasRelu (V c (Pipeline.arrRef spec1 0)) (V c (Pipeline.arrRef spec1 1)) :=
  (dat1 (F := Ideal) V c).arrAt_eq_of_cover 2 _ (fun t _ => flushed_eq V c t) covered

end Cert.KernelIdeal.RegionBiasRelu

end
-- ==== Proof.RegionLin32.lean ====
/-
  Region 2 of the kernel: the hidden features times the second layer's weight. The grid has ten points; point t
  multiplies row block t (10000 rows) of the hidden-feature array by the whole [128, 32] weight and writes row block t
  of the result. Here: one block's product entry by entry (the body's reshape of its block to the same shape is the
  identity), the rows each point reads and writes, and, since the ten blocks cover the 100000 rows, the result array
  after the region as the whole product `Cert.Gcn.lin32` of the two operand arrays as the region found them.
-/
import proofs.«105643_j20203526160738_1_alg».proof.Proof.Gen.KernelIdeal.Frame
import proofs.«105643_j20203526160738_1_alg».proof.Proof.Spec
import Idealize.ShloMosaic.PureOps.Ideal.Laws
import Idealize.ShloMosaic.Lib.ValueIdx
import Idealize.ShloMosaic.Lib.Pipeline.Value

set_option maxRecDepth 16384
noncomputable section
namespace Cert.KernelIdeal.RegionLin32
open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## One block's product, entry by entry -/

/-- The contraction of the [10000,128] × [128,32] product has one axis of extent 128. -/
abbrev prodDims := dot_S10000x128_S128x32_S10000x32_1_0_0_1_n_n

/-- The left operand's index at output (r, c) and contraction index q is (r, q). -/
theorem lhs_row (j : S10000x32.Idx) (q : prodDims.contr.Idx) : (prodDims.lhsIdx j q 0).val = (j 0).val := by
  unfold DotDims.lhsIdx
  rw [dif_neg (show ¬(0 : Fin S10000x128.rank) ∈ prodDims.lhsBatch by decide), dif_pos (show (0 : Fin S10000x128.rank) ∈ prodDims.lhsNonContracting by decide)]
  rfl
theorem lhs_col (j : S10000x32.Idx) (q : prodDims.contr.Idx) : (prodDims.lhsIdx j q 1).val = (q ⟨0, by decide⟩).val :=
  prodDims.lhsIdx_val_of_single rfl j q
/-- The right operand's index at output (r, c) and contraction index q is (q, c). -/
theorem rhs_row (j : S10000x32.Idx) (q : prodDims.contr.Idx) : (prodDims.rhsIdx j q 0).val = (q ⟨0, by decide⟩).val :=
  prodDims.rhsIdx_val_of_single rfl j q
theorem rhs_col (j : S10000x32.Idx) (q : prodDims.contr.Idx) : (prodDims.rhsIdx j q 1).val = (j 1).val := by
  unfold DotDims.rhsIdx
  rw [dif_neg (show ¬(1 : Fin S128x32.rank) ∈ prodDims.rhsBatch by decide), dif_pos (show (1 : Fin S128x32.rank) ∈ prodDims.rhsNonContracting by decide)]
  rfl

/-- One block's product at an entry: entry (r, c) of the body's result is ∑ₖ x(r, k) · w(k, c). -/
theorem body_apply (x0 : Vec Ideal S10000x128 .f32) (x1 : Vec Ideal S128x32 .f32) (r : Fin 10000) (c : Fin 32) :
    k2_pay1 (F := Ideal) x0 x1 (ix2 r c) = ∑ k : Fin 128, x0 (ix2 r k) * x1 (ix2 k c) := by
  unfold k2_pay1
  refine (Ideal.matmul_constant_zero_apply prodDims none _ _ (ix2 r c)).trans ?_
  rw [← Equiv.sum_comp (contrEquiv1 prodDims 128 rfl rfl).symm]
  refine Finset.sum_congr rfl fun k _ => ?_
  have hk := contrEquiv1_symm_val prodDims 128 rfl rfl k
  have el : prodDims.lhsIdx (ix2 r c) ((contrEquiv1 prodDims 128 rfl rfl).symm k) = ix2 r k := funext fun a => Fin.ext (by
    match a with
    | ⟨0, _⟩ => exact lhs_row _ _
    | ⟨1, _⟩ => exact (lhs_col _ _).trans hk)
  have er : prodDims.rhsIdx (ix2 r c) ((contrEquiv1 prodDims 128 rfl rfl).symm k) = ix2 k c := funext fun a => Fin.ext (by
    match a with
    | ⟨0, _⟩ => exact (rhs_row _ _).trans hk
    | ⟨1, _⟩ => exact rhs_col _ _)
  rw [ValueIdx.truncf_apply, ValueIdx.truncf_apply, shapeCast_self, el, er]

/-! ## From the ten row blocks to the array -/

/-- The body's store and loads sit at offset zero of their buffers. -/
theorem zero_off : (![0, 0] : Fin 2 → Nat) = fun _ => 0 := funext fun a => by fin_cases a <;> rfl

/-- The windows' block indices, decided over the ten points: the row operand's and the result's block at point t is
    row block t (column block 0), and the weight's block is always the whole weight. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (r, c) of what point t computes is entry (10000 t + r, c) of the whole product. -/
theorem block_entry (V : (c : Dev nD) → (b : Ref sig .tc) → Buf (Elt Ideal) ((c : Thread nD τ).loc b)) (c : Dev nD)
    (t : Fin cfg2.N) (j : S10000x32.Idx) :
    k2_pay1 (F := Ideal) (iblk2 V c 0 t) (iblk2 V c 1 t) j
      = Cert.Gcn.lin32 (V c (Pipeline.arrRef spec2 0)) (V c (Pipeline.arrRef spec2 1)) (((cfg2.win 2).blk t).view.emb j) := by
  obtain ⟨r, q, rfl⟩ : ∃ (r : Fin 10000) (q : Fin 32), j = ix2 r q := ⟨j 0, j 1, eq_ix2 j⟩
  refine (body_apply (iblk2 V c 0 t) (iblk2 V c 1 t) r q).trans ?_
  obtain ⟨e00, e01, e10, e11, e20, e21⟩ := block_indices t
  unfold Cert.Gcn.lin32
  refine Finset.sum_congr rfl fun k _ => ?_
  have hl : iblk2 V c 0 t (ix2 r k)
      = V c (Pipeline.arrRef spec2 0) (ix2 ((((cfg2.win 2).blk t).view.emb (ix2 r q)) 0) k) := by
    unfold iblk2
    show V c (Pipeline.arrRef spec2 0) (((cfg2.win 0).blk t).view.emb (ix2 r k)) = _
    refine congrArg _ (funext fun a => Fin.ext ?_)
    match a with
    | ⟨0, _⟩ => show win2_0.index t (0 : Fin 2) * 10000 + 1 * r.val = win2_2.index t (0 : Fin 2) * 10000 + 1 * r.val; omega
    | ⟨1, _⟩ => show win2_0.index t (1 : Fin 2) * 128 + 1 * k.val = k.val; omega
  have hr : iblk2 V c 1 t (ix2 k q)
      = V c (Pipeline.arrRef spec2 1) (ix2 k ((((cfg2.win 2).blk t).view.emb (ix2 r q)) 1)) := by
    unfold iblk2
    show V c (Pipeline.arrRef spec2 1) (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 32 + 1 * q.val = win2_2.index t (1 : Fin 2) * 32 + 1 * q.val; omega
  rw [hl, hr]

/-- What point t writes back is row block t of the whole product. -/
theorem block_written (V : (c : Dev nD) → (b : Ref sig .tc) → Buf (Elt Ideal) ((c : Thread nD τ).loc b)) (c : Dev nD)
    (t : Fin cfg2.N) :
    (dat2 (F := Ideal) V c).flushed 2 t = ((cfg2.win 2).blk t).view.read (Elt Ideal)
      (Cert.Gcn.lin32 (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero zero_off]
  simp only [View.ld_unit_zero (S := S10000x128) zero_off, View.ld_unit_zero (S := S128x32) zero_off]
  funext j
  exact block_entry V c t j

/-- A row of the array lies in point t's block iff it lies in the block's range on each axis. -/
theorem mem_row_block (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v43).slice (win2_2.rect t)).set ↔ _
  rw [View.set_slice_whole, Rect.mem_set_unit]
  exact Iff.rfl

/-- Every entry of the array is written: row i is in the block of point ⌊i / 10000⌋. -/
theorem rows_covered (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 10 := N_2
  refine ⟨⟨(i 0).val / 10000, by rw [hN]; omega⟩, flush2_2 _, ?_⟩
  rw [mem_row_block]
  obtain ⟨-, -, -, -, e20, e21⟩ := block_indices ⟨(i 0).val / 10000, by rw [hN]; omega⟩
  intro a
  match a with
  | ⟨0, _⟩ => show win2_2.index _ (0 : Fin 2) * 10000 ≤ (i 0).val ∧ (i 0).val < win2_2.index _ (0 : Fin 2) * 10000 + 10000; rw [e20]; show (i 0).val / 10000 * 10000 ≤ (i 0).val ∧ (i 0).val < (i 0).val / 10000 * 10000 + 10000; omega
  | ⟨1, _⟩ => show win2_2.index _ (1 : Fin 2) * 32 ≤ (i 1).val ∧ (i 1).val < win2_2.index _ (1 : Fin 2) * 32 + 32; rw [e21]; omega

/-- After the region's ten points the result array is the whole product of the two operand arrays as the region found them. -/
theorem final (V : (c : Dev nD) → (b : Ref sig .tc) → Buf (Elt Ideal) ((c : Thread nD τ).loc b)) (c : Dev nD) :
    (dat2 (F := Ideal) V c).arrAt 2 cfg2.N = Cert.Gcn.lin32 (V c (Pipeline.arrRef spec2 0)) (V c (Pipeline.arrRef spec2 1)) :=
  (dat2 (F := Ideal) V c).arrAt_eq_of_cover 2 _ (fun t _ => block_written V c t) rows_covered

end Cert.KernelIdeal.RegionLin32

end
-- ==== Proof.RegionLogSoftmax.lean ====
/-
  The bias-and-log-softmax region as one function of its two operand arrays. The region walks ten row blocks of 10000
  rows; at each it adds the one bias row to every row of the block, and for each row z of 32 biased logits stores
  (z_q − M) − log ∑ⱼ exp (z_j − M), M being the row's maximum taken as the fold of max from the −∞ word's value.
  Here: the layout operations the body uses read at an index (a vector of row values stood up as a column,
  `column_apply`; a column repeated across the columns, `across_apply`) and the two row reductions read at a row
  (`rowMax_apply`, `rowSum_apply`); the value the body stores at an entry of a block (`biased_apply`,
  `logSoftmax_apply`, `payload_apply`); the block indices of the three windows at a grid point (`block_indices`); what a
  point writes back as the block of `Cert.Gcn.biasLogSoftmax` of the operand arrays (`flushed_eq`): a row of a block
  is a whole row of the array, so the row's maximum and sum are the array row's; every row lying in the block of the
  point (row / 10000) (`covered`); and so the whole output array after the ten points (`final`).
-/
import proofs.«105643_j20203526160738_1_alg».proof.Proof.Gen.KernelIdeal.Frame
import proofs.«105643_j20203526160738_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.RegionLogSoftmax

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-- The zero offsets of a whole-block access, as a constant function. -/
theorem zero_offsets : (![0, 0] : Fin 2 → Nat) = fun _ => 0 := funext fun a => by fin_cases a <;> rfl

/-! ## The layout operations and the two row reductions, read at an index -/

/-- A vector of 10000 row values stood up as a [10000, 1] column reads, at (p, u), the vector's entry p. -/
theorem column_apply {α : Type} (x : S10000.Idx → α) (h : S10000.ShapeCasts S10000x1) (p : Fin 10000) (u : Fin 1) :
    shapeCast S10000x1 x h (ix2 p u) = x (ix1 p) :=
  shapeCast_apply x h _ _ (by
    have hu : u.val = 0 := by omega
    rw [Shape.rowMajor_val_two, Shape.rowMajor_val_one]
    show p.val = p.val * 1 + u.val
    omega)

/-- A [10000, 1] column broadcast across 32 columns reads, at (p, q), the column's entry of row p. -/
theorem across_apply {α : Type} (v : S10000x1.Idx → α) (h : S10000x1.Broadcasts S10000x32) (p : Fin 10000) (q : Fin 32) :
    broadcastTo S10000x32 v h (ix2 p q) = v (ix2 p (0 : Fin 1)) := by
  refine broadcastTo_apply v h (ix2 p q) (ix2 p (0 : Fin 1)) fun ax => ?_
  match ax with
  | ⟨0, _⟩ =>
    show p.val = if (10000 : ℕ) = 1 then 0 else p.val
    rw [if_neg (by decide)]
  | ⟨1, _⟩ => rfl

/-- The maximum along a row from the accumulator word of −∞: at row p, the fold of max over the row's 32 entries from
    that word's value. -/
theorem rowMax_apply (src : FVec Ideal S10000x32 .f32) (h : S10000x32.Reduces [1] S10000) (hφ : FKind.Formats .f32)
    (hacc : (0xFF800000#32 : BitVec 32) = FKind.maximumf.neutral .f32 hφ) (p : Fin 10000) :
    multiReduction .maximumf [1] S10000 src 0xFF800000#32 h hφ hacc (ix1 p)
      = (Finset.univ : Finset (Fin 32)).fold max (Ideal.ofBits .f32 0xFF800000#32) (fun k => src (ix2 p k)) := by
  refine (Ideal.multiReduction_maximumf_single src 0xFF800000#32 h hφ hacc (ix1 p)).trans ?_
  refine congrArg (fun g : Fin 32 → EReal => (Finset.univ : Finset (Fin 32)).fold max (Ideal.ofBits .f32 0xFF800000#32) g)
    (funext fun k => congrArg src (funext fun a => Fin.ext ?_))
  match a with
  | ⟨0, _⟩ => rfl
  | ⟨1, _⟩ => rfl

/-- The sum along a row from the zero accumulator: at row p, the finite sum of the row's 32 entries. -/
theorem rowSum_apply (src : FVec Ideal S10000x32 .f32) (h : S10000x32.Reduces [1] S10000) (hφ : FKind.Formats .f32)
    (hacc : (0x00000000#32 : BitVec 32) = FKind.add.neutral .f32 hφ) (p : Fin 10000) :
    multiReduction .add [1] S10000 src 0x00000000#32 h hφ hacc (ix1 p) = ∑ k : Fin 32, src (ix2 p k) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

/-! ## The body's value at an entry -/

/-- The biased logits at (r, q): the block's entry plus the bias row's entry q. -/
theorem biased_apply (x0 : FVec Ideal S10000x32 .f32) (x1 : FVec Ideal S1x32 .f32) (h0 : S10000x32.ShapeCasts S10000x32)
    (h1 : S1x32.ShapeCasts S1x32) (hb : S1x32.Broadcasts S10000x32) (r : Fin 10000) (q : Fin 32) :
    (addf (shapeCast S10000x32 x0 h0) (broadcastTo S10000x32 (shapeCast S1x32 x1 h1) hb) : FVec Ideal S10000x32 .f32) (ix2 r q)
      = x0 (ix2 r q) + x1 (ix2 (0 : Fin 1) q) := by
  show shapeCast S10000x32 x0 h0 (ix2 r q) + broadcastTo S10000x32 (shapeCast S1x32 x1 h1) hb (ix2 r q) = _
  rw [shapeCast_self, shapeCast_self, broadcastTo_1b_ab_apply]

/-- The row log-softmax of a matrix z of logits, read at (r, q): with M the row's maximum,
    (z(r, q) − M) − log ∑ⱼ exp (z(r, j) − M). -/
theorem logSoftmax_apply (z : FVec Ideal S10000x32 .f32) (hr : S10000x32.Reduces [1] S10000) (hφ : FKind.Formats .f32)
    (hm : (0xFF800000#32 : BitVec 32) = FKind.maximumf.neutral .f32 hφ)
    (hs : (0x00000000#32 : BitVec 32) = FKind.add.neutral .f32 hφ)
    (hc : S10000.ShapeCasts S10000x1) (hb : S10000x1.Broadcasts S10000x32) (r : Fin 10000) (q : Fin 32) :
    subf (subf z (broadcastTo S10000x32 (shapeCast S10000x1 (multiReduction .maximumf [1] S10000 z 0xFF800000#32 hr hφ hm) hc) hb))
        (broadcastTo S10000x32 (log (shapeCast S10000x1 (multiReduction .add [1] S10000
          (exp (subf z (broadcastTo S10000x32 (shapeCast S10000x1 (multiReduction .maximumf [1] S10000 z 0xFF800000#32 hr hφ hm) hc) hb)))
          0x00000000#32 hr hφ hs) hc)) hb) (ix2 r q)
      = (z (ix2 r q) - (Finset.univ : Finset (Fin 32)).fold max (Ideal.ofBits .f32 0xFF800000#32) (fun k => z (ix2 r k)))
        - Ideal.log (∑ j : Fin 32, Ideal.exp (z (ix2 r j)
            - (Finset.univ : Finset (Fin 32)).fold max (Ideal.ofBits .f32 0xFF800000#32) (fun k => z (ix2 r k)))) := by
  have hM : ∀ j : Fin 32, broadcastTo S10000x32 (shapeCast S10000x1 (multiReduction .maximumf [1] S10000 z 0xFF800000#32 hr hφ hm) hc) hb (ix2 r j)
      = (Finset.univ : Finset (Fin 32)).fold max (Ideal.ofBits .f32 0xFF800000#32) (fun k => z (ix2 r k)) := fun j =>
    (across_apply _ hb r j).trans ((column_apply _ hc r 0).trans (rowMax_apply z hr hφ hm r))
  have hE : ∀ j : Fin 32, exp (subf z (broadcastTo S10000x32 (shapeCast S10000x1
        (multiReduction .maximumf [1] S10000 z 0xFF800000#32 hr hφ hm) hc) hb)) (ix2 r j)
      = Ideal.exp (z (ix2 r j)
          - (Finset.univ : Finset (Fin 32)).fold max (Ideal.ofBits .f32 0xFF800000#32) (fun k => z (ix2 r k))) := fun j => by
    show Ideal.exp (z (ix2 r j) - _) = _
    rw [hM j]
  have hS : broadcastTo S10000x32 (log (shapeCast S10000x1 (multiReduction .add [1] S10000
          (exp (subf z (broadcastTo S10000x32 (shapeCast S10000x1 (multiReduction .maximumf [1] S10000 z 0xFF800000#32 hr hφ hm) hc) hb)))
          0x00000000#32 hr hφ hs) hc)) hb (ix2 r q)
      = Ideal.log (∑ j : Fin 32, Ideal.exp (z (ix2 r j)
          - (Finset.univ : Finset (Fin 32)).fold max (Ideal.ofBits .f32 0xFF800000#32) (fun k => z (ix2 r k)))) := by
    refine (across_apply _ hb r q).trans ?_
    show Ideal.log (shapeCast S10000x1 _ hc (ix2 r (0 : Fin 1))) = _
    refine congrArg Ideal.log ?_
    refine (column_apply _ hc r 0).trans ((rowSum_apply _ hr hφ hs r).trans ?_)
    exact Finset.sum_congr rfl fun j _ => hE j
  show z (ix2 r q) - _ - _ = _
  rw [hM q, hS]

/-- The body's value at entry (r, q) of a block: the row log-softmax of the biased logits z(r, j) = x0(r, j) + x1(0, j). -/
theorem payload_apply (x0 : Vec Ideal S10000x32 .f32) (x1 : Vec Ideal S1x32 .f32) (r : Fin 10000) (q : Fin 32) :
    k3_pay1 x0 x1 (ix2 r q)
      = ((x0 (ix2 r q) + x1 (ix2 (0 : Fin 1) q))
          - (Finset.univ : Finset (Fin 32)).fold max (Ideal.ofBits .f32 0xFF800000#32)
              (fun k => x0 (ix2 r k) + x1 (ix2 (0 : Fin 1) k)))
        - Ideal.log (∑ j : Fin 32, Ideal.exp ((x0 (ix2 r j) + x1 (ix2 (0 : Fin 1) j))
            - (Finset.univ : Finset (Fin 32)).fold max (Ideal.ofBits .f32 0xFF800000#32)
                (fun k => x0 (ix2 r k) + x1 (ix2 (0 : Fin 1) k)))) := by
  unfold k3_pay1
  refine (logSoftmax_apply _ _ _ _ _ _ _ r q).trans ?_
  simp only [biased_apply]

/-! ## From the blocks to the array -/

/-- The windows' block indices at grid point t: the two row-blocked windows are at row block t, column block 0; the
    bias row's window stays at block (0, 0). -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b)) (c : Dev nD)

/-- What point t writes back is block t of `biasLogSoftmax` of the two operand arrays: row r of the block is row
    t · 10000 + r of the array, the whole row of 32 logits is inside the block, and the bias row is read at (0, j). -/
theorem flushed_eq (t : Fin cfg3.N) :
    (dat3 (F := Ideal) V c).flushed 2 t = ((cfg3.win 2).blk t).view.read (Elt Ideal)
      (Cert.Gcn.biasLogSoftmax (V c (Pipeline.arrRef spec3 0)) (V c (Pipeline.arrRef spec3 1))) := by
  show (cfg3.win 2).cut (grid3.coords t) ((dat3 V c).after 2 t) = _
  rw [after3_2]
  unfold out3_2
  rw [View.canon_unit_zero zero_offsets]
  simp only [View.ld_unit_zero (S := S10000x32) zero_offsets, View.ld_unit_zero (S := S1x32) zero_offsets]
  funext j
  show k3_pay1 (iblk3 V c 0 t) (iblk3 V c 1 t) j
    = Cert.Gcn.biasLogSoftmax (V c (Pipeline.arrRef spec3 0)) (V c (Pipeline.arrRef spec3 1)) (((cfg3.win 2).blk t).view.emb j)
  obtain ⟨r, q, rfl⟩ : ∃ (r : Fin 10000) (q : Fin 32), j = ix2 r q := ⟨j 0, j 1, eq_ix2 j⟩
  refine (payload_apply _ _ r q).trans ?_
  have key : ∀ (A : S100000x32.Idx → EReal) (B : S1x32.Idx → EReal),
      ((A (((cfg3.win 0).blk t).view.emb (ix2 r q : S10000x32.Idx)) + B (((cfg3.win 1).blk t).view.emb (ix2 (0 : Fin 1) q : S1x32.Idx)))
          - (Finset.univ : Finset (Fin 32)).fold max (Ideal.ofBits .f32 0xFF800000#32) (fun k => A (((cfg3.win 0).blk t).view.emb (ix2 r k : S10000x32.Idx)) + B (((cfg3.win 1).blk t).view.emb (ix2 (0 : Fin 1) k : S1x32.Idx))))
        - Ideal.log (∑ j : Fin 32, Ideal.exp ((A (((cfg3.win 0).blk t).view.emb (ix2 r j : S10000x32.Idx)) + B (((cfg3.win 1).blk t).view.emb (ix2 (0 : Fin 1) j : S1x32.Idx)))
            - (Finset.univ : Finset (Fin 32)).fold max (Ideal.ofBits .f32 0xFF800000#32) (fun k => A (((cfg3.win 0).blk t).view.emb (ix2 r k : S10000x32.Idx)) + B (((cfg3.win 1).blk t).view.emb (ix2 (0 : Fin 1) k : S1x32.Idx)))))
        = Cert.Gcn.biasLogSoftmax A B (((cfg3.win 2).blk t).view.emb (ix2 r q : S10000x32.Idx)) := by
    intro A B
    have ht : t.val < 10 := t.isLt
    obtain ⟨e00, e01, e10, e11, e20, e21⟩ := block_indices t
    have hrows : ∀ k : Fin 32, ((cfg3.win 0).blk t).view.emb (ix2 r k : S10000x32.Idx)
        = (ix2 (⟨t.val * 10000 + r.val, by omega⟩ : Fin 100000) k : S100000x32.Idx) := fun k => by
      funext a; apply Fin.ext
      match a with
      | ⟨0, _⟩ => show win3_0.index t (0 : Fin 2) * 10000 + 1 * r.val = t.val * 10000 + r.val; omega
      | ⟨1, _⟩ => show win3_0.index t (1 : Fin 2) * 32 + 1 * k.val = k.val; omega
    have hbias : ∀ k : Fin 32, ((cfg3.win 1).blk t).view.emb (ix2 (0 : Fin 1) k : S1x32.Idx)
        = (ix2 (0 : Fin 1) k : S1x32.Idx) := fun k => by
      funext a; apply Fin.ext
      match a with
      | ⟨0, _⟩ => show win3_1.index t (0 : Fin 2) * 1 + 1 * 0 = 0; omega
      | ⟨1, _⟩ => show win3_1.index t (1 : Fin 2) * 32 + 1 * k.val = k.val; omega
    have hout : ((cfg3.win 2).blk t).view.emb (ix2 r q : S10000x32.Idx)
        = (ix2 (⟨t.val * 10000 + r.val, by omega⟩ : Fin 100000) q : S100000x32.Idx) := by
      funext a; apply Fin.ext
      match a with
      | ⟨0, _⟩ => show win3_2.index t (0 : Fin 2) * 10000 + 1 * r.val = t.val * 10000 + r.val; omega
      | ⟨1, _⟩ => show win3_2.index t (1 : Fin 2) * 32 + 1 * q.val = q.val; omega
    simp only [hrows, hbias]
    rw [hout]
    rfl
  exact key _ _

end

/-- An index of the array is in point `t`'s block iff each coordinate is in the block's range on its axis. -/
theorem mem_block (t : Fin cfg3.N) (i : S100000x32.Idx) :
    i ∈ ((cfg3.win 2).blk t).view.set ↔ ∀ a : Fin 2, win3_2.index t a * S10000x32.size a ≤ (i a).val
      ∧ (i a).val < win3_2.index t a * S10000x32.size a + S10000x32.size a := by
  show i ∈ ((View.whole main_v58).slice (win3_2.rect t)).set ↔ _
  rw [View.set_slice_whole, Rect.mem_set_unit]
  exact Iff.rfl

/-- Every row is in some point's block: row `i 0` is in the block of point `(i 0) / 10000`. -/
theorem covered (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  obtain ⟨t, ht⟩ : ∃ t : Fin cfg3.N, t.val = (i 0).val / 10000 :=
    ⟨⟨(i 0).val / 10000, by show (i 0).val / 10000 < 10; omega⟩, rfl⟩
  obtain ⟨-, -, -, -, e20, e21⟩ := block_indices t
  refine ⟨t, flush3_2 t, ?_⟩
  rw [mem_block]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 32 ≤ (i 1).val ∧ (i 1).val < win3_2.index t (1 : Fin 2) * 32 + 32
    omega

/-- THE ARRAY after the region's ten points: `biasLogSoftmax` of the two operand arrays as the region found them. -/
theorem final (V : (c : Dev nD) → (b : Ref sig .tc) → Buf (Elt Ideal) ((c : Thread nD τ).loc b)) (c : Dev nD) :
    (dat3 (F := Ideal) V c).arrAt 2 cfg3.N
      = Cert.Gcn.biasLogSoftmax (V c (Pipeline.arrRef spec3 0)) (V c (Pipeline.arrRef spec3 1)) :=
  (dat3 (F := Ideal) V c).arrAt_eq_of_cover 2 _ (fun t _ => flushed_eq V c t) covered

end Cert.KernelIdeal.RegionLogSoftmax

end
-- ==== Proof.KernelRows.lean ====
/-
  The kernel makes a [1, n] row of a bias vector by a reshape: entry (0, c) of the row is entry c of the vector.
-/
import proofs.«105643_j20203526160738_1_alg».proof.Proof.Gen.KernelIdeal
import Idealize.ShloMosaic.Lib.ValueIdx
import Idealize.ShloMosaic.Lib.ValueLayout
import Idealize.ShloMosaic.Lib.Pipeline.Value

noncomputable section

namespace Cert.KernelIdeal.Rows

open Cert.KernelIdeal Cert.KernelIdeal.Facts₀ Cert.KernelIdeal.Facts Idealize.ShloMosaic Idealize.ShloMosaic.ValueIdx

/-- The 128-entry bias as a [1, 128] row: entry (0, c) is entry c. -/
theorem row128_apply (b : (⟨S128, .f32⟩ : BufTy).Contents (Elt Ideal)) (c : Fin 128) :
    shapeCast S1x128 b shapeCasts_S128_S1x128 (ix2 (0 : Fin 1) c) = b (ix1 c) :=
  shapeCast_a_1a_apply b shapeCasts_S128_S1x128 (0 : Fin 1) c

/-- The 32-entry bias as a [1, 32] row: entry (0, c) is entry c. -/
theorem row32_apply (b : (⟨S32, .f32⟩ : BufTy).Contents (Elt Ideal)) (c : Fin 32) :
    shapeCast S1x32 b shapeCasts_S32_S1x32 (ix2 (0 : Fin 1) c) = b (ix1 c) :=
  shapeCast_a_1a_apply b shapeCasts_S32_S1x32 (0 : Fin 1) c

end Cert.KernelIdeal.Rows

end
-- ==== Proof.SpecLaws.lean ====
/-
  Two congruences of the layer functions in their bias row. The bias enters `biasRelu` and `biasLogSoftmax` only
  through its entries (0, c): two rows that agree there give the same function.
-/
import proofs.«105643_j20203526160738_1_alg».proof.Proof.Spec

noncomputable section

namespace Cert.Gcn

open Idealize.ShloMosaic Idealize.ShloMosaic.ValueIdx

/-- Bias then rectifier depends on the bias row only through its entries (0, c). -/
theorem biasRelu_congr_row (a : (⟨2, ![100000, 128]⟩ : Shape).Idx → EReal) (r r' : (⟨2, ![1, 128]⟩ : Shape).Idx → EReal)
    (h : ∀ c : Fin 128, r (ix2 (0 : Fin 1) c) = r' (ix2 (0 : Fin 1) c)) : biasRelu a r = biasRelu a r' := by
  funext i
  unfold biasRelu
  exact congrArg (fun z => max (a i + z) (Ideal.ofBits .f32 0x00000000#32)) (h (i 1))

/-- The biased logits of a row depend on the bias row only through its entries (0, c). -/
theorem logits_congr_row (a : (⟨2, ![100000, 32]⟩ : Shape).Idx → EReal) (r r' : (⟨2, ![1, 32]⟩ : Shape).Idx → EReal)
    (h : ∀ c : Fin 32, r (ix2 (0 : Fin 1) c) = r' (ix2 (0 : Fin 1) c)) : logits a r = logits a r' := by
  funext p j
  unfold logits
  exact congrArg (fun z => a (ix2 p j) + z) (h j)

/-- Bias then row log-softmax depends on the bias row only through its entries (0, c). -/
theorem biasLogSoftmax_congr_row (a : (⟨2, ![100000, 32]⟩ : Shape).Idx → EReal) (r r' : (⟨2, ![1, 32]⟩ : Shape).Idx → EReal)
    (h : ∀ c : Fin 32, r (ix2 (0 : Fin 1) c) = r' (ix2 (0 : Fin 1) c)) : biasLogSoftmax a r = biasLogSoftmax a r' := by
  unfold biasLogSoftmax
  rw [logits_congr_row a r r' h]

end Cert.Gcn

end
-- ==== Proof.LibHostLine.lean ====
/-
  Two general facts about a straight line of host array operations.

  1. The buffers after a concatenated line `l₁ ++ l₂` are the buffers after `l₂` from the buffers after `l₁`: a long
     line can be cut into short parts and each part read on its own, at an arbitrary state of the buffers.
  2. The operations of a called function read and write each buffer through its tensor type: a value is carried into the
     buffer's type (`TRef.toBuf`) and back (`TRef.ofBuf`) along the equation between the two types. There and back is
     the identity, for ANY typed reference (by substituting the equation, without evaluating the buffer table), and
     either way the carried value is the value it was (as a heterogeneous equation, which becomes an equation wherever
     the two types are the same by computation).
-/
import Idealize.ShloMosaic.Lib.StableHlo.Run

namespace Cert.HostLine

open Idealize.ShloMosaic Idealize.ShloMosaic.StableHlo

/-- The fold of a concatenated line is the fold of its second part over the fold of its first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Into a buffer's type and back is the identity. -/
theorem ofBuf_toBuf {sig : RefSig} {T : BufTy} {Val : EltTy → Type} (x : TRef sig T) (v : T.Contents Val) :
    x.ofBuf (x.toBuf v) = v := by
  obtain ⟨r, h, h1, h2⟩ := x
  subst h
  rfl

/-- A value carried into a buffer's type is that value. -/
theorem toBuf_heq {sig : RefSig} {T : BufTy} {Val : EltTy → Type} (x : TRef sig T) (v : T.Contents Val) : HEq (x.toBuf v) v :=
  cast_heq _ _

/-- A buffer's contents read at its tensor type are those contents. -/
theorem ofBuf_heq {sig : RefSig} {T : BufTy} {Val : EltTy → Type} (x : TRef sig T) (v : x.ref.ty.Contents Val) : HEq (x.ofBuf v) v :=
  cast_heq _ _

end Cert.HostLine
-- ==== Proof.RefRun.lean ====
/-
  The idealized reference's run, with its operations cut where the layers end.

  The reference is a straight line of 91 array operations: the edge list's endpoints and weights (33), the
  first graph-convolution layer with its rectifier (23), the second layer (20), and the row log-softmax (15).
  Every weakly fair execution terminates with every buffer at the fold of the operations' results over its
  launch contents; the fold of a concatenated line is the fold of its second part over the fold of its first,
  so the four parts can be read one after the other, each at an arbitrary state of the buffers.
-/
import proofs.«105643_j20203526160738_1_alg».proof.Proof.Gen.ReferenceIdeal
import proofs.«105643_j20203526160738_1_alg».proof.Proof.LibHostLine
import Idealize.ShloMosaic.Lib.StableHlo.Run

noncomputable section

namespace Cert.ReferenceIdeal.Walk

open Cert.ReferenceIdeal Cert.ReferenceIdeal.Gen Idealize.ShloMosaic Idealize.ShloMosaic.TcCoe Idealize.SL.Sem Idealize.ShloMosaic.StableHlo Cert.HostLine

variable {F : FTy → Type} [FloatOps F]

/-- The whole line: @main's 91 operations in order, a called function's operations in its call's place. -/
abbrev line : List (HloOp τ sig (Elt F)) :=
  [ nullary main_v0 (iotaInDim S100000 32 0),
    unary main_arg1 main_v1 ((extractStridedSlice S1x625000 ![0, 0] · slices_S2x625000_S1x625000_0_0) : (⟨S2x625000, .i32⟩ : BufTy).Contents (Elt F) → (⟨S1x625000, .i32⟩ : BufTy).Contents (Elt F)),
    reshape main_v1 main_v2 rfl shapeCasts_S1x625000_S625000,
    binary main_v2 main_v0 main_v3 ((fun a b => concatenate S725000 0 [⟨S625000, a⟩, ⟨S100000, b⟩] concatenates_S625000_S100000_S725000_d0) : (⟨S625000, .i32⟩ : BufTy).Contents (Elt F) → (⟨S100000, .i32⟩ : BufTy).Contents (Elt F) → (⟨S725000, .i32⟩ : BufTy).Contents (Elt F)),
    unary main_arg1 main_v4 ((extractStridedSlice S1x625000 ![1, 0] · slices_S2x625000_S1x625000_1_0) : (⟨S2x625000, .i32⟩ : BufTy).Contents (Elt F) → (⟨S1x625000, .i32⟩ : BufTy).Contents (Elt F)),
    reshape main_v4 main_v5 rfl shapeCasts_S1x625000_S625000,
    binary main_v5 main_v0 main_v6 ((fun a b => concatenate S725000 0 [⟨S625000, a⟩, ⟨S100000, b⟩] concatenates_S625000_S100000_S725000_d0) : (⟨S625000, .i32⟩ : BufTy).Contents (Elt F) → (⟨S100000, .i32⟩ : BufTy).Contents (Elt F) → (⟨S725000, .i32⟩ : BufTy).Contents (Elt F)),
    nullary main_cst (constant S_ .f32 0x3F800000#32),
    unary main_cst main_v7 (broadcastInDim S725000 ![] bcast_S_S725000 : (⟨S_, .f32⟩ : BufTy).Contents (Elt F) → (⟨S725000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S725000x1 ![0] bcast_S725000_S725000x1_0 : (⟨S725000, .i32⟩ : BufTy).Contents (Elt F) → (⟨S725000x1, .i32⟩ : BufTy).Contents (Elt F)),
    ternary main_v8 main_v9 main_v7 main_v10 ((fun x i u => Host.scatterAdd scatter_S100000_S725000x1_S725000_n_0_0_1 x i u) : (⟨S100000, .f32⟩ : BufTy).Contents (Elt F) → (⟨S725000x1, .i32⟩ : BufTy).Contents (Elt F) → (⟨S725000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S725000 ![] bcast_S_S725000 : (⟨S_, .i32⟩ : BufTy).Contents (Elt F) → (⟨S725000, .i32⟩ : BufTy).Contents (Elt F)),
    binary main_v3 main_v12 main_v13 (cmpi .slt : (⟨S725000, .i32⟩ : BufTy).Contents (Elt F) → (⟨S725000, .i32⟩ : BufTy).Contents (Elt F) → (⟨S725000, .i1⟩ : BufTy).Contents (Elt F)),
    nullary main_c_1 (constantI S_ 32 100000#32),
    unary main_c_1 main_v14 (broadcastInDim S725000 ![] bcast_S_S725000 : (⟨S_, .i32⟩ : BufTy).Contents (Elt F) → (⟨S725000, .i32⟩ : BufTy).Contents (Elt F)),
    binary main_v3 main_v14 main_v15 (addi : (⟨S725000, .i32⟩ : BufTy).Contents (Elt F) → (⟨S725000, .i32⟩ : BufTy).Contents (Elt F) → (⟨S725000, .i32⟩ : BufTy).Contents (Elt F)),
    ternary main_v13 main_v15 main_v3 main_v16 (select : (⟨S725000, .i1⟩ : BufTy).Contents (Elt F) → (⟨S725000, .i32⟩ : BufTy).Contents (Elt F) → (⟨S725000, .i32⟩ : BufTy).Contents (Elt F) → (⟨S725000, .i32⟩ : BufTy).Contents (Elt F)),
    unary main_v16 main_v17 (broadcastInDim S725000x1 ![0] bcast_S725000_S725000x1_0 : (⟨S725000, .i32⟩ : BufTy).Contents (Elt F) → (⟨S725000x1, .i32⟩ : BufTy).Contents (Elt F)),
    binary main_v11 main_v17 main_v18 ((fun x i => Host.gather gather_S100000_S725000x1_S725000_n_0_n_n_0_1_1 x i) : (⟨S100000, .f32⟩ : BufTy).Contents (Elt F) → (⟨S725000x1, .i32⟩ : BufTy).Contents (Elt F) → (⟨S725000, .f32⟩ : BufTy).Contents (Elt F)),
    nullary main_c_2 (constantI S_ 32 0#32),
    unary main_c_2 main_v19 (broadcastInDim S725000 ![] bcast_S_S725000 : (⟨S_, .i32⟩ : BufTy).Contents (Elt F) → (⟨S725000, .i32⟩ : BufTy).Contents (Elt F)),
    binary main_v6 main_v19 main_v20 (cmpi .slt : (⟨S725000, .i32⟩ : BufTy).Contents (Elt F) → (⟨S725000, .i32⟩ : BufTy).Contents (Elt F) → (⟨S725000, .i1⟩ : BufTy).Contents (Elt F)),
    nullary main_c_3 (constantI S_ 32 100000#32),
    unary main_c_3 main_v21 (broadcastInDim S725000 ![] bcast_S_S725000 : (⟨S_, .i32⟩ : BufTy).Contents (Elt F) → (⟨S725000, .i32⟩ : BufTy).Contents (Elt F)),
    binary main_v6 main_v21 main_v22 (addi : (⟨S725000, .i32⟩ : BufTy).Contents (Elt F) → (⟨S725000, .i32⟩ : BufTy).Contents (Elt F) → (⟨S725000, .i32⟩ : BufTy).Contents (Elt F)),
    ternary main_v20 main_v22 main_v6 main_v23 (select : (⟨S725000, .i1⟩ : BufTy).Contents (Elt F) → (⟨S725000, .i32⟩ : BufTy).Contents (Elt F) → (⟨S725000, .i32⟩ : BufTy).Contents (Elt F) → (⟨S725000, .i32⟩ : BufTy).Contents (Elt F)),
    unary main_v23 main_v24 (broadcastInDim S725000x1 ![0] bcast_S725000_S725000x1_0 : (⟨S725000, .i32⟩ : BufTy).Contents (Elt F) → (⟨S725000x1, .i32⟩ : BufTy).Contents (Elt F)),
    binary main_v11 main_v24 main_v25 ((fun x i => Host.gather gather_S100000_S725000x1_S725000_n_0_n_n_0_1_1 x i) : (⟨S100000, .f32⟩ : BufTy).Contents (Elt F) → (⟨S725000x1, .i32⟩ : BufTy).Contents (Elt F) → (⟨S725000, .f32⟩ : BufTy).Contents (Elt F)),
    binary main_v18 main_v25 main_v26 (mulf : (⟨S725000, .f32⟩ : BufTy).Contents (Elt F) → (⟨S725000, .f32⟩ : BufTy).Contents (Elt F) → (⟨S725000, .f32⟩ : BufTy).Contents (Elt F)),
    binary main_arg0 main_arg2 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_4 (constantI S_ 32 0#32),
    unary main_c_4 main_v28 (broadcastInDim S725000 ![] bcast_S_S725000 : (⟨S_, .i32⟩ : BufTy).Contents (Elt F) → (⟨S725000, .i32⟩ : BufTy).Contents (Elt F)),
    binary main_v3 main_v28 main_v29 (cmpi .slt : (⟨S725000, .i32⟩ : BufTy).Contents (Elt F) → (⟨S725000, .i32⟩ : BufTy).Contents (Elt F) → (⟨S725000, .i1⟩ : BufTy).Contents (Elt F)),
    nullary main_c_5 (constantI S_ 32 100000#32),
    unary main_c_5 main_v30 (broadcastInDim S725000 ![] bcast_S_S725000 : (⟨S_, .i32⟩ : BufTy).Contents (Elt F) → (⟨S725000, .i32⟩ : BufTy).Contents (Elt F)),
    binary main_v3 main_v30 main_v31 (addi : (⟨S725000, .i32⟩ : BufTy).Contents (Elt F) → (⟨S725000, .i32⟩ : BufTy).Contents (Elt F) → (⟨S725000, .i32⟩ : BufTy).Contents (Elt F)),
    ternary main_v29 main_v31 main_v3 main_v32 (select : (⟨S725000, .i1⟩ : BufTy).Contents (Elt F) → (⟨S725000, .i32⟩ : BufTy).Contents (Elt F) → (⟨S725000, .i32⟩ : BufTy).Contents (Elt F) → (⟨S725000, .i32⟩ : BufTy).Contents (Elt F)),
    unary main_v32 main_v33 (broadcastInDim S725000x1 ![0] bcast_S725000_S725000x1_0 : (⟨S725000, .i32⟩ : BufTy).Contents (Elt F) → (⟨S725000x1, .i32⟩ : BufTy).Contents (Elt F)),
    binary main_v27 main_v33 main_v34 ((fun x i => Host.gather gather_S100000x128_S725000x1_S725000x128_1_0_n_n_0_1_1128 x i) : (⟨S100000x128, .f32⟩ : BufTy).Contents (Elt F) → (⟨S725000x1, .i32⟩ : BufTy).Contents (Elt F) → (⟨S725000x128, .f32⟩ : BufTy).Contents (Elt F)),
    unary main_v26 main_v35 (broadcastInDim S725000x1 ![0] bcast_S725000_S725000x1_0 : (⟨S725000, .f32⟩ : BufTy).Contents (Elt F) → (⟨S725000x1, .f32⟩ : BufTy).Contents (Elt F)),
    unary main_v35 main_v36 (broadcastInDim S725000x128 ![0, 1] bcast_S725000x1_S725000x128_0_1 : (⟨S725000x1, .f32⟩ : BufTy).Contents (Elt F) → (⟨S725000x128, .f32⟩ : BufTy).Contents (Elt F)),
    binary main_v34 main_v36 main_v37 (mulf : (⟨S725000x128, .f32⟩ : BufTy).Contents (Elt F) → (⟨S725000x128, .f32⟩ : BufTy).Contents (Elt F) → (⟨S725000x128, .f32⟩ : BufTy).Contents (Elt F)),
    nullary main_cst_6 (constant S_ .f32 0x00000000#32),
    unary main_cst_6 main_v38 (broadcastInDim S100000x128 ![] bcast_S_S100000x128 : (⟨S_, .f32⟩ : BufTy).Contents (Elt F) → (⟨S100000x128, .f32⟩ : BufTy).Contents (Elt F)),
    unary main_v6 main_v39 (broadcastInDim S725000x1 ![0] bcast_S725000_S725000x1_0 : (⟨S725000, .i32⟩ : BufTy).Contents (Elt F) → (⟨S725000x1, .i32⟩ : BufTy).Contents (Elt F)),
    ternary main_v38 main_v39 main_v37 main_v40 ((fun x i u => Host.scatterAdd scatter_S100000x128_S725000x1_S725000x128_1_0_0_1 x i u) : (⟨S100000x128, .f32⟩ : BufTy).Contents (Elt F) → (⟨S725000x1, .i32⟩ : BufTy).Contents (Elt F) → (⟨S725000x128, .f32⟩ : BufTy).Contents (Elt F) → (⟨S100000x128, .f32⟩ : BufTy).Contents (Elt F)),
    unary main_arg3 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v43) (TRef.of (T := ⟨S100000x128, .f32⟩) main_call0_v0) (TRef.of (T := ⟨S100000x128, .f32⟩) main_v44) maximumf,
    binary main_v44 main_arg4 main_v45 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    nullary main_c_7 (constantI S_ 32 0#32),
    unary main_c_7 main_v46 (broadcastInDim S725000 ![] bcast_S_S725000 : (⟨S_, .i32⟩ : BufTy).Contents (Elt F) → (⟨S725000, .i32⟩ : BufTy).Contents (Elt F)),
    binary main_v3 main_v46 main_v47 (cmpi .slt : (⟨S725000, .i32⟩ : BufTy).Contents (Elt F) → (⟨S725000, .i32⟩ : BufTy).Contents (Elt F) → (⟨S725000, .i1⟩ : BufTy).Contents (Elt F)),
    nullary main_c_8 (constantI S_ 32 100000#32),
    unary main_c_8 main_v48 (broadcastInDim S725000 ![] bcast_S_S725000 : (⟨S_, .i32⟩ : BufTy).Contents (Elt F) → (⟨S725000, .i32⟩ : BufTy).Contents (Elt F)),
    binary main_v3 main_v48 main_v49 (addi : (⟨S725000, .i32⟩ : BufTy).Contents (Elt F) → (⟨S725000, .i32⟩ : BufTy).Contents (Elt F) → (⟨S725000, .i32⟩ : BufTy).Contents (Elt F)),
    ternary main_v47 main_v49 main_v3 main_v50 (select : (⟨S725000, .i1⟩ : BufTy).Contents (Elt F) → (⟨S725000, .i32⟩ : BufTy).Contents (Elt F) → (⟨S725000, .i32⟩ : BufTy).Contents (Elt F) → (⟨S725000, .i32⟩ : BufTy).Contents (Elt F)),
    unary main_v50 main_v51 (broadcastInDim S725000x1 ![0] bcast_S725000_S725000x1_0 : (⟨S725000, .i32⟩ : BufTy).Contents (Elt F) → (⟨S725000x1, .i32⟩ : BufTy).Contents (Elt F)),
    binary main_v45 main_v51 main_v52 ((fun x i => Host.gather gather_S100000x32_S725000x1_S725000x32_1_0_n_n_0_1_132 x i) : (⟨S100000x32, .f32⟩ : BufTy).Contents (Elt F) → (⟨S725000x1, .i32⟩ : BufTy).Contents (Elt F) → (⟨S725000x32, .f32⟩ : BufTy).Contents (Elt F)),
    unary main_v26 main_v53 (broadcastInDim S725000x1 ![0] bcast_S725000_S725000x1_0 : (⟨S725000, .f32⟩ : BufTy).Contents (Elt F) → (⟨S725000x1, .f32⟩ : BufTy).Contents (Elt F)),
    unary main_v53 main_v54 (broadcastInDim S725000x32 ![0, 1] bcast_S725000x1_S725000x32_0_1 : (⟨S725000x1, .f32⟩ : BufTy).Contents (Elt F) → (⟨S725000x32, .f32⟩ : BufTy).Contents (Elt F)),
    binary main_v52 main_v54 main_v55 (mulf : (⟨S725000x32, .f32⟩ : BufTy).Contents (Elt F) → (⟨S725000x32, .f32⟩ : BufTy).Contents (Elt F) → (⟨S725000x32, .f32⟩ : BufTy).Contents (Elt F)),
    nullary main_cst_9 (constant S_ .f32 0x00000000#32),
    unary main_cst_9 main_v56 (broadcastInDim S100000x32 ![] bcast_S_S100000x32 : (⟨S_, .f32⟩ : BufTy).Contents (Elt F) → (⟨S100000x32, .f32⟩ : BufTy).Contents (Elt F)),
    unary main_v6 main_v57 (broadcastInDim S725000x1 ![0] bcast_S725000_S725000x1_0 : (⟨S725000, .i32⟩ : BufTy).Contents (Elt F) → (⟨S725000x1, .i32⟩ : BufTy).Contents (Elt F)),
    ternary main_v56 main_v57 main_v55 main_v58 ((fun x i u => Host.scatterAdd scatter_S100000x32_S725000x1_S725000x32_1_0_0_1 x i u) : (⟨S100000x32, .f32⟩ : BufTy).Contents (Elt F) → (⟨S725000x1, .i32⟩ : BufTy).Contents (Elt F) → (⟨S725000x32, .f32⟩ : BufTy).Contents (Elt F) → (⟨S100000x32, .f32⟩ : BufTy).Contents (Elt F)),
    unary main_arg5 main_v59 (broadcastInDim S1x32 ![1] bcast_S32_S1x32_1 : (⟨S32, .f32⟩ : BufTy).Contents (Elt F) → (⟨S1x32, .f32⟩ : BufTy).Contents (Elt F)),
    unary main_v59 main_v60 (broadcastInDim S100000x32 ![0, 1] bcast_S1x32_S100000x32_0_1 : (⟨S1x32, .f32⟩ : BufTy).Contents (Elt F) → (⟨S100000x32, .f32⟩ : BufTy).Contents (Elt F)),
    binary main_v58 main_v60 main_v61 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0xFF800000#32),
    TRef.binary (TRef.of (T := ⟨S100000x32, .f32⟩) main_v61) (TRef.of (T := ⟨S_, .f32⟩) main_call1_cst) (TRef.of (T := ⟨S100000, .f32⟩) main_call1_v0) (fun x v => Host.reduce FloatOps.maximumf x v reducesTo_S100000x32_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x32, .f32⟩) main_call1_v4) (broadcastInDim S100000x32 ![0, 1] bcast_S100000x1_S100000x32_0_1),
    TRef.binary (TRef.of (T := ⟨S100000x32, .f32⟩) main_v61) (TRef.of (T := ⟨S100000x32, .f32⟩) main_call1_v4) (TRef.of (T := ⟨S100000x32, .f32⟩) main_call1_v5) subf,
    TRef.unary (TRef.of (T := ⟨S100000x32, .f32⟩) main_call1_v5) (TRef.of (T := ⟨S100000x32, .f32⟩) main_call1_v6) Host.exp,
    TRef.nullary (TRef.of (T := ⟨S_, .f32⟩) main_call1_cst_1) (constant S_ .f32 0x00000000#32),
    TRef.binary (TRef.of (T := ⟨S100000x32, .f32⟩) main_call1_v6) (TRef.of (T := ⟨S_, .f32⟩) main_call1_cst_1) (TRef.of (T := ⟨S100000, .f32⟩) main_call1_v7) (fun x v => Host.reduceAdd x v reducesTo_S100000x32_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x32, .f32⟩) main_call1_v10) (broadcastInDim S100000x32 ![0, 1] bcast_S100000x1_S100000x32_0_1),
    TRef.binary (TRef.of (T := ⟨S100000x32, .f32⟩) main_call1_v5) (TRef.of (T := ⟨S100000x32, .f32⟩) main_call1_v10) (TRef.of (T := ⟨S100000x32, .f32⟩) main_v62) subf ]

/-- The edge list's endpoints and weights. -/
abbrev edgeOps : List (HloOp τ sig (Elt F)) :=
  [ nullary main_v0 (iotaInDim S100000 32 0),
    unary main_arg1 main_v1 ((extractStridedSlice S1x625000 ![0, 0] · slices_S2x625000_S1x625000_0_0) : (⟨S2x625000, .i32⟩ : BufTy).Contents (Elt F) → (⟨S1x625000, .i32⟩ : BufTy).Contents (Elt F)),
    reshape main_v1 main_v2 rfl shapeCasts_S1x625000_S625000,
    binary main_v2 main_v0 main_v3 ((fun a b => concatenate S725000 0 [⟨S625000, a⟩, ⟨S100000, b⟩] concatenates_S625000_S100000_S725000_d0) : (⟨S625000, .i32⟩ : BufTy).Contents (Elt F) → (⟨S100000, .i32⟩ : BufTy).Contents (Elt F) → (⟨S725000, .i32⟩ : BufTy).Contents (Elt F)),
    unary main_arg1 main_v4 ((extractStridedSlice S1x625000 ![1, 0] · slices_S2x625000_S1x625000_1_0) : (⟨S2x625000, .i32⟩ : BufTy).Contents (Elt F) → (⟨S1x625000, .i32⟩ : BufTy).Contents (Elt F)),
    reshape main_v4 main_v5 rfl shapeCasts_S1x625000_S625000,
    binary main_v5 main_v0 main_v6 ((fun a b => concatenate S725000 0 [⟨S625000, a⟩, ⟨S100000, b⟩] concatenates_S625000_S100000_S725000_d0) : (⟨S625000, .i32⟩ : BufTy).Contents (Elt F) → (⟨S100000, .i32⟩ : BufTy).Contents (Elt F) → (⟨S725000, .i32⟩ : BufTy).Contents (Elt F)),
    nullary main_cst (constant S_ .f32 0x3F800000#32),
    unary main_cst main_v7 (broadcastInDim S725000 ![] bcast_S_S725000 : (⟨S_, .f32⟩ : BufTy).Contents (Elt F) → (⟨S725000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S725000x1 ![0] bcast_S725000_S725000x1_0 : (⟨S725000, .i32⟩ : BufTy).Contents (Elt F) → (⟨S725000x1, .i32⟩ : BufTy).Contents (Elt F)),
    ternary main_v8 main_v9 main_v7 main_v10 ((fun x i u => Host.scatterAdd scatter_S100000_S725000x1_S725000_n_0_0_1 x i u) : (⟨S100000, .f32⟩ : BufTy).Contents (Elt F) → (⟨S725000x1, .i32⟩ : BufTy).Contents (Elt F) → (⟨S725000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S725000 ![] bcast_S_S725000 : (⟨S_, .i32⟩ : BufTy).Contents (Elt F) → (⟨S725000, .i32⟩ : BufTy).Contents (Elt F)),
    binary main_v3 main_v12 main_v13 (cmpi .slt : (⟨S725000, .i32⟩ : BufTy).Contents (Elt F) → (⟨S725000, .i32⟩ : BufTy).Contents (Elt F) → (⟨S725000, .i1⟩ : BufTy).Contents (Elt F)),
    nullary main_c_1 (constantI S_ 32 100000#32),
    unary main_c_1 main_v14 (broadcastInDim S725000 ![] bcast_S_S725000 : (⟨S_, .i32⟩ : BufTy).Contents (Elt F) → (⟨S725000, .i32⟩ : BufTy).Contents (Elt F)),
    binary main_v3 main_v14 main_v15 (addi : (⟨S725000, .i32⟩ : BufTy).Contents (Elt F) → (⟨S725000, .i32⟩ : BufTy).Contents (Elt F) → (⟨S725000, .i32⟩ : BufTy).Contents (Elt F)),
    ternary main_v13 main_v15 main_v3 main_v16 (select : (⟨S725000, .i1⟩ : BufTy).Contents (Elt F) → (⟨S725000, .i32⟩ : BufTy).Contents (Elt F) → (⟨S725000, .i32⟩ : BufTy).Contents (Elt F) → (⟨S725000, .i32⟩ : BufTy).Contents (Elt F)),
    unary main_v16 main_v17 (broadcastInDim S725000x1 ![0] bcast_S725000_S725000x1_0 : (⟨S725000, .i32⟩ : BufTy).Contents (Elt F) → (⟨S725000x1, .i32⟩ : BufTy).Contents (Elt F)),
    binary main_v11 main_v17 main_v18 ((fun x i => Host.gather gather_S100000_S725000x1_S725000_n_0_n_n_0_1_1 x i) : (⟨S100000, .f32⟩ : BufTy).Contents (Elt F) → (⟨S725000x1, .i32⟩ : BufTy).Contents (Elt F) → (⟨S725000, .f32⟩ : BufTy).Contents (Elt F)),
    nullary main_c_2 (constantI S_ 32 0#32),
    unary main_c_2 main_v19 (broadcastInDim S725000 ![] bcast_S_S725000 : (⟨S_, .i32⟩ : BufTy).Contents (Elt F) → (⟨S725000, .i32⟩ : BufTy).Contents (Elt F)),
    binary main_v6 main_v19 main_v20 (cmpi .slt : (⟨S725000, .i32⟩ : BufTy).Contents (Elt F) → (⟨S725000, .i32⟩ : BufTy).Contents (Elt F) → (⟨S725000, .i1⟩ : BufTy).Contents (Elt F)),
    nullary main_c_3 (constantI S_ 32 100000#32),
    unary main_c_3 main_v21 (broadcastInDim S725000 ![] bcast_S_S725000 : (⟨S_, .i32⟩ : BufTy).Contents (Elt F) → (⟨S725000, .i32⟩ : BufTy).Contents (Elt F)),
    binary main_v6 main_v21 main_v22 (addi : (⟨S725000, .i32⟩ : BufTy).Contents (Elt F) → (⟨S725000, .i32⟩ : BufTy).Contents (Elt F) → (⟨S725000, .i32⟩ : BufTy).Contents (Elt F)),
    ternary main_v20 main_v22 main_v6 main_v23 (select : (⟨S725000, .i1⟩ : BufTy).Contents (Elt F) → (⟨S725000, .i32⟩ : BufTy).Contents (Elt F) → (⟨S725000, .i32⟩ : BufTy).Contents (Elt F) → (⟨S725000, .i32⟩ : BufTy).Contents (Elt F)),
    unary main_v23 main_v24 (broadcastInDim S725000x1 ![0] bcast_S725000_S725000x1_0 : (⟨S725000, .i32⟩ : BufTy).Contents (Elt F) → (⟨S725000x1, .i32⟩ : BufTy).Contents (Elt F)),
    binary main_v11 main_v24 main_v25 ((fun x i => Host.gather gather_S100000_S725000x1_S725000_n_0_n_n_0_1_1 x i) : (⟨S100000, .f32⟩ : BufTy).Contents (Elt F) → (⟨S725000x1, .i32⟩ : BufTy).Contents (Elt F) → (⟨S725000, .f32⟩ : BufTy).Contents (Elt F)),
    binary main_v18 main_v25 main_v26 (mulf : (⟨S725000, .f32⟩ : BufTy).Contents (Elt F) → (⟨S725000, .f32⟩ : BufTy).Contents (Elt F) → (⟨S725000, .f32⟩ : BufTy).Contents (Elt F)) ]

/-- The first layer: the linear map, the aggregation, the bias, the rectifier. -/
abbrev layer1Ops : List (HloOp τ sig (Elt F)) :=
  [ binary main_arg0 main_arg2 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_4 (constantI S_ 32 0#32),
    unary main_c_4 main_v28 (broadcastInDim S725000 ![] bcast_S_S725000 : (⟨S_, .i32⟩ : BufTy).Contents (Elt F) → (⟨S725000, .i32⟩ : BufTy).Contents (Elt F)),
    binary main_v3 main_v28 main_v29 (cmpi .slt : (⟨S725000, .i32⟩ : BufTy).Contents (Elt F) → (⟨S725000, .i32⟩ : BufTy).Contents (Elt F) → (⟨S725000, .i1⟩ : BufTy).Contents (Elt F)),
    nullary main_c_5 (constantI S_ 32 100000#32),
    unary main_c_5 main_v30 (broadcastInDim S725000 ![] bcast_S_S725000 : (⟨S_, .i32⟩ : BufTy).Contents (Elt F) → (⟨S725000, .i32⟩ : BufTy).Contents (Elt F)),
    binary main_v3 main_v30 main_v31 (addi : (⟨S725000, .i32⟩ : BufTy).Contents (Elt F) → (⟨S725000, .i32⟩ : BufTy).Contents (Elt F) → (⟨S725000, .i32⟩ : BufTy).Contents (Elt F)),
    ternary main_v29 main_v31 main_v3 main_v32 (select : (⟨S725000, .i1⟩ : BufTy).Contents (Elt F) → (⟨S725000, .i32⟩ : BufTy).Contents (Elt F) → (⟨S725000, .i32⟩ : BufTy).Contents (Elt F) → (⟨S725000, .i32⟩ : BufTy).Contents (Elt F)),
    unary main_v32 main_v33 (broadcastInDim S725000x1 ![0] bcast_S725000_S725000x1_0 : (⟨S725000, .i32⟩ : BufTy).Contents (Elt F) → (⟨S725000x1, .i32⟩ : BufTy).Contents (Elt F)),
    binary main_v27 main_v33 main_v34 ((fun x i => Host.gather gather_S100000x128_S725000x1_S725000x128_1_0_n_n_0_1_1128 x i) : (⟨S100000x128, .f32⟩ : BufTy).Contents (Elt F) → (⟨S725000x1, .i32⟩ : BufTy).Contents (Elt F) → (⟨S725000x128, .f32⟩ : BufTy).Contents (Elt F)),
    unary main_v26 main_v35 (broadcastInDim S725000x1 ![0] bcast_S725000_S725000x1_0 : (⟨S725000, .f32⟩ : BufTy).Contents (Elt F) → (⟨S725000x1, .f32⟩ : BufTy).Contents (Elt F)),
    unary main_v35 main_v36 (broadcastInDim S725000x128 ![0, 1] bcast_S725000x1_S725000x128_0_1 : (⟨S725000x1, .f32⟩ : BufTy).Contents (Elt F) → (⟨S725000x128, .f32⟩ : BufTy).Contents (Elt F)),
    binary main_v34 main_v36 main_v37 (mulf : (⟨S725000x128, .f32⟩ : BufTy).Contents (Elt F) → (⟨S725000x128, .f32⟩ : BufTy).Contents (Elt F) → (⟨S725000x128, .f32⟩ : BufTy).Contents (Elt F)),
    nullary main_cst_6 (constant S_ .f32 0x00000000#32),
    unary main_cst_6 main_v38 (broadcastInDim S100000x128 ![] bcast_S_S100000x128 : (⟨S_, .f32⟩ : BufTy).Contents (Elt F) → (⟨S100000x128, .f32⟩ : BufTy).Contents (Elt F)),
    unary main_v6 main_v39 (broadcastInDim S725000x1 ![0] bcast_S725000_S725000x1_0 : (⟨S725000, .i32⟩ : BufTy).Contents (Elt F) → (⟨S725000x1, .i32⟩ : BufTy).Contents (Elt F)),
    ternary main_v38 main_v39 main_v37 main_v40 ((fun x i u => Host.scatterAdd scatter_S100000x128_S725000x1_S725000x128_1_0_0_1 x i u) : (⟨S100000x128, .f32⟩ : BufTy).Contents (Elt F) → (⟨S725000x1, .i32⟩ : BufTy).Contents (Elt F) → (⟨S725000x128, .f32⟩ : BufTy).Contents (Elt F) → (⟨S100000x128, .f32⟩ : BufTy).Contents (Elt F)),
    unary main_arg3 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v43) (TRef.of (T := ⟨S100000x128, .f32⟩) main_call0_v0) (TRef.of (T := ⟨S100000x128, .f32⟩) main_v44) maximumf ]

/-- The second layer: the linear map, the aggregation, the bias. -/
abbrev layer2Ops : List (HloOp τ sig (Elt F)) :=
  [ binary main_v44 main_arg4 main_v45 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    nullary main_c_7 (constantI S_ 32 0#32),
    unary main_c_7 main_v46 (broadcastInDim S725000 ![] bcast_S_S725000 : (⟨S_, .i32⟩ : BufTy).Contents (Elt F) → (⟨S725000, .i32⟩ : BufTy).Contents (Elt F)),
    binary main_v3 main_v46 main_v47 (cmpi .slt : (⟨S725000, .i32⟩ : BufTy).Contents (Elt F) → (⟨S725000, .i32⟩ : BufTy).Contents (Elt F) → (⟨S725000, .i1⟩ : BufTy).Contents (Elt F)),
    nullary main_c_8 (constantI S_ 32 100000#32),
    unary main_c_8 main_v48 (broadcastInDim S725000 ![] bcast_S_S725000 : (⟨S_, .i32⟩ : BufTy).Contents (Elt F) → (⟨S725000, .i32⟩ : BufTy).Contents (Elt F)),
    binary main_v3 main_v48 main_v49 (addi : (⟨S725000, .i32⟩ : BufTy).Contents (Elt F) → (⟨S725000, .i32⟩ : BufTy).Contents (Elt F) → (⟨S725000, .i32⟩ : BufTy).Contents (Elt F)),
    ternary main_v47 main_v49 main_v3 main_v50 (select : (⟨S725000, .i1⟩ : BufTy).Contents (Elt F) → (⟨S725000, .i32⟩ : BufTy).Contents (Elt F) → (⟨S725000, .i32⟩ : BufTy).Contents (Elt F) → (⟨S725000, .i32⟩ : BufTy).Contents (Elt F)),
    unary main_v50 main_v51 (broadcastInDim S725000x1 ![0] bcast_S725000_S725000x1_0 : (⟨S725000, .i32⟩ : BufTy).Contents (Elt F) → (⟨S725000x1, .i32⟩ : BufTy).Contents (Elt F)),
    binary main_v45 main_v51 main_v52 ((fun x i => Host.gather gather_S100000x32_S725000x1_S725000x32_1_0_n_n_0_1_132 x i) : (⟨S100000x32, .f32⟩ : BufTy).Contents (Elt F) → (⟨S725000x1, .i32⟩ : BufTy).Contents (Elt F) → (⟨S725000x32, .f32⟩ : BufTy).Contents (Elt F)),
    unary main_v26 main_v53 (broadcastInDim S725000x1 ![0] bcast_S725000_S725000x1_0 : (⟨S725000, .f32⟩ : BufTy).Contents (Elt F) → (⟨S725000x1, .f32⟩ : BufTy).Contents (Elt F)),
    unary main_v53 main_v54 (broadcastInDim S725000x32 ![0, 1] bcast_S725000x1_S725000x32_0_1 : (⟨S725000x1, .f32⟩ : BufTy).Contents (Elt F) → (⟨S725000x32, .f32⟩ : BufTy).Contents (Elt F)),
    binary main_v52 main_v54 main_v55 (mulf : (⟨S725000x32, .f32⟩ : BufTy).Contents (Elt F) → (⟨S725000x32, .f32⟩ : BufTy).Contents (Elt F) → (⟨S725000x32, .f32⟩ : BufTy).Contents (Elt F)),
    nullary main_cst_9 (constant S_ .f32 0x00000000#32),
    unary main_cst_9 main_v56 (broadcastInDim S100000x32 ![] bcast_S_S100000x32 : (⟨S_, .f32⟩ : BufTy).Contents (Elt F) → (⟨S100000x32, .f32⟩ : BufTy).Contents (Elt F)),
    unary main_v6 main_v57 (broadcastInDim S725000x1 ![0] bcast_S725000_S725000x1_0 : (⟨S725000, .i32⟩ : BufTy).Contents (Elt F) → (⟨S725000x1, .i32⟩ : BufTy).Contents (Elt F)),
    ternary main_v56 main_v57 main_v55 main_v58 ((fun x i u => Host.scatterAdd scatter_S100000x32_S725000x1_S725000x32_1_0_0_1 x i u) : (⟨S100000x32, .f32⟩ : BufTy).Contents (Elt F) → (⟨S725000x1, .i32⟩ : BufTy).Contents (Elt F) → (⟨S725000x32, .f32⟩ : BufTy).Contents (Elt F) → (⟨S100000x32, .f32⟩ : BufTy).Contents (Elt F)),
    unary main_arg5 main_v59 (broadcastInDim S1x32 ![1] bcast_S32_S1x32_1 : (⟨S32, .f32⟩ : BufTy).Contents (Elt F) → (⟨S1x32, .f32⟩ : BufTy).Contents (Elt F)),
    unary main_v59 main_v60 (broadcastInDim S100000x32 ![0, 1] bcast_S1x32_S100000x32_0_1 : (⟨S1x32, .f32⟩ : BufTy).Contents (Elt F) → (⟨S100000x32, .f32⟩ : BufTy).Contents (Elt F)),
    binary main_v58 main_v60 main_v61 (addf : (⟨S100000x32, .f32⟩ : BufTy).Contents (Elt F) → (⟨S100000x32, .f32⟩ : BufTy).Contents (Elt F) → (⟨S100000x32, .f32⟩ : BufTy).Contents (Elt F)) ]

/-- The row log-softmax. -/
abbrev softmaxOps : List (HloOp τ sig (Elt F)) :=
  [ TRef.nullary (TRef.of (T := ⟨S_, .f32⟩) main_call1_cst) (constant S_ .f32 0xFF800000#32),
    TRef.binary (TRef.of (T := ⟨S100000x32, .f32⟩) main_v61) (TRef.of (T := ⟨S_, .f32⟩) main_call1_cst) (TRef.of (T := ⟨S100000, .f32⟩) main_call1_v0) (fun x v => Host.reduce FloatOps.maximumf x v reducesTo_S100000x32_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x32, .f32⟩) main_call1_v4) (broadcastInDim S100000x32 ![0, 1] bcast_S100000x1_S100000x32_0_1),
    TRef.binary (TRef.of (T := ⟨S100000x32, .f32⟩) main_v61) (TRef.of (T := ⟨S100000x32, .f32⟩) main_call1_v4) (TRef.of (T := ⟨S100000x32, .f32⟩) main_call1_v5) subf,
    TRef.unary (TRef.of (T := ⟨S100000x32, .f32⟩) main_call1_v5) (TRef.of (T := ⟨S100000x32, .f32⟩) main_call1_v6) Host.exp,
    TRef.nullary (TRef.of (T := ⟨S_, .f32⟩) main_call1_cst_1) (constant S_ .f32 0x00000000#32),
    TRef.binary (TRef.of (T := ⟨S100000x32, .f32⟩) main_call1_v6) (TRef.of (T := ⟨S_, .f32⟩) main_call1_cst_1) (TRef.of (T := ⟨S100000, .f32⟩) main_call1_v7) (fun x v => Host.reduceAdd x v reducesTo_S100000x32_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x32, .f32⟩) main_call1_v10) (broadcastInDim S100000x32 ![0, 1] bcast_S100000x1_S100000x32_0_1),
    TRef.binary (TRef.of (T := ⟨S100000x32, .f32⟩) main_call1_v5) (TRef.of (T := ⟨S100000x32, .f32⟩) main_call1_v10) (TRef.of (T := ⟨S100000x32, .f32⟩) main_v62) subf ]

theorem line_eq : (line : List (HloOp τ sig (Elt F))) = edgeOps ++ (layer1Ops ++ (layer2Ops ++ softmaxOps)) := rfl

/-- The buffers after the whole line: the four parts' folds, one over the other. -/
theorem after_line (V : Valuation τ sig (Elt F)) :
    after line V = after softmaxOps (after layer2Ops (after layer1Ops (after edgeOps V))) := by
  rw [line_eq, after_append, after_append, after_append]

set_option maxRecDepth 8192 in
set_option maxHeartbeats 4000000 in
theorem main_eq (c : Dev nD) : main (F := F) c = seq line := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem line_sub : (line : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- On every device, from any memory with zero counters: every weakly fair execution of @main terminates with
    every buffer at the fold of the line's results over its launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after line (launchContents m c) (Proc.devRef .tc b) :=
  run_seq scopedRefs_eq scopedSems_eq defs main (fun _ => line) main_eq (fun _ => line_sub) m ρ

end Cert.ReferenceIdeal.Walk

end
-- ==== Proof.RefWalk.lean ====
/-
  The idealized reference's result as one function of its arguments.

  The same array operations on the edge list as the kernel's (`endpoints`, `edgeWeight`, `aggregate128`,
  `aggregate32`: each edge and each node's self-loop carries the weight 1/sqrt(deg source) · 1/sqrt(deg target), and an
  aggregation gathers the source rows, scales them and adds them into the target rows), then per layer a whole
  matrix product, the bias broadcast down the rows, and a rectifier (layer 1) or the row log-softmax (layer 2):
  with z the biased row, (z − max z) − log ∑ exp (z − max z), the maximum first joined with −∞. Each of the four
  parts of the line is read once, at an arbitrary state `W` of the buffers, as such a function of the buffers it reads.
-/
import proofs.«105643_j20203526160738_1_alg».proof.Proof.RefRun

set_option maxRecDepth 16384

noncomputable section

namespace Cert.ReferenceIdeal.Walk

open Cert.ReferenceIdeal
open Idealize.ShloMosaic Idealize.ShloMosaic.TcCoe Idealize.SL.Sem Idealize.ShloMosaic.StableHlo

variable {F : FTy → Type} [FloatOps F]

section Glue
open Cert.ReferenceIdeal.Facts₀ Cert.ReferenceIdeal.Facts

/-- The source (row 0) or target (row 1) node of every edge, followed by every node once (the self-loops). -/
def endpoints (row : Fin 2 → Nat) (hrow : S2x625000.Slices row S1x625000) (e : (⟨S2x625000, .i32⟩ : BufTy).Contents (Elt F)) :
    (⟨S725000, .i32⟩ : BufTy).Contents (Elt F) :=
  concatenate S725000 0 [⟨S625000, shapeCast S625000 (extractStridedSlice S1x625000 row e hrow) shapeCasts_S1x625000_S625000⟩,
    ⟨S100000, iotaInDim S100000 32 0⟩] concatenates_S625000_S100000_S725000_d0

/-- A node list as a gather's index column: a negative index is first moved up by the node count. -/
def indexColumn (s : (⟨S725000, .i32⟩ : BufTy).Contents (Elt F)) : (⟨S725000x1, .i32⟩ : BufTy).Contents (Elt F) :=
  broadcastInDim S725000x1 ![0] bcast_S725000_S725000x1_0
    (select (cmpi .slt s (broadcastInDim S725000 ![] bcast_S_S725000 (constantI S_ 32 0#32)))
      (addi s (broadcastInDim S725000 ![] bcast_S_S725000 (constantI S_ 32 100000#32))) s)

/-- 1 / sqrt(degree): the degree of a node is the number of list entries that target it. -/
def invSqrtDegree (d : (⟨S725000, .i32⟩ : BufTy).Contents (Elt F)) : (⟨S100000, .f32⟩ : BufTy).Contents (Elt F) :=
  Host.rsqrt (Host.scatterAdd scatter_S100000_S725000x1_S725000_n_0_0_1
    (broadcastInDim S100000 ![] bcast_S_S100000 (constant S_ .f32 0x00000000#32))
    (broadcastInDim S725000x1 ![0] bcast_S725000_S725000x1_0 d)
    (broadcastInDim S725000 ![] bcast_S_S725000 (constant S_ .f32 0x3F800000#32)))

/-- The symmetric normalisation of every list entry: 1 / sqrt(deg source) · 1 / sqrt(deg target). -/
def edgeWeight (s d : (⟨S725000, .i32⟩ : BufTy).Contents (Elt F)) : (⟨S725000, .f32⟩ : BufTy).Contents (Elt F) :=
  mulf (Host.gather gather_S100000_S725000x1_S725000_n_0_n_n_0_1_1 (invSqrtDegree d) (indexColumn s))
    (Host.gather gather_S100000_S725000x1_S725000_n_0_n_n_0_1_1 (invSqrtDegree d) (indexColumn d))

/-- One aggregation over 128 features: gather the source rows, scale each by its entry's weight, add into the target rows. -/
def aggregate128 (h : (⟨S100000x128, .f32⟩ : BufTy).Contents (Elt F)) (s d : (⟨S725000, .i32⟩ : BufTy).Contents (Elt F))
    (n : (⟨S725000, .f32⟩ : BufTy).Contents (Elt F)) : (⟨S100000x128, .f32⟩ : BufTy).Contents (Elt F) :=
  Host.scatterAdd scatter_S100000x128_S725000x1_S725000x128_1_0_0_1
    (broadcastInDim S100000x128 ![] bcast_S_S100000x128 (constant S_ .f32 0x00000000#32))
    (broadcastInDim S725000x1 ![0] bcast_S725000_S725000x1_0 d)
    (mulf (Host.gather gather_S100000x128_S725000x1_S725000x128_1_0_n_n_0_1_1128 h (indexColumn s))
      (broadcastInDim S725000x128 ![0, 1] bcast_S725000x1_S725000x128_0_1 (broadcastInDim S725000x1 ![0] bcast_S725000_S725000x1_0 n)))

/-- The same aggregation over 32 features. -/
def aggregate32 (h : (⟨S100000x32, .f32⟩ : BufTy).Contents (Elt F)) (s d : (⟨S725000, .i32⟩ : BufTy).Contents (Elt F))
    (n : (⟨S725000, .f32⟩ : BufTy).Contents (Elt F)) : (⟨S100000x32, .f32⟩ : BufTy).Contents (Elt F) :=
  Host.scatterAdd scatter_S100000x32_S725000x1_S725000x32_1_0_0_1
    (broadcastInDim S100000x32 ![] bcast_S_S100000x32 (constant S_ .f32 0x00000000#32))
    (broadcastInDim S725000x1 ![0] bcast_S725000_S725000x1_0 d)
    (mulf (Host.gather gather_S100000x32_S725000x1_S725000x32_1_0_n_n_0_1_132 h (indexColumn s))
      (broadcastInDim S725000x32 ![0, 1] bcast_S725000x1_S725000x32_0_1 (broadcastInDim S725000x1 ![0] bcast_S725000_S725000x1_0 n)))

/-- The first layer on the node features `x`: rectifier of the aggregated x·w plus the bias. -/
def layer1 (x : (⟨S100000x128, .f32⟩ : BufTy).Contents (Elt F)) (w : (⟨S128x128, .f32⟩ : BufTy).Contents (Elt F))
    (b : (⟨S128, .f32⟩ : BufTy).Contents (Elt F)) (s d : (⟨S725000, .i32⟩ : BufTy).Contents (Elt F))
    (n : (⟨S725000, .f32⟩ : BufTy).Contents (Elt F)) : (⟨S100000x128, .f32⟩ : BufTy).Contents (Elt F) :=
  maximumf
    (addf (aggregate128 (Host.dotGeneral dot_S100000x128_S128x128_S100000x128_1_0_0_1_n_n none x w) s d n)
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The second layer on the hidden features `h`: the aggregated h·w plus the bias. -/
def layer2 (h : (⟨S100000x128, .f32⟩ : BufTy).Contents (Elt F)) (w : (⟨S128x32, .f32⟩ : BufTy).Contents (Elt F))
    (b : (⟨S32, .f32⟩ : BufTy).Contents (Elt F)) (s d : (⟨S725000, .i32⟩ : BufTy).Contents (Elt F))
    (n : (⟨S725000, .f32⟩ : BufTy).Contents (Elt F)) : (⟨S100000x32, .f32⟩ : BufTy).Contents (Elt F) :=
  addf (aggregate32 (Host.dotGeneral dot_S100000x128_S128x32_S100000x32_1_0_0_1_n_n none h w) s d n)
    (broadcastInDim S100000x32 ![0, 1] bcast_S1x32_S100000x32_0_1 (broadcastInDim S1x32 ![1] bcast_S32_S1x32_1 b))

/-- Each row minus its maximum, the maximum over the row joined with −∞ once more. -/
def shifted (y : (⟨S100000x32, .f32⟩ : BufTy).Contents (Elt F)) : (⟨S100000x32, .f32⟩ : BufTy).Contents (Elt F) :=
  subf y (broadcastInDim S100000x32 ![0, 1] bcast_S100000x1_S100000x32_0_1 (broadcastInDim S100000x1 ![0] bcast_S100000_S100000x1_0
    (maximumf (broadcastInDim S100000 ![] bcast_S_S100000 (constant S_ .f32 0xFF800000#32))
      (Host.reduce FloatOps.maximumf y (constant S_ .f32 0xFF800000#32) reducesTo_S100000x32_S100000_d1 h_S_))))

/-- The row log-softmax: the shifted row minus the logarithm of the sum of its exponentials. -/
def logSoftmax (y : (⟨S100000x32, .f32⟩ : BufTy).Contents (Elt F)) : (⟨S100000x32, .f32⟩ : BufTy).Contents (Elt F) :=
  subf (shifted y) (broadcastInDim S100000x32 ![0, 1] bcast_S100000x1_S100000x32_0_1
    (Host.log (broadcastInDim S100000x1 ![0] bcast_S100000_S100000x1_0
      (Host.reduceAdd (Host.exp (shifted y)) (constant S_ .f32 0x00000000#32) reducesTo_S100000x32_S100000_d1 h_S_))))

end Glue

/-! ## The four parts of the line, each read at an arbitrary state `W` of the buffers -/

section Parts
open Cert.ReferenceIdeal.Gen

/-! ### The edge list's endpoints and weights; the arguments are not written -/

set_option maxHeartbeats 4000000 in
theorem edge_keeps_arg0 (W : Valuation τ sig (Elt F)) : after edgeOps W (Proc.devRef .tc main_arg0) = W (Proc.devRef .tc main_arg0) := by
  after_results <;> rfl
set_option maxHeartbeats 4000000 in
theorem edge_keeps_arg2 (W : Valuation τ sig (Elt F)) : after edgeOps W (Proc.devRef .tc main_arg2) = W (Proc.devRef .tc main_arg2) := by
  after_results <;> rfl
set_option maxHeartbeats 4000000 in
theorem edge_keeps_arg3 (W : Valuation τ sig (Elt F)) : after edgeOps W (Proc.devRef .tc main_arg3) = W (Proc.devRef .tc main_arg3) := by
  after_results <;> rfl
set_option maxHeartbeats 4000000 in
theorem edge_keeps_arg4 (W : Valuation τ sig (Elt F)) : after edgeOps W (Proc.devRef .tc main_arg4) = W (Proc.devRef .tc main_arg4) := by
  after_results <;> rfl
set_option maxHeartbeats 4000000 in
theorem edge_keeps_arg5 (W : Valuation τ sig (Elt F)) : after edgeOps W (Proc.devRef .tc main_arg5) = W (Proc.devRef .tc main_arg5) := by
  after_results <;> rfl

set_option maxHeartbeats 4000000 in
theorem edge_sources (W : Valuation τ sig (Elt F)) : after edgeOps W (Proc.devRef .tc main_v3)
    = endpoints ![0, 0] slices_S2x625000_S1x625000_0_0 (W (Proc.devRef .tc main_arg1)) := by
  after_results <;> rfl

set_option maxHeartbeats 4000000 in
theorem edge_targets (W : Valuation τ sig (Elt F)) : after edgeOps W (Proc.devRef .tc main_v6)
    = endpoints ![1, 0] slices_S2x625000_S1x625000_1_0 (W (Proc.devRef .tc main_arg1)) := by
  after_results <;> rfl

set_option maxHeartbeats 4000000 in
theorem edge_weights (W : Valuation τ sig (Elt F)) : after edgeOps W (Proc.devRef .tc main_v26)
    = edgeWeight (endpoints ![0, 0] slices_S2x625000_S1x625000_0_0 (W (Proc.devRef .tc main_arg1)))
        (endpoints ![1, 0] slices_S2x625000_S1x625000_1_0 (W (Proc.devRef .tc main_arg1))) := by
  after_results <;> rfl

/-! ### The first layer -/

set_option maxHeartbeats 4000000 in
theorem layer1_value (W : Valuation τ sig (Elt F)) : after layer1Ops W (Proc.devRef .tc main_v44)
    = layer1 (W (Proc.devRef .tc main_arg0)) (W (Proc.devRef .tc main_arg2)) (W (Proc.devRef .tc main_arg3)) (W (Proc.devRef .tc main_v3)) (W (Proc.devRef .tc main_v6)) (W (Proc.devRef .tc main_v26)) := by
  after_results <;> rfl

set_option maxHeartbeats 4000000 in
theorem layer1_keeps_sources (W : Valuation τ sig (Elt F)) : after layer1Ops W (Proc.devRef .tc main_v3) = W (Proc.devRef .tc main_v3) := by
  after_results <;> rfl
set_option maxHeartbeats 4000000 in
theorem layer1_keeps_targets (W : Valuation τ sig (Elt F)) : after layer1Ops W (Proc.devRef .tc main_v6) = W (Proc.devRef .tc main_v6) := by
  after_results <;> rfl
set_option maxHeartbeats 4000000 in
theorem layer1_keeps_weights (W : Valuation τ sig (Elt F)) : after layer1Ops W (Proc.devRef .tc main_v26) = W (Proc.devRef .tc main_v26) := by
  after_results <;> rfl
set_option maxHeartbeats 4000000 in
theorem layer1_keeps_arg4 (W : Valuation τ sig (Elt F)) : after layer1Ops W (Proc.devRef .tc main_arg4) = W (Proc.devRef .tc main_arg4) := by
  after_results <;> rfl
set_option maxHeartbeats 4000000 in
theorem layer1_keeps_arg5 (W : Valuation τ sig (Elt F)) : after layer1Ops W (Proc.devRef .tc main_arg5) = W (Proc.devRef .tc main_arg5) := by
  after_results <;> rfl

/-! ### The second layer -/

set_option maxHeartbeats 4000000 in
theorem layer2_value (W : Valuation τ sig (Elt F)) : after layer2Ops W (Proc.devRef .tc main_v61)
    = layer2 (W (Proc.devRef .tc main_v44)) (W (Proc.devRef .tc main_arg4)) (W (Proc.devRef .tc main_arg5)) (W (Proc.devRef .tc main_v3)) (W (Proc.devRef .tc main_v6)) (W (Proc.devRef .tc main_v26)) := by
  after_results <;> rfl

end Parts

end Cert.ReferenceIdeal.Walk

end
-- ==== Proof.RefSoftmax.lean ====
/-
  The idealized reference's row log-softmax, read in three short runs.

  The fifteen operations of the log-softmax are: the row maximum joined with −∞ (five operations), the rows minus
  that maximum and their exponentials (five), and the logarithm of the row sums subtracted from the shifted rows
  (five). They are the operations of a called function, which reads and writes each buffer through its tensor type: a
  value is carried into a buffer's type and back, and carrying it there and back changes nothing. Each run is read at an
  arbitrary state of the buffers; composed, they give `logSoftmax` of the array the second layer left.
-/
import proofs.«105643_j20203526160738_1_alg».proof.Proof.RefWalk

set_option maxRecDepth 16384

noncomputable section

namespace Cert.ReferenceIdeal.Walk

open Cert.ReferenceIdeal Cert.ReferenceIdeal.Gen
open Idealize.ShloMosaic Idealize.ShloMosaic.TcCoe Idealize.SL.Sem Idealize.ShloMosaic.StableHlo Cert.HostLine

variable {F : FTy → Type} [FloatOps F]

/-- The row maximum, joined with −∞. -/
abbrev topOps : List (HloOp τ sig (Elt F)) :=
  [ TRef.nullary (TRef.of (T := ⟨S_, .f32⟩) main_call1_cst) (constant S_ .f32 0xFF800000#32),
    TRef.binary (TRef.of (T := ⟨S100000x32, .f32⟩) main_v61) (TRef.of (T := ⟨S_, .f32⟩) main_call1_cst) (TRef.of (T := ⟨S100000, .f32⟩) main_call1_v0) (fun x v => Host.reduce FloatOps.maximumf x v reducesTo_S100000x32_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf ]

/-- The rows minus their maximum, and the exponentials. -/
abbrev shiftOps : List (HloOp τ sig (Elt F)) :=
  [ TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x32, .f32⟩) main_call1_v4) (broadcastInDim S100000x32 ![0, 1] bcast_S100000x1_S100000x32_0_1),
    TRef.binary (TRef.of (T := ⟨S100000x32, .f32⟩) main_v61) (TRef.of (T := ⟨S100000x32, .f32⟩) main_call1_v4) (TRef.of (T := ⟨S100000x32, .f32⟩) main_call1_v5) subf,
    TRef.unary (TRef.of (T := ⟨S100000x32, .f32⟩) main_call1_v5) (TRef.of (T := ⟨S100000x32, .f32⟩) main_call1_v6) Host.exp,
    TRef.nullary (TRef.of (T := ⟨S_, .f32⟩) main_call1_cst_1) (constant S_ .f32 0x00000000#32) ]

/-- The logarithm of the row sums, subtracted. -/
abbrev logOps : List (HloOp τ sig (Elt F)) :=
  [ TRef.binary (TRef.of (T := ⟨S100000x32, .f32⟩) main_call1_v6) (TRef.of (T := ⟨S_, .f32⟩) main_call1_cst_1) (TRef.of (T := ⟨S100000, .f32⟩) main_call1_v7) (fun x v => Host.reduceAdd x v reducesTo_S100000x32_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x32, .f32⟩) main_call1_v10) (broadcastInDim S100000x32 ![0, 1] bcast_S100000x1_S100000x32_0_1),
    TRef.binary (TRef.of (T := ⟨S100000x32, .f32⟩) main_call1_v5) (TRef.of (T := ⟨S100000x32, .f32⟩) main_call1_v10) (TRef.of (T := ⟨S100000x32, .f32⟩) main_v62) subf ]

theorem softmaxOps_eq : (softmaxOps : List (HloOp τ sig (Elt F))) = topOps ++ (shiftOps ++ logOps) := rfl

section Runs
variable (W : Valuation τ sig (Elt F))

set_option maxHeartbeats 4000000 in
theorem top_value : after topOps W (Proc.devRef .tc main_call1_v2)
    = (TRef.of (T := ⟨S100000, .f32⟩) main_call1_v2).toBuf (maximumf (broadcastInDim S100000 ![] bcast_S_S100000 (constant S_ .f32 0xFF800000#32))
        (Host.reduce FloatOps.maximumf ((TRef.of (T := ⟨S100000x32, .f32⟩) main_v61).ofBuf (W (Proc.devRef .tc main_v61))) (constant S_ .f32 0xFF800000#32) reducesTo_S100000x32_S100000_d1 h_S_)) := by
  after_results
  simp only [ofBuf_toBuf]
  try rfl

set_option maxHeartbeats 4000000 in
theorem top_keeps_logits : after topOps W (Proc.devRef .tc main_v61) = W (Proc.devRef .tc main_v61) := by
  after_results <;> rfl

set_option maxHeartbeats 4000000 in
theorem shift_value : after shiftOps W (Proc.devRef .tc main_call1_v5)
    = (TRef.of (T := ⟨S100000x32, .f32⟩) main_call1_v5).toBuf (subf ((TRef.of (T := ⟨S100000x32, .f32⟩) main_v61).ofBuf (W (Proc.devRef .tc main_v61))) (broadcastInDim S100000x32 ![0, 1] bcast_S100000x1_S100000x32_0_1 (broadcastInDim S100000x1 ![0] bcast_S100000_S100000x1_0 ((TRef.of (T := ⟨S100000, .f32⟩) main_call1_v2).ofBuf (W (Proc.devRef .tc main_call1_v2)))))) := by
  after_results
  simp only [ofBuf_toBuf]
  try rfl

set_option maxHeartbeats 4000000 in
theorem shift_exp : after shiftOps W (Proc.devRef .tc main_call1_v6)
    = (TRef.of (T := ⟨S100000x32, .f32⟩) main_call1_v6).toBuf (Host.exp (subf ((TRef.of (T := ⟨S100000x32, .f32⟩) main_v61).ofBuf (W (Proc.devRef .tc main_v61))) (broadcastInDim S100000x32 ![0, 1] bcast_S100000x1_S100000x32_0_1 (broadcastInDim S100000x1 ![0] bcast_S100000_S100000x1_0 ((TRef.of (T := ⟨S100000, .f32⟩) main_call1_v2).ofBuf (W (Proc.devRef .tc main_call1_v2))))))) := by
  after_results
  simp only [ofBuf_toBuf]
  try rfl

set_option maxHeartbeats 4000000 in
theorem shift_zero : after shiftOps W (Proc.devRef .tc main_call1_cst_1) = (TRef.of (T := ⟨S_, .f32⟩) main_call1_cst_1).toBuf (constant S_ .f32 0x00000000#32) := by
  after_results <;> rfl

set_option maxHeartbeats 4000000 in
theorem log_value : after logOps W (Proc.devRef .tc main_v62)
    = (TRef.of (T := ⟨S100000x32, .f32⟩) main_v62).toBuf (subf ((TRef.of (T := ⟨S100000x32, .f32⟩) main_call1_v5).ofBuf (W (Proc.devRef .tc main_call1_v5)))
        (broadcastInDim S100000x32 ![0, 1] bcast_S100000x1_S100000x32_0_1 (Host.log (broadcastInDim S100000x1 ![0] bcast_S100000_S100000x1_0 (Host.reduceAdd ((TRef.of (T := ⟨S100000x32, .f32⟩) main_call1_v6).ofBuf (W (Proc.devRef .tc main_call1_v6))) ((TRef.of (T := ⟨S_, .f32⟩) main_call1_cst_1).ofBuf (W (Proc.devRef .tc main_call1_cst_1))) reducesTo_S100000x32_S100000_d1 h_S_))))) := by
  after_results
  simp only [ofBuf_toBuf]
  try rfl

end Runs

set_option maxHeartbeats 4000000 in
/-- The whole log-softmax part at an arbitrary state `W`: `logSoftmax` of the second layer's array, each read and
    written through its tensor type. -/
theorem softmax_value (W : Valuation τ sig (Elt F)) :
    after softmaxOps W (Proc.devRef .tc main_v62) = (TRef.of (T := ⟨S100000x32, .f32⟩) main_v62).toBuf (logSoftmax ((TRef.of (T := ⟨S100000x32, .f32⟩) main_v61).ofBuf (W (Proc.devRef .tc main_v61)))) := by
  rw [softmaxOps_eq, after_append, after_append, log_value, shift_value, shift_exp, shift_zero, top_value, top_keeps_logits]
  simp only [ofBuf_toBuf]
  rfl

end Cert.ReferenceIdeal.Walk

end
-- ==== Proof.RefValue.lean ====
/-
  The idealized reference's returned array as one function of its arguments.

  The four parts of the line are read one over the other from the launch contents: the edge list's sources, targets
  and weights; the first layer on the node features; the second layer on the hidden features; the row log-softmax.
  No operation writes an argument, so the six arguments end as launched.
-/
import proofs.«105643_j20203526160738_1_alg».proof.Proof.RefSoftmax

set_option maxRecDepth 16384

noncomputable section

namespace Cert.ReferenceIdeal.Walk

open Cert.ReferenceIdeal Cert.ReferenceIdeal.Gen
open Idealize.ShloMosaic Idealize.ShloMosaic.TcCoe Idealize.SL.Sem Idealize.ShloMosaic.StableHlo Cert.HostLine

variable {F : FTy → Type} [FloatOps F]

theorem layer1_congr {x x' : (⟨S100000x128, .f32⟩ : BufTy).Contents (Elt F)} {w w' : (⟨S128x128, .f32⟩ : BufTy).Contents (Elt F)}
    {b b' : (⟨S128, .f32⟩ : BufTy).Contents (Elt F)} {s s' d d' : (⟨S725000, .i32⟩ : BufTy).Contents (Elt F)}
    {n n' : (⟨S725000, .f32⟩ : BufTy).Contents (Elt F)} (ex : x = x') (ew : w = w') (eb : b = b') (es : s = s') (ed : d = d') (en : n = n') :
    layer1 x w b s d n = layer1 x' w' b' s' d' n' := by subst ex ew eb es ed en; rfl

theorem layer2_congr {h h' : (⟨S100000x128, .f32⟩ : BufTy).Contents (Elt F)} {w w' : (⟨S128x32, .f32⟩ : BufTy).Contents (Elt F)}
    {b b' : (⟨S32, .f32⟩ : BufTy).Contents (Elt F)} {s s' d d' : (⟨S725000, .i32⟩ : BufTy).Contents (Elt F)}
    {n n' : (⟨S725000, .f32⟩ : BufTy).Contents (Elt F)} (eh : h = h') (ew : w = w') (eb : b = b') (es : s = s') (ed : d = d') (en : n = n') :
    layer2 h w b s d n = layer2 h' w' b' s' d' n' := by subst eh ew eb es ed en; rfl

set_option maxHeartbeats 4000000 in
/-- No operation of the line writes argument 0. -/
theorem line_keeps_arg0 (V : Valuation τ sig (Elt F)) : after line V (Proc.devRef .tc main_arg0) = V (Proc.devRef .tc main_arg0) :=
  after_of_forall_not_mem (b := (Proc.devRef .tc main_arg0)) _ _ (List.forall_iff_forall_mem.mp (by
    simp only [line, List.Forall, nullary_writes, unary_writes, binary_writes, ternary_writes, quaternary_writes, reshape_writes, Finset.mem_singleton]
    repeat' apply And.intro
    all_goals exact devRef_ne_of_ne (by decide)))

set_option maxHeartbeats 4000000 in
/-- No operation of the line writes argument 1. -/
theorem line_keeps_arg1 (V : Valuation τ sig (Elt F)) : after line V (Proc.devRef .tc main_arg1) = V (Proc.devRef .tc main_arg1) :=
  after_of_forall_not_mem (b := (Proc.devRef .tc main_arg1)) _ _ (List.forall_iff_forall_mem.mp (by
    simp only [line, List.Forall, nullary_writes, unary_writes, binary_writes, ternary_writes, quaternary_writes, reshape_writes, Finset.mem_singleton]
    repeat' apply And.intro
    all_goals exact devRef_ne_of_ne (by decide)))

set_option maxHeartbeats 4000000 in
/-- No operation of the line writes argument 2. -/
theorem line_keeps_arg2 (V : Valuation τ sig (Elt F)) : after line V (Proc.devRef .tc main_arg2) = V (Proc.devRef .tc main_arg2) :=
  after_of_forall_not_mem (b := (Proc.devRef .tc main_arg2)) _ _ (List.forall_iff_forall_mem.mp (by
    simp only [line, List.Forall, nullary_writes, unary_writes, binary_writes, ternary_writes, quaternary_writes, reshape_writes, Finset.mem_singleton]
    repeat' apply And.intro
    all_goals exact devRef_ne_of_ne (by decide)))

set_option maxHeartbeats 4000000 in
/-- No operation of the line writes argument 3. -/
theorem line_keeps_arg3 (V : Valuation τ sig (Elt F)) : after line V (Proc.devRef .tc main_arg3) = V (Proc.devRef .tc main_arg3) :=
  after_of_forall_not_mem (b := (Proc.devRef .tc main_arg3)) _ _ (List.forall_iff_forall_mem.mp (by
    simp only [line, List.Forall, nullary_writes, unary_writes, binary_writes, ternary_writes, quaternary_writes, reshape_writes, Finset.mem_singleton]
    repeat' apply And.intro
    all_goals exact devRef_ne_of_ne (by decide)))

set_option maxHeartbeats 4000000 in
/-- No operation of the line writes argument 4. -/
theorem line_keeps_arg4 (V : Valuation τ sig (Elt F)) : after line V (Proc.devRef .tc main_arg4) = V (Proc.devRef .tc main_arg4) :=
  after_of_forall_not_mem (b := (Proc.devRef .tc main_arg4)) _ _ (List.forall_iff_forall_mem.mp (by
    simp only [line, List.Forall, nullary_writes, unary_writes, binary_writes, ternary_writes, quaternary_writes, reshape_writes, Finset.mem_singleton]
    repeat' apply And.intro
    all_goals exact devRef_ne_of_ne (by decide)))

set_option maxHeartbeats 4000000 in
/-- No operation of the line writes argument 5. -/
theorem line_keeps_arg5 (V : Valuation τ sig (Elt F)) : after line V (Proc.devRef .tc main_arg5) = V (Proc.devRef .tc main_arg5) :=
  after_of_forall_not_mem (b := (Proc.devRef .tc main_arg5)) _ _ (List.forall_iff_forall_mem.mp (by
    simp only [line, List.Forall, nullary_writes, unary_writes, binary_writes, ternary_writes, quaternary_writes, reshape_writes, Finset.mem_singleton]
    repeat' apply And.intro
    all_goals exact devRef_ne_of_ne (by decide)))

section Result
variable (m : (ℓ : Loc nD τ sig) → Buf (Elt F) ℓ) (c : Dev nD)

/-- The returned array after the whole line from the launch contents: the log-softmax of the second layer on the first
    layer on the node features, the edge list's sources, targets and weights those of the edge argument. -/
theorem result : after line (launchContents m c) (Proc.devRef .tc main_v62) = (logSoftmax (layer2 (layer1 (m ((c : Thread nD τ).loc main_arg0)) (m ((c : Thread nD τ).loc main_arg2)) (m ((c : Thread nD τ).loc main_arg3)) (endpoints ![0, 0] slices_S2x625000_S1x625000_0_0 (m ((c : Thread nD τ).loc main_arg1))) (endpoints ![1, 0] slices_S2x625000_S1x625000_1_0 (m ((c : Thread nD τ).loc main_arg1))) (edgeWeight (endpoints ![0, 0] slices_S2x625000_S1x625000_0_0 (m ((c : Thread nD τ).loc main_arg1))) (endpoints ![1, 0] slices_S2x625000_S1x625000_1_0 (m ((c : Thread nD τ).loc main_arg1))))) (m ((c : Thread nD τ).loc main_arg4)) (m ((c : Thread nD τ).loc main_arg5)) (endpoints ![0, 0] slices_S2x625000_S1x625000_0_0 (m ((c : Thread nD τ).loc main_arg1))) (endpoints ![1, 0] slices_S2x625000_S1x625000_1_0 (m ((c : Thread nD τ).loc main_arg1))) (edgeWeight (endpoints ![0, 0] slices_S2x625000_S1x625000_0_0 (m ((c : Thread nD τ).loc main_arg1))) (endpoints ![1, 0] slices_S2x625000_S1x625000_1_0 (m ((c : Thread nD τ).loc main_arg1)))))) := by
  rw [after_line, softmax_value]
  refine (eq_of_heq (toBuf_heq _ _)).trans (congrArg logSoftmax ((eq_of_heq (ofBuf_heq _ _)).trans ?_))
  rw [layer2_value]
  refine layer2_congr ?_ ?_ ?_ ?_ ?_ ?_
  · rw [layer1_value]
    exact layer1_congr (edge_keeps_arg0 _) (edge_keeps_arg2 _) (edge_keeps_arg3 _) (edge_sources _) (edge_targets _) (edge_weights _)
  · exact (layer1_keeps_arg4 _).trans (edge_keeps_arg4 _)
  · exact (layer1_keeps_arg5 _).trans (edge_keeps_arg5 _)
  · exact (layer1_keeps_sources _).trans (edge_sources _)
  · exact (layer1_keeps_targets _).trans (edge_targets _)
  · exact (layer1_keeps_weights _).trans (edge_weights _)

end Result

end Cert.ReferenceIdeal.Walk

end
-- ==== Proof.RefValues.lean ====
/-
  The idealized reference's layer functions, on the extended reals, are the whole-array functions of the
  specification, index by index: a bias vector broadcast to a [1, n] row has the vector's entries; each of the two
  matrix products is entry (r, c) ↦ ∑ₖ x(r, k) · w(k, c); the first layer is bias-then-rectifier of the aggregated
  product; and the row log-softmax of the second layer is, with z the biased row, (z_c − max z) − log ∑ⱼ exp (z_j − max z),
  the row maximum being the fold of max from −∞ (joining it with −∞ once more changes nothing) and the row sum starting
  from the zero word's value, which is 0.
-/
import proofs.«105643_j20203526160738_1_alg».proof.Proof.RefWalk
import proofs.«105643_j20203526160738_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.Values

open Cert.ReferenceIdeal Cert.ReferenceIdeal.Walk Cert.ReferenceIdeal.Facts₀ Cert.ReferenceIdeal.Facts
open Idealize.ShloMosaic Idealize.ShloMosaic.TcCoe Idealize.ShloMosaic.ValueIdx

/-! ## A bias vector as a [1, n] row -/

/-- The 128-entry bias broadcast to a [1, 128] row: entry (0, c) is entry c. -/
theorem row128_apply (b1 : (⟨S128, .f32⟩ : BufTy).Contents (Elt Ideal)) (c : Fin 128) :
    broadcastInDim S1x128 ![1] bcast_S128_S1x128_1 b1 (ix2 (0 : Fin 1) c) = b1 (ix1 c) :=
  broadcastInDim_apply _ bcast_S128_S1x128_1 b1 (ix2 (0 : Fin 1) c) (ix1 c) (fun a => match a with
    | ⟨0, _⟩ => by show c.val = if (128 : Nat) = 1 then 0 else c.val; rw [if_neg (by decide)])

/-- The 32-entry bias broadcast to a [1, 32] row: entry (0, c) is entry c. -/
theorem row32_apply (b2 : (⟨S32, .f32⟩ : BufTy).Contents (Elt Ideal)) (c : Fin 32) :
    broadcastInDim S1x32 ![1] bcast_S32_S1x32_1 b2 (ix2 (0 : Fin 1) c) = b2 (ix1 c) :=
  broadcastInDim_apply _ bcast_S32_S1x32_1 b2 (ix2 (0 : Fin 1) c) (ix1 c) (fun a => match a with
    | ⟨0, _⟩ => by show c.val = if (32 : Nat) = 1 then 0 else c.val; rw [if_neg (by decide)])

/-! ## The two matrix products -/

/-- The contraction of the [100000,128] × [128,128] product has one axis of extent 128. -/
abbrev dims128 := dot_S100000x128_S128x128_S100000x128_1_0_0_1_n_n
/-- The contraction of the [100000,128] × [128,32] product has one axis of extent 128. -/
abbrev dims32 := dot_S100000x128_S128x32_S100000x32_1_0_0_1_n_n

/-- The left operand's index at output (r, c) and contraction index q is (r, q). -/
theorem lhs128_row (j : S100000x128.Idx) (q : dims128.contr.Idx) : (dims128.lhsIdx j q 0).val = (j 0).val := by
  unfold DotDims.lhsIdx
  rw [dif_neg (show ¬(0 : Fin S100000x128.rank) ∈ dims128.lhsBatch by decide), dif_pos (show (0 : Fin S100000x128.rank) ∈ dims128.lhsNonContracting by decide)]
  rfl
theorem lhs128_col (j : S100000x128.Idx) (q : dims128.contr.Idx) : (dims128.lhsIdx j q 1).val = (q ⟨0, by decide⟩).val :=
  dims128.lhsIdx_val_of_single rfl j q
/-- The right operand's index at output (r, c) and contraction index q is (q, c). -/
theorem rhs128_row (j : S100000x128.Idx) (q : dims128.contr.Idx) : (dims128.rhsIdx j q 0).val = (q ⟨0, by decide⟩).val :=
  dims128.rhsIdx_val_of_single rfl j q
theorem rhs128_col (j : S100000x128.Idx) (q : dims128.contr.Idx) : (dims128.rhsIdx j q 1).val = (j 1).val := by
  unfold DotDims.rhsIdx
  rw [dif_neg (show ¬(1 : Fin S128x128.rank) ∈ dims128.rhsBatch by decide), dif_pos (show (1 : Fin S128x128.rank) ∈ dims128.rhsNonContracting by decide)]
  rfl

/-- The first layer's product is the whole-array product: entry (r, c) is ∑ₖ x(r, k) · w(k, c). -/
theorem dot128_eq (x : (⟨S100000x128, .f32⟩ : BufTy).Contents (Elt Ideal)) (w1 : (⟨S128x128, .f32⟩ : BufTy).Contents (Elt Ideal)) :
    Host.dotGeneral (F := Ideal) (φ₁ := .f32) (φ₂ := .f32) dot_S100000x128_S128x128_S100000x128_1_0_0_1_n_n none x w1 = Cert.Gcn.lin128 x w1 := by
  funext i
  simp only [Host.dotGeneral]
  rw [Ideal.dotGeneral_apply, ← Equiv.sum_comp (contrEquiv1 dims128 128 rfl rfl).symm]
  unfold Cert.Gcn.lin128
  refine Finset.sum_congr rfl fun k _ => ?_
  have hk := contrEquiv1_symm_val dims128 128 rfl rfl k
  refine congrArg₂ (· * ·) (congrArg x (funext fun a => Fin.ext ?_)) (congrArg w1 (funext fun a => Fin.ext ?_))
  · match a with
    | ⟨0, _⟩ => exact lhs128_row _ _
    | ⟨1, _⟩ => exact (lhs128_col _ _).trans hk
  · match a with
    | ⟨0, _⟩ => exact (rhs128_row _ _).trans hk
    | ⟨1, _⟩ => exact rhs128_col _ _

theorem lhs32_row (j : S100000x32.Idx) (q : dims32.contr.Idx) : (dims32.lhsIdx j q 0).val = (j 0).val := by
  unfold DotDims.lhsIdx
  rw [dif_neg (show ¬(0 : Fin S100000x128.rank) ∈ dims32.lhsBatch by decide), dif_pos (show (0 : Fin S100000x128.rank) ∈ dims32.lhsNonContracting by decide)]
  rfl
theorem lhs32_col (j : S100000x32.Idx) (q : dims32.contr.Idx) : (dims32.lhsIdx j q 1).val = (q ⟨0, by decide⟩).val :=
  dims32.lhsIdx_val_of_single rfl j q
theorem rhs32_row (j : S100000x32.Idx) (q : dims32.contr.Idx) : (dims32.rhsIdx j q 0).val = (q ⟨0, by decide⟩).val :=
  dims32.rhsIdx_val_of_single rfl j q
theorem rhs32_col (j : S100000x32.Idx) (q : dims32.contr.Idx) : (dims32.rhsIdx j q 1).val = (j 1).val := by
  unfold DotDims.rhsIdx
  rw [dif_neg (show ¬(1 : Fin S128x32.rank) ∈ dims32.rhsBatch by decide), dif_pos (show (1 : Fin S128x32.rank) ∈ dims32.rhsNonContracting by decide)]
  rfl

/-- The second layer's product is the whole-array product: entry (r, c) is ∑ₖ h(r, k) · w(k, c). -/
theorem dot32_eq (x : (⟨S100000x128, .f32⟩ : BufTy).Contents (Elt Ideal)) (w2 : (⟨S128x32, .f32⟩ : BufTy).Contents (Elt Ideal)) :
    Host.dotGeneral (F := Ideal) (φ₁ := .f32) (φ₂ := .f32) dot_S100000x128_S128x32_S100000x32_1_0_0_1_n_n none x w2 = Cert.Gcn.lin32 x w2 := by
  funext i
  simp only [Host.dotGeneral]
  rw [Ideal.dotGeneral_apply, ← Equiv.sum_comp (contrEquiv1 dims32 128 rfl rfl).symm]
  unfold Cert.Gcn.lin32
  refine Finset.sum_congr rfl fun k _ => ?_
  have hk := contrEquiv1_symm_val dims32 128 rfl rfl k
  refine congrArg₂ (· * ·) (congrArg x (funext fun a => Fin.ext ?_)) (congrArg w2 (funext fun a => Fin.ext ?_))
  · match a with
    | ⟨0, _⟩ => exact lhs32_row _ _
    | ⟨1, _⟩ => exact (lhs32_col _ _).trans hk
  · match a with
    | ⟨0, _⟩ => exact (rhs32_row _ _).trans hk
    | ⟨1, _⟩ => exact rhs32_col _ _

/-! ## The first layer -/

/-- The first layer is bias-then-rectifier of the aggregated whole-array product, the bias as its [1, 128] row. -/
theorem layer1_eq (x : (⟨S100000x128, .f32⟩ : BufTy).Contents (Elt Ideal)) (w1 : (⟨S128x128, .f32⟩ : BufTy).Contents (Elt Ideal))
    (b1 : (⟨S128, .f32⟩ : BufTy).Contents (Elt Ideal)) (s d : (⟨S725000, .i32⟩ : BufTy).Contents (Elt Ideal))
    (n : (⟨S725000, .f32⟩ : BufTy).Contents (Elt Ideal)) :
    layer1 (F := Ideal) x w1 b1 s d n
      = Cert.Gcn.biasRelu (aggregate128 (Cert.Gcn.lin128 x w1) s d n) (broadcastInDim S1x128 ![1] bcast_S128_S1x128_1 b1) := by
  funext i
  unfold layer1 Cert.Gcn.biasRelu
  rw [maximumf_apply, addf_apply]
  refine congrArg₂ max (congrArg₂ (· + ·) ?_ ?_) ?_
  · exact congrFun (congrArg (fun y => aggregate128 y s d n) (dot128_eq x w1)) i
  · exact broadcastInDim_apply _ bcast_S1x128_S100000x128_0_1 _ i (ix2 (0 : Fin 1) (i 1)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  · exact broadcastInDim_apply _ bcast_S_S100000x128 (constant (F := Ideal) S_ .f32 0x00000000#32) i (fun a => a.elim0) (fun a => a.elim0)

/-! ## The row log-softmax -/

/-- Dropping the column axis of a [100000, 32] array leaves its 100000 rows. -/
theorem rowAxis : S100000x32.Reduces [1] S100000 := by decide

/-- Row p with column k put back is the entry (p, k). -/
theorem lift_row (p : Fin 100000) (k : Fin 32) : rowAxis.lift (ix1 p) k = ix2 p k :=
  funext fun a => Fin.ext (by match a with | ⟨0, _⟩ => rfl | ⟨1, _⟩ => rfl)

/-- The log-softmax of one row z at column c: (z_c − max z) − log ∑ⱼ exp (z_j − max z). -/
def rowLogSoftmax (z : Fin 32 → EReal) (c : Fin 32) : EReal :=
  (z c - Cert.Gcn.rowMax z) - Ideal.log (∑ j : Fin 32, Ideal.exp (z j - Cert.Gcn.rowMax z))

/-- The bias-then-log-softmax of the whole array is, row by row, the log-softmax of the biased row. -/
theorem biasLogSoftmax_apply (a : (⟨2, ![100000, 32]⟩ : Shape).Idx → EReal) (b : (⟨2, ![1, 32]⟩ : Shape).Idx → EReal)
    (p : Fin 100000) (c : Fin 32) : Cert.Gcn.biasLogSoftmax a b (ix2 p c) = rowLogSoftmax (Cert.Gcn.logits a b p) c := rfl

/-- The host's logarithm and exponential act entry by entry. -/
theorem hostLog_apply {s : Shape} (x : FVec Ideal s .f32) (i : s.Idx) :
    Host.log (F := Ideal) (φ := .f32) x i = Ideal.log (x i) := Ideal.hostUnary_log_def (φ := .f32) (x i)
theorem hostExp_apply {s : Shape} (x : FVec Ideal s .f32) (i : s.Idx) :
    Host.exp (F := Ideal) (φ := .f32) x i = Ideal.exp (x i) := Ideal.hostUnary_exp_def (φ := .f32) (x i)

/-- The reduction by max along the columns, at row p: the fold of max over the row from the −∞ word's value. -/
theorem reduceMax_apply (y : (⟨S100000x32, .f32⟩ : BufTy).Contents (Elt Ideal)) (p : Fin 100000) :
    Host.reduce (FloatOps.maximumf (F := Ideal) (φ := .f32)) y (constant (F := Ideal) S_ .f32 0xFF800000#32)
        reducesTo_S100000x32_S100000_d1 h_S_ (ix1 p)
      = Cert.Gcn.rowMax (fun j => y (ix2 p j)) := by
  show Host.reduce (max : EReal → EReal → EReal) y _ _ _ (ix1 p) = _
  rw [Host.reduce_eq_fold_single (max : EReal → EReal → EReal) y _ reducesTo_S100000x32_S100000_d1 rowAxis h_S_ (ix1 p)]
  unfold Cert.Gcn.rowMax
  refine congrArg (fun f => (Finset.univ : Finset (Fin 32)).fold max (Ideal.ofBits .f32 0xFF800000#32) f) (funext fun k => ?_)
  exact congrArg y (lift_row p k)

/-- Each entry minus its row's maximum: joining the maximum with −∞ once more changes nothing, the fold starts there. -/
theorem shifted_apply (y : (⟨S100000x32, .f32⟩ : BufTy).Contents (Elt Ideal)) (p : Fin 100000) (c : Fin 32) :
    shifted (F := Ideal) y (ix2 p c) = y (ix2 p c) - Cert.Gcn.rowMax (fun j => y (ix2 p j)) := by
  unfold shifted
  rw [subf_apply]
  refine congrArg (y (ix2 p c) - ·) ?_
  refine (broadcastInDim_apply _ bcast_S100000x1_S100000x32_0_1 _ (ix2 p c) (ix2 p (0 : Fin 1)) (fun a => match a with
      | ⟨0, _⟩ => by show p.val = if (100000 : Nat) = 1 then 0 else p.val; rw [if_neg (by decide)]
      | ⟨1, _⟩ => by show 0 = if (1 : Nat) = 1 then 0 else c.val; rw [if_pos rfl])).trans ?_
  refine (broadcastInDim_apply _ bcast_S100000_S100000x1_0 _ (ix2 p (0 : Fin 1)) (ix1 p) (fun a => match a with
      | ⟨0, _⟩ => by show p.val = if (100000 : Nat) = 1 then 0 else p.val; rw [if_neg (by decide)])).trans ?_
  rw [maximumf_apply]
  refine (congrArg₂ max (broadcastInDim_apply _ bcast_S_S100000 (constant (F := Ideal) S_ .f32 0xFF800000#32) (ix1 p)
      (fun a => a.elim0) (fun a => a.elim0)) (reduceMax_apply y p)).trans ?_
  unfold Cert.Gcn.rowMax
  exact max_eq_right ((Finset.le_fold_max _).mpr (Or.inl le_rfl))

/-- The reference's row log-softmax at entry (p, c) is the log-softmax of row p at column c. -/
theorem logSoftmax_apply (y : (⟨S100000x32, .f32⟩ : BufTy).Contents (Elt Ideal)) (p : Fin 100000) (c : Fin 32) :
    logSoftmax (F := Ideal) y (ix2 p c) = rowLogSoftmax (fun j => y (ix2 p j)) c := by
  unfold logSoftmax rowLogSoftmax
  rw [subf_apply, shifted_apply]
  refine congrArg ((y (ix2 p c) - Cert.Gcn.rowMax (fun j => y (ix2 p j))) - ·) ?_
  refine (broadcastInDim_apply _ bcast_S100000x1_S100000x32_0_1 _ (ix2 p c) (ix2 p (0 : Fin 1)) (fun a => match a with
      | ⟨0, _⟩ => by show p.val = if (100000 : Nat) = 1 then 0 else p.val; rw [if_neg (by decide)]
      | ⟨1, _⟩ => by show 0 = if (1 : Nat) = 1 then 0 else c.val; rw [if_pos rfl])).trans ?_
  refine (hostLog_apply _ (ix2 p (0 : Fin 1))).trans (congrArg Ideal.log ?_)
  refine (broadcastInDim_apply _ bcast_S100000_S100000x1_0 _ (ix2 p (0 : Fin 1)) (ix1 p) (fun a => match a with
      | ⟨0, _⟩ => by show p.val = if (100000 : Nat) = 1 then 0 else p.val; rw [if_neg (by decide)])).trans ?_
  simp only [Host.reduceAdd, Ideal.hostReduceAdd_def]
  rw [Ideal.hostReduceAdd_single reducesTo_S100000x32_S100000_d1 rowAxis]
  refine (congrArg₂ (· + ·) Ideal.ofBits_zero_f32 (Finset.sum_congr rfl fun k _ => ?_)).trans (zero_add _)
  refine (congrArg (Host.exp (F := Ideal) (φ := .f32) (shifted (F := Ideal) y)) (lift_row p k)).trans ?_
  exact (hostExp_apply _ (ix2 p k)).trans (congrArg Ideal.exp (shifted_apply y p k))

/-! ## The second layer, then the row log-softmax -/

/-- The second layer at entry (p, j) is the biased logit: the aggregated whole-array product plus the bias row. -/
theorem layer2_apply (h : (⟨S100000x128, .f32⟩ : BufTy).Contents (Elt Ideal)) (w2 : (⟨S128x32, .f32⟩ : BufTy).Contents (Elt Ideal))
    (b2 : (⟨S32, .f32⟩ : BufTy).Contents (Elt Ideal)) (s d : (⟨S725000, .i32⟩ : BufTy).Contents (Elt Ideal))
    (n : (⟨S725000, .f32⟩ : BufTy).Contents (Elt Ideal)) (p : Fin 100000) (j : Fin 32) :
    layer2 (F := Ideal) h w2 b2 s d n (ix2 p j)
      = Cert.Gcn.logits (aggregate32 (Cert.Gcn.lin32 h w2) s d n) (broadcastInDim S1x32 ![1] bcast_S32_S1x32_1 b2) p j := by
  unfold layer2 Cert.Gcn.logits
  rw [addf_apply]
  refine congrArg₂ (· + ·) ?_ ?_
  · exact congrFun (congrArg (fun y => aggregate32 y s d n) (dot32_eq h w2)) (ix2 p j)
  · exact broadcastInDim_apply _ bcast_S1x32_S100000x32_0_1 _ (ix2 p j) (ix2 (0 : Fin 1) j) (fun a => match a with
      | ⟨0, _⟩ => by show 0 = if (1 : Nat) = 1 then 0 else p.val; rw [if_pos rfl]
      | ⟨1, _⟩ => by show j.val = if (32 : Nat) = 1 then 0 else j.val; rw [if_neg (by decide)])

/-- The reference's log-softmax of the second layer is bias-then-log-softmax of the aggregated whole-array product,
    the bias as its [1, 32] row. -/
theorem logSoftmax_layer2_eq (h : (⟨S100000x128, .f32⟩ : BufTy).Contents (Elt Ideal)) (w2 : (⟨S128x32, .f32⟩ : BufTy).Contents (Elt Ideal))
    (b2 : (⟨S32, .f32⟩ : BufTy).Contents (Elt Ideal)) (s d : (⟨S725000, .i32⟩ : BufTy).Contents (Elt Ideal))
    (n : (⟨S725000, .f32⟩ : BufTy).Contents (Elt Ideal)) :
    logSoftmax (F := Ideal) (layer2 h w2 b2 s d n)
      = Cert.Gcn.biasLogSoftmax (aggregate32 (Cert.Gcn.lin32 h w2) s d n) (broadcastInDim S1x32 ![1] bcast_S32_S1x32_1 b2) := by
  funext i
  obtain ⟨p, c, rfl⟩ : ∃ (p : Fin 100000) (c : Fin 32), i = ix2 p c := ⟨i 0, i 1, eq_ix2 i⟩
  rw [logSoftmax_apply, biasLogSoftmax_apply]
  exact congrArg (fun z => rowLogSoftmax z c) (funext fun j => layer2_apply h w2 b2 s d n p j)

end Cert.ReferenceIdeal.Values

end
-- ==== Proof.Bridge.lean ====
/-
  The two idealized programs compute one function, and the claims.

  Both programs are: the edge list's sources, targets and normalisation weights; x·W1 aggregated over the edges, plus
  b1, rectified; that times W2 aggregated, plus b2; the row log-softmax. The kernel does the matrix products and the
  two bias steps in grid regions, whose arrays are the whole-array functions of Spec; the reference does them as
  whole-array operations, which are the same functions index by index (a product row by row is the same sum over k;
  max (a + b) 0 entry by entry; (z − max z) − log ∑ exp (z − max z) along each row, the reference's extra join of the
  maximum with −∞ changing nothing). The operations on the edge list are literally the same in both programs.
  The kernel hands its bias to the region as a [1, n] row made by a reshape, the reference by a broadcast: both rows
  hold b(c) at (0, c), which is all the functions read.
-/
import proofs.«105643_j20203526160738_1_alg».proof.Defs
import proofs.«105643_j20203526160738_1_alg».proof.Proof.Gen.Kernel.Frame
import proofs.«105643_j20203526160738_1_alg».proof.Proof.KernelRun
import proofs.«105643_j20203526160738_1_alg».proof.Proof.KernelValue
import proofs.«105643_j20203526160738_1_alg».proof.Proof.RegionLin128
import proofs.«105643_j20203526160738_1_alg».proof.Proof.RegionBiasRelu
import proofs.«105643_j20203526160738_1_alg».proof.Proof.RegionLin32
import proofs.«105643_j20203526160738_1_alg».proof.Proof.RegionLogSoftmax
import proofs.«105643_j20203526160738_1_alg».proof.Proof.KernelRows
import proofs.«105643_j20203526160738_1_alg».proof.Proof.SpecLaws
import proofs.«105643_j20203526160738_1_alg».proof.Proof.RefValue
import proofs.«105643_j20203526160738_1_alg».proof.Proof.RefValues
import proofs.«105643_j20203526160738_1_alg».proof.Proof.Gen.Pre_finite_inputs

set_option maxRecDepth 16384

noncomputable section

namespace Cert.Proof.Bridge

open Idealize.ShloMosaic Idealize.ShloMosaic.TcCoe Idealize.SL.Sem Idealize.ShloMosaic.ValueIdx

/-- Each region's output array after its ten grid points is its whole-array function of its operand arrays. -/
theorem regionFacts : Cert.KernelIdeal.Fold.RegionFacts :=
  ⟨Cert.KernelIdeal.RegionLin128.final, Cert.KernelIdeal.RegionBiasRelu.final, Cert.KernelIdeal.RegionLin32.final,
    Cert.KernelIdeal.RegionLogSoftmax.final⟩

/-! ## The operations on the edge list are the same in both programs -/

section SameGlue
open Cert.KernelIdeal

theorem endpoints_eq (row : Fin 2 → Nat) (hk : Cert.KernelIdeal.S2x625000.Slices row Cert.KernelIdeal.S1x625000)
    (hr : Cert.ReferenceIdeal.S2x625000.Slices row Cert.ReferenceIdeal.S1x625000) (e : (⟨S2x625000, .i32⟩ : BufTy).Contents (Elt Ideal)) :
    Cert.KernelIdeal.Fold.endpoints (F := Ideal) row hk e = Cert.ReferenceIdeal.Walk.endpoints (F := Ideal) row hr e := rfl

theorem edgeWeight_eq (s d : (⟨S725000, .i32⟩ : BufTy).Contents (Elt Ideal)) :
    Cert.KernelIdeal.Fold.edgeWeight (F := Ideal) s d = Cert.ReferenceIdeal.Walk.edgeWeight (F := Ideal) s d := rfl

theorem aggregate128_eq (h : (⟨S100000x128, .f32⟩ : BufTy).Contents (Elt Ideal)) (s d : (⟨S725000, .i32⟩ : BufTy).Contents (Elt Ideal))
    (n : (⟨S725000, .f32⟩ : BufTy).Contents (Elt Ideal)) :
    Cert.KernelIdeal.Fold.aggregate128 (F := Ideal) h s d n = Cert.ReferenceIdeal.Walk.aggregate128 (F := Ideal) h s d n := rfl

theorem aggregate32_eq (h : (⟨S100000x32, .f32⟩ : BufTy).Contents (Elt Ideal)) (s d : (⟨S725000, .i32⟩ : BufTy).Contents (Elt Ideal))
    (n : (⟨S725000, .f32⟩ : BufTy).Contents (Elt Ideal)) :
    Cert.KernelIdeal.Fold.aggregate32 (F := Ideal) h s d n = Cert.ReferenceIdeal.Walk.aggregate32 (F := Ideal) h s d n := rfl

end SameGlue

/-! ## One function of the arguments -/

section OneFunction
open Cert.KernelIdeal

/-- The reference's result term, of the kernel's argument arrays, is the kernel's result term. -/
theorem same_value (x0 : (⟨S100000x128, .f32⟩ : BufTy).Contents (Elt Ideal))
    (x2 : (⟨S128x128, .f32⟩ : BufTy).Contents (Elt Ideal)) (x3 : (⟨S128, .f32⟩ : BufTy).Contents (Elt Ideal))
    (x4 : (⟨S128x32, .f32⟩ : BufTy).Contents (Elt Ideal)) (x5 : (⟨S32, .f32⟩ : BufTy).Contents (Elt Ideal))
    (sk dk : (⟨S725000, .i32⟩ : BufTy).Contents (Elt Ideal)) :
    Cert.ReferenceIdeal.Walk.logSoftmax (F := Ideal)
        (Cert.ReferenceIdeal.Walk.layer2 (Cert.ReferenceIdeal.Walk.layer1 x0 x2 x3 sk dk (Cert.ReferenceIdeal.Walk.edgeWeight sk dk)) x4 x5 sk dk
          (Cert.ReferenceIdeal.Walk.edgeWeight sk dk))
      = Cert.Gcn.biasLogSoftmax
          (Cert.KernelIdeal.Fold.aggregate32
            (Cert.Gcn.lin32
              (Cert.Gcn.biasRelu (Cert.KernelIdeal.Fold.aggregate128 (Cert.Gcn.lin128 x0 x2) sk dk (Cert.KernelIdeal.Fold.edgeWeight sk dk))
                (shapeCast S1x128 x3 Cert.KernelIdeal.Facts₀.shapeCasts_S128_S1x128))
              x4)
            sk dk (Cert.KernelIdeal.Fold.edgeWeight sk dk))
          (shapeCast S1x32 x5 Cert.KernelIdeal.Facts₀.shapeCasts_S32_S1x32) := by
  rw [Cert.ReferenceIdeal.Values.logSoftmax_layer2_eq, Cert.ReferenceIdeal.Values.layer1_eq]
  rw [← edgeWeight_eq, ← aggregate128_eq, ← aggregate32_eq]
  have row1 : Cert.Gcn.biasRelu (Cert.KernelIdeal.Fold.aggregate128 (Cert.Gcn.lin128 x0 x2) sk dk (Cert.KernelIdeal.Fold.edgeWeight sk dk))
        (broadcastInDim Cert.ReferenceIdeal.S1x128 ![1] Cert.ReferenceIdeal.Facts₀.bcast_S128_S1x128_1 x3)
      = Cert.Gcn.biasRelu (Cert.KernelIdeal.Fold.aggregate128 (Cert.Gcn.lin128 x0 x2) sk dk (Cert.KernelIdeal.Fold.edgeWeight sk dk))
        (shapeCast S1x128 x3 Cert.KernelIdeal.Facts₀.shapeCasts_S128_S1x128) :=
    Cert.Gcn.biasRelu_congr_row _ _ _ fun c =>
      (Cert.ReferenceIdeal.Values.row128_apply x3 c).trans (Cert.KernelIdeal.Rows.row128_apply x3 c).symm
  rw [row1]
  exact Cert.Gcn.biasLogSoftmax_congr_row _ _ _ fun c =>
    (Cert.ReferenceIdeal.Values.row32_apply x5 c).trans (Cert.KernelIdeal.Rows.row32_apply x5 c).symm

end OneFunction

end Cert.Proof.Bridge

/-! ## The claims -/

namespace Cert.Proof.Claims

open Idealize.ShloMosaic Idealize.ShloMosaic.TcCoe Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs, and no operation of its line writes an argument. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.Walk.line_keeps_arg0 _),
     (h c Cert.ReferenceIdeal.main_arg1).trans (Cert.ReferenceIdeal.Walk.line_keeps_arg1 _),
     (h c Cert.ReferenceIdeal.main_arg2).trans (Cert.ReferenceIdeal.Walk.line_keeps_arg2 _),
     (h c Cert.ReferenceIdeal.main_arg3).trans (Cert.ReferenceIdeal.Walk.line_keeps_arg3 _),
     (h c Cert.ReferenceIdeal.main_arg4).trans (Cert.ReferenceIdeal.Walk.line_keeps_arg4 _),
     (h c Cert.ReferenceIdeal.main_arg5).trans (Cert.ReferenceIdeal.Walk.line_keeps_arg5 _)⟩)
    (Cert.ReferenceIdeal.Walk.run (F := Ideal) m ρ)

/-- The ideal pass rewrote nothing: the idealization is the program's own text read on the extended reals. -/
theorem preserves : Cert.preserves_Kernel_KernelIdeal := trivial

/-- From memories agreeing on the arguments both idealized programs end with the same array: the kernel's run names its
    result, the reference's line is read part by part, and the two terms are one function of the arguments. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Fold.result m ρ c Cert.Proof.Bridge.regionFacts), (h c).2⟩)
    (Cert.KernelIdeal.Named.run_named m ρ), ?_⟩
  refine (θ_run Cert.ReferenceIdeal.defs _ _).mono (fun r h c =>
    ⟨(h c Cert.ReferenceIdeal.main_v62).trans ((Cert.ReferenceIdeal.Walk.result m' c).trans ?_),
     (h c Cert.ReferenceIdeal.main_arg0).trans (Cert.ReferenceIdeal.Walk.line_keeps_arg0 _),
     (h c Cert.ReferenceIdeal.main_arg1).trans (Cert.ReferenceIdeal.Walk.line_keeps_arg1 _),
     (h c Cert.ReferenceIdeal.main_arg2).trans (Cert.ReferenceIdeal.Walk.line_keeps_arg2 _),
     (h c Cert.ReferenceIdeal.main_arg3).trans (Cert.ReferenceIdeal.Walk.line_keeps_arg3 _),
     (h c Cert.ReferenceIdeal.main_arg4).trans (Cert.ReferenceIdeal.Walk.line_keeps_arg4 _),
     (h c Cert.ReferenceIdeal.main_arg5).trans (Cert.ReferenceIdeal.Walk.line_keeps_arg5 _)⟩)
    (Cert.ReferenceIdeal.Walk.run (F := Ideal) m' ρ')
  obtain ⟨e0, e1, e2, e3, e4, e5⟩ := hagree c
  rw [e0, e1, e2, e3, e4, e5]
  exact Cert.Proof.Bridge.same_value _ _ _ _ _
    (Cert.KernelIdeal.Fold.endpoints ![0, 0] Cert.KernelIdeal.Gen.slices_S2x625000_S1x625000_0_0
      (m ((c.tc : Thread Cert.KernelIdeal.nD Cert.KernelIdeal.τ).loc Cert.KernelIdeal.main_arg1)))
    (Cert.KernelIdeal.Fold.endpoints ![1, 0] Cert.KernelIdeal.Gen.slices_S2x625000_S1x625000_1_0
      (m ((c.tc : Thread Cert.KernelIdeal.nD Cert.KernelIdeal.τ).loc Cert.KernelIdeal.main_arg1)))

end Cert.Proof.Claims

end
-- ==== Proof.lean ====
/-
  The proof of `Cert.Claim`: a two-layer graph convolution with a row log-softmax, computed by a kernel of four grid
  regions (two matrix products, a bias-and-rectifier, a bias-and-log-softmax) around plain gather / scale / scatter-add
  steps on the edge list, against the same network written with whole-array operations. The three frames, the
  (empty) idealization ledger and the equality of the two results on the extended reals are in Proof/Bridge.lean, over:
  Proof/Spec.lean (what each region computes, as one function), Proof/Region*.lean (each region's array after its ten grid
  points is that function), Proof/KernelRun.lean, KernelFold.lean, KernelValue.lean (the kernel's result through its
  boundaries), Proof/RefRun.lean, RefWalk.lean, RefSoftmax.lean, RefValue.lean, RefValues.lean (the reference's line read
  part by part, and its layers as the same functions).
-/
import proofs.«105643_j20203526160738_1_alg».proof.Defs
import proofs.«105643_j20203526160738_1_alg».proof.Proof.Bridge
import proofs.«105643_j20203526160738_1_alg».proof.Proof.Gen.Kernel
import proofs.«105643_j20203526160738_1_alg».proof.Proof.Gen.KernelIdeal
import proofs.«105643_j20203526160738_1_alg».proof.Proof.Gen.ReferenceIdeal
import proofs.«105643_j20203526160738_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
